-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x768 : Shape := ⟨3, ![16, 128, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S_ : Shape := ⟨0, ![]⟩

class Facts : Prop where
  bcast_S_S16x128x768 : S_.BroadcastsInDim S16x128x768 (![] : Fin 0 → Fin S16x128x768.rank)
  reducesTo_S16x128x768_S_d0_1_2 : S16x128x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S768x3072 : S_.BroadcastsInDim S768x3072 (![] : Fin 0 → Fin S768x3072.rank)
  reducesTo_S768x3072_S_d0_1 : S768x3072.ReducesTo [0, 1] S_
  bcast_S_S3072 : S_.BroadcastsInDim S3072 (![] : Fin 0 → Fin S3072.rank)
  reducesTo_S3072_S_d0 : S3072.ReducesTo [0] S_
  bcast_S_S3072x768 : S_.BroadcastsInDim S3072x768 (![] : Fin 0 → Fin S3072x768.rank)
  reducesTo_S3072x768_S_d0_1 : S3072x768.ReducesTo [0, 1] S_

variable [Facts]

def fn_part3 {F : FTy → Type} [FloatOps F] (main_arg11 : FVec F S768 .f32) (main_arg12 : FVec F S768 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  let main_v59 : FVec F S768 .f32 := Host.absf main_arg12
  let main_cst_22 : FVec F S_ .f32 := constant S_ .f32 0x7F800000#32
  let main_v60 : FVec F S768 .f32 := broadcastInDim S768 ![] bcast_S_S768 main_cst_22
  let main_v61 : IVec S768 1 := cmpf .olt main_v59 main_v60
  let main_c_23 : IVec S_ 1 := constantI S_ 1 1#1
  let main_v62 : IVec S_ 1 := (fun x v => Host.reduce IntOp.andi x v reducesTo_S768_S_d0 h_S_) main_v61 main_c_23
  let main_v63 : IVec S_ 1 := andi main_v58 main_v62
  main_v63

def fn_part2 {F : FTy → Type} [FloatOps F] (main_arg7 : FVec F S3072x768 .f32) (main_arg8 : FVec F S768 .f32) (main_arg9 : FVec F S768 .f32) (main_arg10 : FVec F S768 .f32) (main_arg11 : FVec F S768 .f32) (main_arg12 : FVec F S768 .f32) (main_v33 : IVec S_ 1) : IVec S_ 1 :=
  let main_v34 : FVec F S3072x768 .f32 := Host.absf main_arg7
  let main_cst_12 : FVec F S_ .f32 := constant S_ .f32 0x7F800000#32
  let main_v35 : FVec F S3072x768 .f32 := broadcastInDim S3072x768 ![] bcast_S_S3072x768 main_cst_12
  let main_v36 : IVec S3072x768 1 := cmpf .olt main_v34 main_v35
  let main_c_13 : IVec S_ 1 := constantI S_ 1 1#1
  let main_v37 : IVec S_ 1 := (fun x v => Host.reduce IntOp.andi x v reducesTo_S3072x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_arg12 main_v48 main_v49 main_v50

def fn_part1 {F : FTy → Type} [FloatOps F] (main_arg4 : FVec F S768 .f32) (main_arg5 : FVec F S768x3072 .f32) (main_arg6 : FVec F S3072 .f32) (main_arg7 : FVec F S3072x768 .f32) (main_arg8 : FVec F S768 .f32) (main_arg9 : FVec F S768 .f32) (main_arg10 : FVec F S768 .f32) (main_arg11 : FVec F S768 .f32) (main_arg12 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x3072 .f32 := Host.absf main_arg5
  let main_cst_8 : FVec F S_ .f32 := constant S_ .f32 0x7F800000#32
  let main_v25 : FVec F S768x3072 .f32 := broadcastInDim S768x3072 ![] bcast_S_S768x3072 main_cst_8
  let main_v26 : IVec S768x3072 1 := cmpf .olt main_v24 main_v25
  let main_c_9 : IVec S_ 1 := constantI S_ 1 1#1
  let main_v27 : IVec S_ 1 := (fun x v => Host.reduce IntOp.andi x v reducesTo_S768x3072_S_d0_1 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16x128x768 .f32) (main_arg1 : FVec F S768x2304 .f32) (main_arg2 : FVec F S2304 .f32) (main_arg3 : FVec F S768x768 .f32) (main_arg4 : FVec F S768 .f32) (main_arg5 : FVec F S768x3072 .f32) (main_arg6 : FVec F S3072 .f32) (main_arg7 : FVec F S3072x768 .f32) (main_arg8 : FVec F S768 .f32) (main_arg9 : FVec F S768 .f32) (main_arg10 : FVec F S768 .f32) (main_arg11 : FVec F S768 .f32) (main_arg12 : FVec F S768 .f32) : IVec S_ 1 :=
  let main_v0 : FVec F S16x128x768 .f32 := Host.absf main_arg0
  let main_cst : FVec F S_ .f32 := constant S_ .f32 0x7F800000#32
  let main_v1 : FVec F S16x128x768 .f32 := broadcastInDim S16x128x768 ![] bcast_S_S16x128x768 main_cst
  let main_v2 : IVec S16x128x768 1 := cmpf .olt main_v0 main_v1
  let main_c : IVec S_ 1 := constantI S_ 1 1#1
  let main_v3 : IVec S_ 1 := (fun x v => Host.reduce IntOp.andi x v reducesTo_S16x128x768_S_d0_1_2 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_arg7 main_arg8 main_arg9 main_arg10 main_arg11 main_arg12 main_v13 main_v16
-- ==== Kernel.lean ====
abbrev S16x128x768 : Shape := ⟨3, ![16, 128, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S2048x768 : Shape := ⟨2, ![2048, 768]⟩
abbrev S1x2304 : Shape := ⟨2, ![1, 2304]⟩
abbrev S16x1536x64 : Shape := ⟨3, ![16, 1536, 64]⟩
abbrev S128x768 : Shape := ⟨2, ![128, 768]⟩
abbrev S1x1536x64 : Shape := ⟨3, ![1, 1536, 64]⟩
abbrev S128x2304 : Shape := ⟨2, ![128, 2304]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S1x128x64 : Shape := ⟨3, ![1, 128, 64]⟩
abbrev S1x768 : Shape := ⟨2, ![1, 768]⟩
abbrev S1x3072 : Shape := ⟨2, ![1, 3072]⟩
abbrev S256x768 : Shape := ⟨2, ![256, 768]⟩
abbrev S256 : Shape := ⟨1, ![256]⟩
abbrev S256x1 : Shape := ⟨2, ![256, 1]⟩
abbrev S256x3072 : Shape := ⟨2, ![256, 3072]⟩

abbrev nBuf : Space → Nat
  | .hbm => 30
  | .vmem => 22
  | .smem => 0
  | _ => 0

abbrev bufTy : (tb : Table) → Fin (tcTables nBuf tb) → BufTy
  | .hbm, ⟨0, _⟩ => ⟨S16x128x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S768x3072, .f32⟩
  | .hbm, ⟨6, _⟩ => ⟨S3072, .f32⟩
  | .hbm, ⟨7, _⟩ => ⟨S3072x768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S2048x768, .f32⟩
  | .hbm, ⟨14, _⟩ => ⟨S768x2304, .bf16⟩
  | .hbm, ⟨15, _⟩ => ⟨S768x768, .bf16⟩
  | .hbm, ⟨16, _⟩ => ⟨S768x3072, .bf16⟩
  | .hbm, ⟨17, _⟩ => ⟨S3072x768, .bf16⟩
  | .hbm, ⟨18, _⟩ => ⟨S1x2304, .f32⟩
  | .hbm, ⟨19, _⟩ => ⟨S16x1536x64, .bf16⟩
  | .hbm, ⟨20, _⟩ => ⟨S2048x768, .bf16⟩
  | .hbm, ⟨21, _⟩ => ⟨S1x768, .f32⟩
  | .hbm, ⟨22, _⟩ => ⟨S1x3072, .f32⟩
  | .hbm, ⟨23, _⟩ => ⟨S1x768, .f32⟩
  | .hbm, ⟨24, _⟩ => ⟨S1x768, .f32⟩
  | .hbm, ⟨25, _⟩ => ⟨S1x768, .f32⟩
  | .hbm, ⟨26, _⟩ => ⟨S1x768, .f32⟩
  | .hbm, ⟨27, _⟩ => ⟨S1x768, .f32⟩
  | .hbm, ⟨28, _⟩ => ⟨S2048x768, .f32⟩
  | .hbm, ⟨29, _⟩ => ⟨S16x128x768, .f32⟩
  | .local _ .vmem, ⟨0, _⟩ => ⟨S128x768, .f32⟩
  | .local _ .vmem, ⟨1, _⟩ => ⟨S128x768, .f32⟩
  | .local _ .vmem, ⟨2, _⟩ => ⟨S768x2304, .bf16⟩
  | .local _ .vmem, ⟨3, _⟩ => ⟨S1x2304, .f32⟩
  | .local _ .vmem, ⟨4, _⟩ => ⟨S1x1536x64, .bf16⟩
  | .local _ .vmem, ⟨5, _⟩ => ⟨S1x1536x64, .bf16⟩
  | .local _ .vmem, ⟨6, _⟩ => ⟨S256x768, .bf16⟩
  | .local _ .vmem, ⟨7, _⟩ => ⟨S256x768, .bf16⟩
  | .local _ .vmem, ⟨8, _⟩ => ⟨S256x768, .f32⟩
  | .local _ .vmem, ⟨9, _⟩ => ⟨S256x768, .f32⟩
  | .local _ .vmem, ⟨10, _⟩ => ⟨S768x768, .bf16⟩
  | .local _ .vmem, ⟨11, _⟩ => ⟨S1x768, .f32⟩
  | .local _ .vmem, ⟨12, _⟩ => ⟨S768x3072, .bf16⟩
  | .local _ .vmem, ⟨13, _⟩ => ⟨S1x3072, .f32⟩
  | .local _ .vmem, ⟨14, _⟩ => ⟨S3072x768, .bf16⟩
  | .local _ .vmem, ⟨15, _⟩ => ⟨S1x768, .f32⟩
  | .local _ .vmem, ⟨16, _⟩ => ⟨S1x768, .f32⟩
  | .local _ .vmem, ⟨17, _⟩ => ⟨S1x768, .f32⟩
  | .local _ .vmem, ⟨18, _⟩ => ⟨S1x768, .f32⟩
  | .local _ .vmem, ⟨19, _⟩ => ⟨S1x768, .f32⟩
  | .local _ .vmem, ⟨20, _⟩ => ⟨S256x768, .f32⟩
  | .local _ .vmem, ⟨21, _⟩ => ⟨S256x768, .f32⟩
  | _, _ => ⟨S16x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1536x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x768 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x3072 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3072 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3072x768 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x768 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x768 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S256x768 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  shapeCasts_S16x128x768_S2048x768 : S16x128x768.ShapeCasts S2048x768
  bitsLt_bf16_f32 : FTy.bits .bf16 < FTy.bits .f32
  shapeCasts_S2304_S1x2304 : S2304.ShapeCasts S1x2304
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S128x2304 : S1x2304.Broadcasts S128x2304
  slices_S128x2304_o0_0_S128x64 : S128x2304.Slices ![0, 0] S128x64
  slices_S128x2304_o0_64_S128x64 : S128x2304.Slices ![0, 64] S128x64
  slices_S128x2304_o0_128_S128x64 : S128x2304.Slices ![0, 128] S128x64
  reduces_S128x128_S128 : S128x128.Reduces [1] S128
  shapeCasts_S128_S128x1 : S128.ShapeCasts S128x1
  broadcasts_S128x1_S128x128 : S128x1.Broadcasts S128x128
  inb_S1x1536x64_S1x128x64_0_0_0 : ∀ a, (![0, 0, 0] : Fin 3 → Nat) a + S1x128x64.size a ≤ S1x1536x64.size a
  h_S1x128x64 : 0 < S1x128x64.numel
  shapeCasts_S1x128x64_S128x64 : S1x128x64.ShapeCasts S128x64
  shapeCasts_S128x64_S1x128x64 : S128x64.ShapeCasts S1x128x64
  packedbf16_S1x1536x64_S1x128x64_0_0_0 : (Rect.unit (s := S1x1536x64) ![0, 0, 0] S1x128x64.size inb_S1x1536x64_S1x128x64_0_0_0).PackedRows (EltTy.packing .bf16)
  slices_S128x2304_o0_192_S128x64 : S128x2304.Slices ![0, 192] S128x64
  slices_S128x2304_o0_256_S128x64 : S128x2304.Slices ![0, 256] S128x64
  slices_S128x2304_o0_320_S128x64 : S128x2304.Slices ![0, 320] S128x64
  inb_S1x1536x64_S1x128x64_0_128_0 : ∀ a, (![0, 128, 0] : Fin 3 → Nat) a + S1x128x64.size a ≤ S1x1536x64.size a
  packedbf16_S1x1536x64_S1x128x64_0_128_0 : (Rect.unit (s := S1x1536x64) ![0, 128, 0] S1x128x64.size inb_S1x1536x64_S1x128x64_0_128_0).PackedRows (EltTy.packing .bf16)
  slices_S128x2304_o0_384_S128x64 : S128x2304.Slices ![0, 384] S128x64
  slices_S128x2304_o0_448_S128x64 : S128x2304.Slices ![0, 448] S128x64
  slices_S128x2304_o0_512_S128x64 : S128x2304.Slices ![0, 512] S128x64
  inb_S1x1536x64_S1x128x64_0_256_0 : ∀ a, (![0, 256, 0] : Fin 3 → Nat) a + S1x128x64.size a ≤ S1x1536x64.size a
  packedbf16_S1x1536x64_S1x128x64_0_256_0 : (Rect.unit (s := S1x1536x64) ![0, 256, 0] S1x128x64.size inb_S1x1536x64_S1x128x64_0_256_0).PackedRows (EltTy.packing .bf16)
  slices_S128x2304_o0_576_S128x64 : S128x2304.Slices ![0, 576] S128x64
  slices_S128x2304_o0_640_S128x64 : S128x2304.Slices ![0, 640] S128x64
  slices_S128x2304_o0_704_S128x64 : S128x2304.Slices ![0, 704] S128x64
  inb_S1x1536x64_S1x128x64_0_384_0 : ∀ a, (![0, 384, 0] : Fin 3 → Nat) a + S1x128x64.size a ≤ S1x1536x64.size a
  packedbf16_S1x1536x64_S1x128x64_0_384_0 : (Rect.unit (s := S1x1536x64) ![0, 384, 0] S1x128x64.size inb_S1x1536x64_S1x128x64_0_384_0).PackedRows (EltTy.packing .bf16)
  slices_S128x2304_o0_768_S128x64 : S128x2304.Slices ![0, 768] S128x64
  slices_S128x2304_o0_832_S128x64 : S128x2304.Slices ![0, 832] S128x64
  slices_S128x2304_o0_896_S128x64 : S128x2304.Slices ![0, 896] S128x64
  inb_S1x1536x64_S1x128x64_0_512_0 : ∀ a, (![0, 512, 0] : Fin 3 → Nat) a + S1x128x64.size a ≤ S1x1536x64.size a
  packedbf16_S1x1536x64_S1x128x64_0_512_0 : (Rect.unit (s := S1x1536x64) ![0, 512, 0] S1x128x64.size inb_S1x1536x64_S1x128x64_0_512_0).PackedRows (EltTy.packing .bf16)
  slices_S128x2304_o0_960_S128x64 : S128x2304.Slices ![0, 960] S128x64
  slices_S128x2304_o0_1024_S128x64 : S128x2304.Slices ![0, 1024] S128x64
  slices_S128x2304_o0_1088_S128x64 : S128x2304.Slices ![0, 1088] S128x64
  inb_S1x1536x64_S1x128x64_0_640_0 : ∀ a, (![0, 640, 0] : Fin 3 → Nat) a + S1x128x64.size a ≤ S1x1536x64.size a
  packedbf16_S1x1536x64_S1x128x64_0_640_0 : (Rect.unit (s := S1x1536x64) ![0, 640, 0] S1x128x64.size inb_S1x1536x64_S1x128x64_0_640_0).PackedRows (EltTy.packing .bf16)
  slices_S128x2304_o0_1152_S128x64 : S128x2304.Slices ![0, 1152] S128x64
  slices_S128x2304_o0_1216_S128x64 : S128x2304.Slices ![0, 1216] S128x64
  slices_S128x2304_o0_1280_S128x64 : S128x2304.Slices ![0, 1280] S128x64
  inb_S1x1536x64_S1x128x64_0_768_0 : ∀ a, (![0, 768, 0] : Fin 3 → Nat) a + S1x128x64.size a ≤ S1x1536x64.size a
  packedbf16_S1x1536x64_S1x128x64_0_768_0 : (Rect.unit (s := S1x1536x64) ![0, 768, 0] S1x128x64.size inb_S1x1536x64_S1x128x64_0_768_0).PackedRows (EltTy.packing .bf16)
  slices_S128x2304_o0_1344_S128x64 : S128x2304.Slices ![0, 1344] S128x64
  slices_S128x2304_o0_1408_S128x64 : S128x2304.Slices ![0, 1408] S128x64
  slices_S128x2304_o0_1472_S128x64 : S128x2304.Slices ![0, 1472] S128x64
  inb_S1x1536x64_S1x128x64_0_896_0 : ∀ a, (![0, 896, 0] : Fin 3 → Nat) a + S1x128x64.size a ≤ S1x1536x64.size a
  packedbf16_S1x1536x64_S1x128x64_0_896_0 : (Rect.unit (s := S1x1536x64) ![0, 896, 0] S1x128x64.size inb_S1x1536x64_S1x128x64_0_896_0).PackedRows (EltTy.packing .bf16)
  slices_S128x2304_o0_1536_S128x64 : S128x2304.Slices ![0, 1536] S128x64
  slices_S128x2304_o0_1600_S128x64 : S128x2304.Slices ![0, 1600] S128x64
  slices_S128x2304_o0_1664_S128x64 : S128x2304.Slices ![0, 1664] S128x64
  inb_S1x1536x64_S1x128x64_0_1024_0 : ∀ a, (![0, 1024, 0] : Fin 3 → Nat) a + S1x128x64.size a ≤ S1x1536x64.size a
  packedbf16_S1x1536x64_S1x128x64_0_1024_0 : (Rect.unit (s := S1x1536x64) ![0, 1024, 0] S1x128x64.size inb_S1x1536x64_S1x128x64_0_1024_0).PackedRows (EltTy.packing .bf16)
  slices_S128x2304_o0_1728_S128x64 : S128x2304.Slices ![0, 1728] S128x64
  slices_S128x2304_o0_1792_S128x64 : S128x2304.Slices ![0, 1792] S128x64
  slices_S128x2304_o0_1856_S128x64 : S128x2304.Slices ![0, 1856] S128x64
  inb_S1x1536x64_S1x128x64_0_1152_0 : ∀ a, (![0, 1152, 0] : Fin 3 → Nat) a + S1x128x64.size a ≤ S1x1536x64.size a
  packedbf16_S1x1536x64_S1x128x64_0_1152_0 : (Rect.unit (s := S1x1536x64) ![0, 1152, 0] S1x128x64.size inb_S1x1536x64_S1x128x64_0_1152_0).PackedRows (EltTy.packing .bf16)
  slices_S128x2304_o0_1920_S128x64 : S128x2304.Slices ![0, 1920] S128x64
  slices_S128x2304_o0_1984_S128x64 : S128x2304.Slices ![0, 1984] S128x64
  slices_S128x2304_o0_2048_S128x64 : S128x2304.Slices ![0, 2048] S128x64
  inb_S1x1536x64_S1x128x64_0_1280_0 : ∀ a, (![0, 1280, 0] : Fin 3 → Nat) a + S1x128x64.size a ≤ S1x1536x64.size a
  packedbf16_S1x1536x64_S1x128x64_0_1280_0 : (Rect.unit (s := S1x1536x64) ![0, 1280, 0] S1x128x64.size inb_S1x1536x64_S1x128x64_0_1280_0).PackedRows (EltTy.packing .bf16)
  slices_S128x2304_o0_2112_S128x64 : S128x2304.Slices ![0, 2112] S128x64
  slices_S128x2304_o0_2176_S128x64 : S128x2304.Slices ![0, 2176] S128x64
  slices_S128x2304_o0_2240_S128x64 : S128x2304.Slices ![0, 2240] S128x64
  inb_S1x1536x64_S1x128x64_0_1408_0 : ∀ a, (![0, 1408, 0] : Fin 3 → Nat) a + S1x128x64.size a ≤ S1x1536x64.size a
  packedbf16_S1x1536x64_S1x128x64_0_1408_0 : (Rect.unit (s := S1x1536x64) ![0, 1408, 0] S1x128x64.size inb_S1x1536x64_S1x128x64_0_1408_0).PackedRows (EltTy.packing .bf16)
  shapeCasts_S16x1536x64_S2048x768 : S16x1536x64.ShapeCasts S2048x768
  shapeCasts_S768_S1x768 : S768.ShapeCasts S1x768
  shapeCasts_S3072_S1x3072 : S3072.ShapeCasts S1x3072
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  reduces_S256x768_S256 : S256x768.Reduces [1] S256
  shapeCasts_S256_S256x1 : S256.ShapeCasts S256x1
  broadcasts_S256x1_S256x768 : S256x1.Broadcasts S256x768
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  shapeCasts_S2048x768_S16x128x768 : S2048x768.ShapeCasts S16x128x768
  dot_S128x768_S768x2304_S128x2304_1_0_0_1_n_n_wf : DotDims.WF S128x768 S768x2304 S128x2304 [1] [0] [0] [1] [] []
  dot_S128x64_S128x64_S128x128_1_1_0_0_n_n_wf : DotDims.WF S128x64 S128x64 S128x128 [1] [1] [0] [0] [] []
  dot_S128x128_S128x64_S128x64_1_0_0_1_n_n_wf : DotDims.WF S128x128 S128x64 S128x64 [1] [0] [0] [1] [] []
  dot_S256x768_S768x768_S256x768_1_0_0_1_n_n_wf : DotDims.WF S256x768 S768x768 S256x768 [1] [0] [0] [1] [] []
  dot_S256x768_S768x3072_S256x3072_1_0_0_1_n_n_wf : DotDims.WF S256x768 S768x3072 S256x3072 [1] [0] [0] [1] [] []
  dot_S256x3072_S3072x768_S256x768_1_0_0_1_n_n_wf : DotDims.WF S256x3072 S3072x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S2048x768.size a
  hwx0_0 : ∀ i : grid0.Coords, EltTy.bits .f32 = 32 ∨ (Rect.block (s := S2048x768) S128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1536x64.size a ≤ S16x1536x64.size a
  hwx0_3 : ∀ i : grid0.Coords, EltTy.bits .bf16 = 32 ∨ (Rect.block (s := S16x1536x64) S1x1536x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x768.size a ≤ S2048x768.size a
  hwx1_0 : ∀ i : grid1.Coords, EltTy.bits .bf16 = 32 ∨ (Rect.block (s := S2048x768) S256x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x768.size a ≤ S2048x768.size a
  hwx1_1 : ∀ i : grid1.Coords, EltTy.bits .f32 = 32 ∨ (Rect.block (s := S2048x768) S256x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768x768.size a ≤ S768x768.size a
  hwx1_2 : ∀ i : grid1.Coords, EltTy.bits .bf16 = 32 ∨ (Rect.block (s := S768x768) S768x768.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768x3072.size a ≤ S768x3072.size a
  hwx1_4 : ∀ i : grid1.Coords, EltTy.bits .bf16 = 32 ∨ (Rect.block (s := S768x3072) S768x3072.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x3072.size a ≤ S1x3072.size a
  hwx1_5 : ∀ i : grid1.Coords, EltTy.bits .f32 = 32 ∨ (Rect.block (s := S1x3072) S1x3072.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3072x768.size a ≤ S3072x768.size a
  hwx1_6 : ∀ i : grid1.Coords, EltTy.bits .bf16 = 32 ∨ (Rect.block (s := S3072x768) S3072x768.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x768.size a ≤ S1x768.size a
  hwx1_7 : ∀ i : grid1.Coords, EltTy.bits .f32 = 32 ∨ (Rect.block (s := S1x768) S1x768.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x768.size a ≤ S1x768.size a
  hwx1_8 : ∀ i : grid1.Coords, EltTy.bits .f32 = 32 ∨ (Rect.block (s := S1x768) S1x768.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x768.size a ≤ S1x768.size a
  hwx1_9 : ∀ i : grid1.Coords, EltTy.bits .f32 = 32 ∨ (Rect.block (s := S1x768) S1x768.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x768.size a ≤ S1x768.size a
  hwx1_10 : ∀ i : grid1.Coords, EltTy.bits .f32 = 32 ∨ (Rect.block (s := S1x768) S1x768.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x768.size a ≤ S1x768.size a
  hwx1_11 : ∀ i : grid1.Coords, EltTy.bits .f32 = 32 ∨ (Rect.block (s := S1x768) S1x768.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S256x768.size a ≤ S2048x768.size a
  hwx1_12 : ∀ i : grid1.Coords, EltTy.bits .f32 = 32 ∨ (Rect.block (s := S2048x768) S256x768.size (cc1_transform_12 i) (hinb1_12 i)).WholeWords (EltTy.packing .f32)

variable [Facts₀]

def dot_S128x768_S768x2304_S128x2304_1_0_0_1_n_n : DotDims S128x768 S768x2304 S128x2304 where
  lhsContracting := [1]
  rhsContracting := [0]
  lhsNonContracting := [0]
  rhsNonContracting := [1]
  lhsBatch := []
  rhsBatch := []
  wf := dot_S128x768_S768x2304_S128x2304_1_0_0_1_n_n_wf
def dot_S128x64_S128x64_S128x128_1_1_0_0_n_n : DotDims S128x64 S128x64 S128x128 where
  lhsContracting := [1]
  rhsContracting := [1]
  lhsNonContracting := [0]
  rhsNonContracting := [0]
  lhsBatch := []
  rhsBatch := []
  wf := dot_S128x64_S128x64_S128x128_1_1_0_0_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S256x768_S768x3072_S256x3072_1_0_0_1_n_n : DotDims S256x768 S768x3072 S256x3072 where
  lhsContracting := [1]
  rhsContracting := [0]
  lhsNonContracting := [0]
  rhsNonContracting := [1]
  lhsBatch := []
  rhsBatch := []
  wf := dot_S256x768_S768x3072_S256x3072_1_0_0_1_n_n_wf
def dot_S256x3072_S3072x768_S256x768_1_0_0_1_n_n : DotDims S256x3072 S3072x768 S256x768 where
  lhsContracting := [1]
  rhsContracting := [0]
  lhsNonContracting := [0]
  rhsNonContracting := [1]
  lhsBatch := []
  rhsBatch := []
  wf := dot_S256x3072_S3072x768_S256x768_1_0_0_1_n_n_wf

abbrev win0_0 : Pipeline.Window sig grid0 :=
  Pipeline.Window.ofSpec (Memref.whole main_v0) S128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1536x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v7) S256x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S768x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S768x3072.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x3072.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S3072x768.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1x768.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S1x768.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12) S1x768.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v13) S1x768.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v14) S1x768.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v15) S256x768.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S16x128x768 : Shape := ⟨3, ![16, 128, 768]⟩
abbrev S768x2304 : Shape := ⟨2, ![768, 2304]⟩
abbrev S2304 : Shape := ⟨1, ![2304]⟩
abbrev S768x768 : Shape := ⟨2, ![768, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S2048x768 : Shape := ⟨2, ![2048, 768]⟩
abbrev S1x2304 : Shape := ⟨2, ![1, 2304]⟩
abbrev S2048x2304 : Shape := ⟨2, ![2048, 2304]⟩
abbrev S512x768 : Shape := ⟨2, ![512, 768]⟩
abbrev S512x2304 : Shape := ⟨2, ![512, 2304]⟩
abbrev S16x128x12x192 : Shape := ⟨4, ![16, 128, 12, 192]⟩
abbrev S16x12x128x192 : Shape := ⟨4, ![16, 12, 128, 192]⟩
abbrev S16x12x128x64 : Shape := ⟨4, ![16, 12, 128, 64]⟩
abbrev S192x128x64 : Shape := ⟨3, ![192, 128, 64]⟩
abbrev S1x128x64 : Shape := ⟨3, ![1, 128, 64]⟩
abbrev S128x64 : Shape := ⟨2, ![128, 64]⟩
abbrev S64x128 : Shape := ⟨2, ![64, 128]⟩
abbrev S128x128 : Shape := ⟨2, ![128, 128]⟩
abbrev S128 : Shape := ⟨1, ![128]⟩
abbrev S128x1 : Shape := ⟨2, ![128, 1]⟩
abbrev S1x768 : Shape := ⟨2, ![1, 768]⟩
abbrev S1024x768 : Shape := ⟨2, ![1024, 768]⟩
abbrev S1024 : Shape := ⟨1, ![1024]⟩
abbrev S1024x1 : Shape := ⟨2, ![1024, 1]⟩
abbrev S1x3072 : Shape := ⟨2, ![1, 3072]⟩
abbrev S2048x3072 : Shape := ⟨2, ![2048, 3072]⟩
abbrev S256x768 : Shape := ⟨2, ![256, 768]⟩
abbrev S256x3072 : Shape := ⟨2, ![256, 3072]⟩

abbrev nBuf : Space → Nat
  | .hbm => 40
  | .vmem => 48
  | .smem => 0
  | _ => 0

abbrev bufTy : (tb : Table) → Fin (tcTables nBuf tb) → BufTy
  | .hbm, ⟨0, _⟩ => ⟨S16x128x768, .f32⟩
  | .hbm, ⟨1, _⟩ => ⟨S768x2304, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S768x3072, .f32⟩
  | .hbm, ⟨6, _⟩ => ⟨S3072, .f32⟩
  | .hbm, ⟨7, _⟩ => ⟨S3072x768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S2048x768, .f32⟩
  | .hbm, ⟨14, _⟩ => ⟨S1x2304, .f32⟩
  | .hbm, ⟨15, _⟩ => ⟨S2048x2304, .f32⟩
  | .hbm, ⟨16, _⟩ => ⟨S16x128x12x192, .f32⟩
  | .hbm, ⟨17, _⟩ => ⟨S16x12x128x192, .f32⟩
  | .hbm, ⟨18, _⟩ => ⟨S16x12x128x64, .f32⟩
  | .hbm, ⟨19, _⟩ => ⟨S16x12x128x64, .f32⟩
  | .hbm, ⟨20, _⟩ => ⟨S16x12x128x64, .f32⟩
  | .hbm, ⟨21, _⟩ => ⟨S192x128x64, .f32⟩
  | .hbm, ⟨22, _⟩ => ⟨S192x128x64, .f32⟩
  | .hbm, ⟨23, _⟩ => ⟨S192x128x64, .f32⟩
  | .hbm, ⟨24, _⟩ => ⟨S192x128x64, .f32⟩
  | .hbm, ⟨25, _⟩ => ⟨S16x128x768, .f32⟩
  | .hbm, ⟨26, _⟩ => ⟨S2048x768, .f32⟩
  | .hbm, ⟨27, _⟩ => ⟨S1x768, .f32⟩
  | .hbm, ⟨28, _⟩ => ⟨S2048x768, .f32⟩
  | .hbm, ⟨29, _⟩ => ⟨S1x768, .f32⟩
  | .hbm, ⟨30, _⟩ => ⟨S1x768, .f32⟩
  | .hbm, ⟨31, _⟩ => ⟨S2048x768, .f32⟩
  | .hbm, ⟨32, _⟩ => ⟨S1x3072, .f32⟩
  | .hbm, ⟨33, _⟩ => ⟨S2048x3072, .f32⟩
  | .hbm, ⟨34, _⟩ => ⟨S1x768, .f32⟩
  | .hbm, ⟨35, _⟩ => ⟨S2048x768, .f32⟩
  | .hbm, ⟨36, _⟩ => ⟨S1x768, .f32⟩
  | .hbm, ⟨37, _⟩ => ⟨S1x768, .f32⟩
  | .hbm, ⟨38, _⟩ => ⟨S2048x768, .f32⟩
  | .hbm, ⟨39, _⟩ => ⟨S16x128x768, .f32⟩
  | .local _ .vmem, ⟨0, _⟩ => ⟨S512x768, .f32⟩
  | .local _ .vmem, ⟨1, _⟩ => ⟨S512x768, .f32⟩
  | .local _ .vmem, ⟨2, _⟩ => ⟨S768x2304, .f32⟩
  | .local _ .vmem, ⟨3, _⟩ => ⟨S1x2304, .f32⟩
  | .local _ .vmem, ⟨4, _⟩ => ⟨S512x2304, .f32⟩
  | .local _ .vmem, ⟨5, _⟩ => ⟨S512x2304, .f32⟩
  | .local _ .vmem, ⟨6, _⟩ => ⟨S1x128x64, .f32⟩
  | .local _ .vmem, ⟨7, _⟩ => ⟨S1x128x64, .f32⟩
  | .local _ .vmem, ⟨8, _⟩ => ⟨S1x128x64, .f32⟩
  | .local _ .vmem, ⟨9, _⟩ => ⟨S1x128x64, .f32⟩
  | .local _ .vmem, ⟨10, _⟩ => ⟨S1x128x64, .f32⟩
  | .local _ .vmem, ⟨11, _⟩ => ⟨S1x128x64, .f32⟩
  | .local _ .vmem, ⟨12, _⟩ => ⟨S1x128x64, .f32⟩
  | .local _ .vmem, ⟨13, _⟩ => ⟨S1x128x64, .f32⟩
  | .local _ .vmem, ⟨14, _⟩ => ⟨S1024x768, .f32⟩
  | .local _ .vmem, ⟨15, _⟩ => ⟨S1024x768, .f32⟩
  | .local _ .vmem, ⟨16, _⟩ => ⟨S768x768, .f32⟩
  | .local _ .vmem, ⟨17, _⟩ => ⟨S1x768, .f32⟩
  | .local _ .vmem, ⟨18, _⟩ => ⟨S1024x768, .f32⟩
  | .local _ .vmem, ⟨19, _⟩ => ⟨S1024x768, .f32⟩
  | .local _ .vmem, ⟨20, _⟩ => ⟨S1024x768, .f32⟩
  | .local _ .vmem, ⟨21, _⟩ => ⟨S1024x768, .f32⟩
  | .local _ .vmem, ⟨22, _⟩ => ⟨S1024x768, .f32⟩
  | .local _ .vmem, ⟨23, _⟩ => ⟨S1024x768, .f32⟩
  | .local _ .vmem, ⟨24, _⟩ => ⟨S1x768, .f32⟩
  | .local _ .vmem, ⟨25, _⟩ => ⟨S1x768, .f32⟩
  | .local _ .vmem, ⟨26, _⟩ => ⟨S1024x768, .f32⟩
  | .local _ .vmem, ⟨27, _⟩ => ⟨S1024x768, .f32⟩
  | .local _ .vmem, ⟨28, _⟩ => ⟨S256x768, .f32⟩
  | .local _ .vmem, ⟨29, _⟩ => ⟨S256x768, .f32⟩
  | .local _ .vmem, ⟨30, _⟩ => ⟨S768x3072, .f32⟩
  | .local _ .vmem, ⟨31, _⟩ => ⟨S1x3072, .f32⟩
  | .local _ .vmem, ⟨32, _⟩ => ⟨S256x3072, .f32⟩
  | .local _ .vmem, ⟨33, _⟩ => ⟨S256x3072, .f32⟩
  | .local _ .vmem, ⟨34, _⟩ => ⟨S256x3072, .f32⟩
  | .local _ .vmem, ⟨35, _⟩ => ⟨S256x3072, .f32⟩
  | .local _ .vmem, ⟨36, _⟩ => ⟨S3072x768, .f32⟩
  | .local _ .vmem, ⟨37, _⟩ => ⟨S1x768, .f32⟩
  | .local _ .vmem, ⟨38, _⟩ => ⟨S256x768, .f32⟩
  | .local _ .vmem, ⟨39, _⟩ => ⟨S256x768, .f32⟩
  | .local _ .vmem, ⟨40, _⟩ => ⟨S1024x768, .f32⟩
  | .local _ .vmem, ⟨41, _⟩ => ⟨S1024x768, .f32⟩
  | .local _ .vmem, ⟨42, _⟩ => ⟨S1024x768, .f32⟩
  | .local _ .vmem, ⟨43, _⟩ => ⟨S1024x768, .f32⟩
  | .local _ .vmem, ⟨44, _⟩ => ⟨S1x768, .f32⟩
  | .local _ .vmem, ⟨45, _⟩ => ⟨S1x768, .f32⟩
  | .local _ .vmem, ⟨46, _⟩ => ⟨S1024x768, .f32⟩
  | .local _ .vmem, ⟨47, _⟩ => ⟨S1024x768, .f32⟩
  | _, _ => ⟨S16x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem3_0 : DmaSem sig := 45
abbrev cc6_sem4_0 : DmaSem sig := 46
abbrev cc6_sem4_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![192], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x768 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S768x3072 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x3072 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x3072 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x3072 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S3072x768 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x768 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S256x768 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![2], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x768 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x768 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x768 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x768 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S1024x768 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  shapeCasts_S16x128x768_S2048x768 : S16x128x768.ShapeCasts S2048x768
  shapeCasts_S2304_S1x2304 : S2304.ShapeCasts S1x2304
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  shapeCasts_S2048x2304_S16x128x12x192 : S2048x2304.ShapeCasts S16x128x12x192
  transposes_S16x128x12x192_S16x12x128x192_0_2_1_3 : S16x128x12x192.Transposes [0, 2, 1, 3] S16x12x128x192
  slices_S16x12x128x192_S16x12x128x64_0_0_0_0 : S16x12x128x192.Slices ![0, 0, 0, 0] S16x12x128x64
  slices_S16x12x128x192_S16x12x128x64_0_0_0_64 : S16x12x128x192.Slices ![0, 0, 0, 64] S16x12x128x64
  slices_S16x12x128x192_S16x12x128x64_0_0_0_128 : S16x12x128x192.Slices ![0, 0, 0, 128] S16x12x128x64
  shapeCasts_S16x12x128x64_S192x128x64 : S16x12x128x64.ShapeCasts S192x128x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  transposes_S128x64_p1_0_S64x128 : S128x64.Transposes [1, 0] S64x128
  reduces_S128x128_S128 : S128x128.Reduces [1] S128
  shapeCasts_S128_S128x1 : S128.ShapeCasts S128x1
  broadcasts_S128x1_S128x128 : S128x1.Broadcasts S128x128
  shapeCasts_S128x64_S1x128x64 : S128x64.ShapeCasts S1x128x64
  shapeCasts_S192x128x64_S16x128x768 : S192x128x64.ShapeCasts S16x128x768
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  reduces_S1024x768_S1024 : S1024x768.Reduces [1] S1024
  shapeCasts_S1024_S1024x1 : S1024.ShapeCasts S1024x1
  broadcasts_S1024x1_S1024x768 : S1024x1.Broadcasts S1024x768
  shapeCasts_S3072_S1x3072 : S3072.ShapeCasts S1x3072
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x3072_S768x3072_0_0 : ∀ a, (![0, 0] : Fin 2 → Nat) a + S768x3072.size a ≤ S768x3072.size a
  h_S768x3072 : 0 < S768x3072.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S3072x768_S3072x768_0_0 : ∀ a, (![0, 0] : Fin 2 → Nat) a + S3072x768.size a ≤ S3072x768.size a
  h_S3072x768 : 0 < S3072x768.numel
  broadcasts_S1x768_S256x768 : S1x768.Broadcasts S256x768
  shapeCasts_S2048x768_S16x128x768 : S2048x768.ShapeCasts S16x128x768
  dot_S512x768_S768x2304_S512x2304_1_0_0_1_n_n_wf : DotDims.WF S512x768 S768x2304 S512x2304 [1] [0] [0] [1] [] []
  dot_S128x64_S64x128_S128x128_1_0_0_1_n_n_wf : DotDims.WF S128x64 S64x128 S128x128 [1] [0] [0] [1] [] []
  dot_S128x128_S128x64_S128x64_1_0_0_1_n_n_wf : DotDims.WF S128x128 S128x64 S128x64 [1] [0] [0] [1] [] []
  dot_S1024x768_S768x768_S1024x768_1_0_0_1_n_n_wf : DotDims.WF S1024x768 S768x768 S1024x768 [1] [0] [0] [1] [] []
  dot_S256x768_S768x3072_S256x3072_1_0_0_1_n_n_wf : DotDims.WF S256x768 S768x3072 S256x3072 [1] [0] [0] [1] [] []
  dot_S256x3072_S3072x768_S256x768_1_0_0_1_n_n_wf : DotDims.WF S256x3072 S3072x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S2048x768.size a
  hwx0_0 : ∀ i : grid0.Coords, EltTy.bits .f32 = 32 ∨ (Rect.block (s := S2048x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .f32 = 32 ∨ (Rect.block (s := S768x2304) S768x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S2048x2304.size a
  hwx0_3 : ∀ i : grid0.Coords, EltTy.bits .f32 = 32 ∨ (Rect.block (s := S2048x2304) S512x2304.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64.size a ≤ S192x128x64.size a
  hwx1_0 : ∀ i : grid1.Coords, EltTy.bits .f32 = 32 ∨ (Rect.block (s := S192x128x64) S1x128x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S192x128x64.size a
  hwx1_1 : ∀ i : grid1.Coords, EltTy.bits .f32 = 32 ∨ (Rect.block (s := S192x128x64) S1x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x64.size a ≤ S192x128x64.size a
  hwx1_2 : ∀ i : grid1.Coords, EltTy.bits .f32 = 32 ∨ (Rect.block (s := S192x128x64) S1x128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x64.size a ≤ S192x128x64.size a
  hwx1_3 : ∀ i : grid1.Coords, EltTy.bits .f32 = 32 ∨ (Rect.block (s := S192x128x64) S1x128x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S2048x768.size a
  hwx2_0 : ∀ i : grid2.Coords, EltTy.bits .f32 = 32 ∨ (Rect.block (s := S2048x768) S1024x768.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .f32 = 32 ∨ (Rect.block (s := S768x768) S768x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x768.size a ≤ S2048x768.size a
  hwx2_3 : ∀ i : grid2.Coords, EltTy.bits .f32 = 32 ∨ (Rect.block (s := S2048x768) S1024x768.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x768.size a ≤ S2048x768.size a
  hwx3_0 : ∀ i : grid3.Coords, EltTy.bits .f32 = 32 ∨ (Rect.block (s := S2048x768) S1024x768.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x768.size a ≤ S2048x768.size a
  hwx3_1 : ∀ i : grid3.Coords, EltTy.bits .f32 = 32 ∨ (Rect.block (s := S2048x768) S1024x768.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x768.size a ≤ S1x768.size a
  hwx3_2 : ∀ i : grid3.Coords, EltTy.bits .f32 = 32 ∨ (Rect.block (s := S1x768) S1x768.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x768.size a ≤ S1x768.size a
  hwx3_3 : ∀ i : grid3.Coords, EltTy.bits .f32 = 32 ∨ (Rect.block (s := S1x768) S1x768.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x768.size a ≤ S2048x768.size a
  hwx3_4 : ∀ i : grid3.Coords, EltTy.bits .f32 = 32 ∨ (Rect.block (s := S2048x768) S1024x768.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x768.size a ≤ S2048x768.size a
  hwx4_0 : ∀ i : grid4.Coords, EltTy.bits .f32 = 32 ∨ (Rect.block (s := S2048x768) S256x768.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S768x3072.size a ≤ S768x3072.size a
  hwx4_1 : ∀ i : grid4.Coords, EltTy.bits .f32 = 32 ∨ (Rect.block (s := S768x3072) S768x3072.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x3072.size a ≤ S1x3072.size a
  hwx4_2 : ∀ i : grid4.Coords, EltTy.bits .f32 = 32 ∨ (Rect.block (s := S1x3072) S1x3072.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x3072.size a ≤ S2048x3072.size a
  hwx4_3 : ∀ i : grid4.Coords, EltTy.bits .f32 = 32 ∨ (Rect.block (s := S2048x3072) S256x3072.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x3072.size a ≤ S2048x3072.size a
  hwx5_0 : ∀ i : grid5.Coords, EltTy.bits .f32 = 32 ∨ (Rect.block (s := S2048x3072) S256x3072.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S3072x768.size a ≤ S3072x768.size a
  hwx5_1 : ∀ i : grid5.Coords, EltTy.bits .f32 = 32 ∨ (Rect.block (s := S3072x768) S3072x768.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x768.size a ≤ S1x768.size a
  hwx5_2 : ∀ i : grid5.Coords, EltTy.bits .f32 = 32 ∨ (Rect.block (s := S1x768) S1x768.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x768.size a ≤ S2048x768.size a
  hwx5_3 : ∀ i : grid5.Coords, EltTy.bits .f32 = 32 ∨ (Rect.block (s := S2048x768) S256x768.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x768.size a ≤ S2048x768.size a
  hwx6_0 : ∀ i : grid6.Coords, EltTy.bits .f32 = 32 ∨ (Rect.block (s := S2048x768) S1024x768.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x768.size a ≤ S2048x768.size a
  hwx6_1 : ∀ i : grid6.Coords, EltTy.bits .f32 = 32 ∨ (Rect.block (s := S2048x768) S1024x768.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x768.size a ≤ S1x768.size a
  hwx6_2 : ∀ i : grid6.Coords, EltTy.bits .f32 = 32 ∨ (Rect.block (s := S1x768) S1x768.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x768.size a ≤ S1x768.size a
  hwx6_3 : ∀ i : grid6.Coords, EltTy.bits .f32 = 32 ∨ (Rect.block (s := S1x768) S1x768.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S1024x768.size a ≤ S2048x768.size a
  hwx6_4 : ∀ i : grid6.Coords, EltTy.bits .f32 = 32 ∨ (Rect.block (s := S2048x768) S1024x768.size (cc6_transform_4 i) (hinb6_4 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S256x768_S768x3072_S256x3072_1_0_0_1_n_n : DotDims S256x768 S768x3072 S256x3072 where
  lhsContracting := [1]
  rhsContracting := [0]
  lhsNonContracting := [0]
  rhsNonContracting := [1]
  lhsBatch := []
  rhsBatch := []
  wf := dot_S256x768_S768x3072_S256x3072_1_0_0_1_n_n_wf
def dot_S256x3072_S3072x768_S256x768_1_0_0_1_n_n : DotDims S256x3072 S3072x768 S256x768 where
  lhsContracting := [1]
  rhsContracting := [0]
  lhsNonContracting := [0]
  rhsNonContracting := [1]
  lhsBatch := []
  rhsBatch := []
  wf := dot_S256x3072_S3072x768_S256x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x128x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1024x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v15) S1024x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S1024x768.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x768.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v18) S1024x768.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v18) S256x768.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S768x3072.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v19) S1x3072.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v20) S256x3072.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v20) S256x3072.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S3072x768.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v21) S1x768.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v22) S256x768.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v22) S1024x768.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v18) S1024x768.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v23) S1x768.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v24) S1x768.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v25) S1024x768.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== Proof.RunK.lean ====
/-
  The run of the program's @main with every unscoped buffer of the final state NAMED: at the end of every weakly fair
  execution each unscoped buffer of core c holds the last boundary's contents (the fold of the host stretches and of the
  regions' write-backs from the launch memory).  The frame statement keeps only the argument arrays of this; here the
  result array is kept too, so that its value can be read off the fold.
-/
import proofs.«143729_g2000604737890889_pallaspilot1_168_5_alg».proof.Proof.Gen.KernelIdeal.Frame

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The result array at the last boundary's contents, the argument arrays as launched. -/
theorem run_result : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v16 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩) (run_all m ρ)

end Cert.KernelIdeal.Hand

end
-- ==== Proof.RunR.lean ====
/-
  The run of the program's @main with every unscoped buffer of the final state NAMED: at the end of every weakly fair
  execution each unscoped buffer of core c holds the last boundary's contents (the fold of the host stretches and of the
  regions' write-backs from the launch memory).  The frame statement keeps only the argument arrays of this; here the
  result array is kept too, so that its value can be read off the fold.
-/
import proofs.«143729_g2000604737890889_pallaspilot1_168_5_alg».proof.Proof.Gen.ReferenceIdeal.Frame

-- membership in a rectangle of production extents (`View.cover_of_tiled`): the elaborator's structural look
-- recurses once per coordinate of the long axes
set_option maxRecDepth 16384

noncomputable section

namespace Cert.ReferenceIdeal.Hand

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The result array at the last boundary's contents, the argument arrays as launched. -/
theorem run_result : θ_run defs (onTc (τ := τ) (main (F := F))) ⟨m, fun _ => 0, ρ⟩ (fun r => ∀ c : Dev nD,
      r.2.mem ((c.tc : Thread nD τ).loc main_v26) = W15 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨h c _ (mem_uc main_v26 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c)⟩) (run_all m ρ)

end Cert.ReferenceIdeal.Hand

end
-- ==== Proof.FoldKHost.lean ====
/-
  The kernel program's buffers at the boundaries of its host stretches and regions, read back to the argument arrays and
  to the regions' result arrays: what each region's input arrays hold when the region is entered, and where the result
  array comes from.  A host reshape keeps the entries in row-major order, a host change of float format is the identity
  on extended reals, and a buffer that no operation of a stretch writes and no region's output window covers keeps its
  contents.
-/
import proofs.«143729_g2000604737890889_pallaspilot1_168_5_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx Idealize.ShloMosaic.Pipeline Idealize.ShloMosaic.StableHlo
open Cert.KernelIdeal Cert.KernelIdeal.Gen

variable (m : (ℓ : Loc nD τ sig) → Buf (Elt Ideal) ℓ) (ρ : Dev nD → PrngReg) (c : Dev nD)

/-! ## Boundary 1 -/

theorem W1_v0 : W1 m ρ c (Proc.devRef .tc main_v0) = shapeCast S2048x768 (m ((c : Thread nD τ).loc main_arg0)) shapeCasts_S16x128x768_S2048x768 := by
  have e : W1 m ρ c (Proc.devRef .tc main_v0) = shapeCast S2048x768 (W0 m ρ c (Proc.devRef .tc main_arg0)) shapeCasts_S16x128x768_S2048x768 := by
    show StableHlo.after hostOps0 (W0 m ρ c) (Proc.devRef .tc main_v0) = _
    dsimp only [hostOps0]
    after_results
    rfl
  rw [e]
theorem W1_v1 : W1 m ρ c (Proc.devRef .tc main_v1) = m ((c : Thread nD τ).loc main_arg1) := by
  have e : W1 m ρ c (Proc.devRef .tc main_v1) = W0 m ρ c (Proc.devRef .tc main_arg1) := by
    show StableHlo.after hostOps0 (W0 m ρ c) (Proc.devRef .tc main_v1) = _
    dsimp only [hostOps0]
    after_results
    rfl
  rw [e]
theorem W1_v2 : W1 m ρ c (Proc.devRef .tc main_v2) = m ((c : Thread nD τ).loc main_arg3) := by
  have e : W1 m ρ c (Proc.devRef .tc main_v2) = W0 m ρ c (Proc.devRef .tc main_arg3) := by
    show StableHlo.after hostOps0 (W0 m ρ c) (Proc.devRef .tc main_v2) = _
    dsimp only [hostOps0]
    after_results
    rfl
  rw [e]
theorem W1_v3 : W1 m ρ c (Proc.devRef .tc main_v3) = m ((c : Thread nD τ).loc main_arg5) := by
  have e : W1 m ρ c (Proc.devRef .tc main_v3) = W0 m ρ c (Proc.devRef .tc main_arg5) := by
    show StableHlo.after hostOps0 (W0 m ρ c) (Proc.devRef .tc main_v3) = _
    dsimp only [hostOps0]
    after_results
    rfl
  rw [e]
theorem W1_v4 : W1 m ρ c (Proc.devRef .tc main_v4) = m ((c : Thread nD τ).loc main_arg7) := by
  have e : W1 m ρ c (Proc.devRef .tc main_v4) = W0 m ρ c (Proc.devRef .tc main_arg7) := by
    show StableHlo.after hostOps0 (W0 m ρ c) (Proc.devRef .tc main_v4) = _
    dsimp only [hostOps0]
    after_results
    rfl
  rw [e]
theorem W1_v5 : W1 m ρ c (Proc.devRef .tc main_v5) = shapeCast S1x2304 (m ((c : Thread nD τ).loc main_arg2)) shapeCasts_S2304_S1x2304 := by
  have e : W1 m ρ c (Proc.devRef .tc main_v5) = shapeCast S1x2304 (W0 m ρ c (Proc.devRef .tc main_arg2)) shapeCasts_S2304_S1x2304 := by
    show StableHlo.after hostOps0 (W0 m ρ c) (Proc.devRef .tc main_v5) = _
    dsimp only [hostOps0]
    after_results
    rfl
  rw [e]
theorem W1_arg4 : W1 m ρ c (Proc.devRef .tc main_arg4) = m ((c : Thread nD τ).loc main_arg4) := by
  have e : W1 m ρ c (Proc.devRef .tc main_arg4) = W0 m ρ c (Proc.devRef .tc main_arg4) := by
    show StableHlo.after hostOps0 (W0 m ρ c) (Proc.devRef .tc main_arg4) = _
    dsimp only [hostOps0]
    after_results
  exact e
theorem W1_arg6 : W1 m ρ c (Proc.devRef .tc main_arg6) = m ((c : Thread nD τ).loc main_arg6) := by
  have e : W1 m ρ c (Proc.devRef .tc main_arg6) = W0 m ρ c (Proc.devRef .tc main_arg6) := by
    show StableHlo.after hostOps0 (W0 m ρ c) (Proc.devRef .tc main_arg6) = _
    dsimp only [hostOps0]
    after_results
  exact e
theorem W1_arg8 : W1 m ρ c (Proc.devRef .tc main_arg8) = m ((c : Thread nD τ).loc main_arg8) := by
  have e : W1 m ρ c (Proc.devRef .tc main_arg8) = W0 m ρ c (Proc.devRef .tc main_arg8) := by
    show StableHlo.after hostOps0 (W0 m ρ c) (Proc.devRef .tc main_arg8) = _
    dsimp only [hostOps0]
    after_results
  exact e
theorem W1_arg9 : W1 m ρ c (Proc.devRef .tc main_arg9) = m ((c : Thread nD τ).loc main_arg9) := by
  have e : W1 m ρ c (Proc.devRef .tc main_arg9) = W0 m ρ c (Proc.devRef .tc main_arg9) := by
    show StableHlo.after hostOps0 (W0 m ρ c) (Proc.devRef .tc main_arg9) = _
    dsimp only [hostOps0]
    after_results
  exact e
theorem W1_arg10 : W1 m ρ c (Proc.devRef .tc main_arg10) = m ((c : Thread nD τ).loc main_arg10) := by
  have e : W1 m ρ c (Proc.devRef .tc main_arg10) = W0 m ρ c (Proc.devRef .tc main_arg10) := by
    show StableHlo.after hostOps0 (W0 m ρ c) (Proc.devRef .tc main_arg10) = _
    dsimp only [hostOps0]
    after_results
  exact e
theorem W1_arg11 : W1 m ρ c (Proc.devRef .tc main_arg11) = m ((c : Thread nD τ).loc main_arg11) := by
  have e : W1 m ρ c (Proc.devRef .tc main_arg11) = W0 m ρ c (Proc.devRef .tc main_arg11) := by
    show StableHlo.after hostOps0 (W0 m ρ c) (Proc.devRef .tc main_arg11) = _
    dsimp only [hostOps0]
    after_results
  exact e
theorem W1_arg12 : W1 m ρ c (Proc.devRef .tc main_arg12) = m ((c : Thread nD τ).loc main_arg12) := by
  have e : W1 m ρ c (Proc.devRef .tc main_arg12) = W0 m ρ c (Proc.devRef .tc main_arg12) := by
    show StableHlo.after hostOps0 (W0 m ρ c) (Proc.devRef .tc main_arg12) = _
    dsimp only [hostOps0]
    after_results
  exact e

/-! ## Boundary 2 -/

theorem W2_arg4 : W2 m ρ c (Proc.devRef .tc main_arg4) = m ((c : Thread nD τ).loc main_arg4) :=
  (W2_of_ne m ρ c main_arg4 (by decide)).trans (W1_arg4 m ρ c)
theorem W2_arg6 : W2 m ρ c (Proc.devRef .tc main_arg6) = m ((c : Thread nD τ).loc main_arg6) :=
  (W2_of_ne m ρ c main_arg6 (by decide)).trans (W1_arg6 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_v0 : W2 m ρ c (Proc.devRef .tc main_v0) = shapeCast S2048x768 (m ((c : Thread nD τ).loc main_arg0)) shapeCasts_S16x128x768_S2048x768 :=
  ((W2_arr m ρ c 0).trans (((dat0 (V1 m ρ) c).arrAt_in 0 rfl _).trans (A_eq0 (V1 m ρ) c 0))).trans (W1_v0 m ρ c)
theorem W2_v2 : W2 m ρ c (Proc.devRef .tc main_v2) = m ((c : Thread nD τ).loc main_arg3) :=
  (W2_of_ne m ρ c main_v2 (by decide)).trans (W1_v2 m ρ c)
theorem W2_v3 : W2 m ρ c (Proc.devRef .tc main_v3) = m ((c : Thread nD τ).loc main_arg5) :=
  (W2_of_ne m ρ c main_v3 (by decide)).trans (W1_v3 m ρ c)
theorem W2_v4 : W2 m ρ c (Proc.devRef .tc main_v4) = m ((c : Thread nD τ).loc main_arg7) :=
  (W2_of_ne m ρ c main_v4 (by decide)).trans (W1_v4 m ρ c)
theorem W2_v6 : W2 m ρ c (Proc.devRef .tc main_v6) = (dat0 (V1 m ρ) c).arrAt 3 cfg0.N := W2_arr m ρ c 3

/-! ## Boundary 3 -/

theorem W3_v7 : W3 m ρ c (Proc.devRef .tc main_v7) = shapeCast S2048x768 (W2 m ρ c (Proc.devRef .tc main_v6)) shapeCasts_S16x1536x64_S2048x768 := by
  have e : W3 m ρ c (Proc.devRef .tc main_v7) = shapeCast S2048x768 (W2 m ρ c (Proc.devRef .tc main_v6)) shapeCasts_S16x1536x64_S2048x768 := by
    show StableHlo.after hostOps1 (W2 m ρ c) (Proc.devRef .tc main_v7) = _
    dsimp only [hostOps1]
    after_results
    rfl
  rw [e]
theorem W3_v8 : W3 m ρ c (Proc.devRef .tc main_v8) = shapeCast S1x768 (m ((c : Thread nD τ).loc main_arg4)) shapeCasts_S768_S1x768 := by
  have e : W3 m ρ c (Proc.devRef .tc main_v8) = shapeCast S1x768 (W2 m ρ c (Proc.devRef .tc main_arg4)) shapeCasts_S768_S1x768 := by
    show StableHlo.after hostOps1 (W2 m ρ c) (Proc.devRef .tc main_v8) = _
    dsimp only [hostOps1]
    after_results
    rfl
  rw [e, W2_arg4 m ρ c]
theorem W3_v9 : W3 m ρ c (Proc.devRef .tc main_v9) = shapeCast S1x3072 (m ((c : Thread nD τ).loc main_arg6)) shapeCasts_S3072_S1x3072 := by
  have e : W3 m ρ c (Proc.devRef .tc main_v9) = shapeCast S1x3072 (W2 m ρ c (Proc.devRef .tc main_arg6)) shapeCasts_S3072_S1x3072 := by
    show StableHlo.after hostOps1 (W2 m ρ c) (Proc.devRef .tc main_v9) = _
    dsimp only [hostOps1]
    after_results
    rfl
  rw [e, W2_arg6 m ρ c]
theorem W3_v10 : W3 m ρ c (Proc.devRef .tc main_v10) = shapeCast S1x768 (m ((c : Thread nD τ).loc main_arg8)) shapeCasts_S768_S1x768 := by
  have e : W3 m ρ c (Proc.devRef .tc main_v10) = shapeCast S1x768 (W2 m ρ c (Proc.devRef .tc main_arg8)) shapeCasts_S768_S1x768 := by
    show StableHlo.after hostOps1 (W2 m ρ c) (Proc.devRef .tc main_v10) = _
    dsimp only [hostOps1]
    after_results
    rfl
  rw [e, W2_arg8 m ρ c]
theorem W3_v11 : W3 m ρ c (Proc.devRef .tc main_v11) = shapeCast S1x768 (m ((c : Thread nD τ).loc main_arg9)) shapeCasts_S768_S1x768 := by
  have e : W3 m ρ c (Proc.devRef .tc main_v11) = shapeCast S1x768 (W2 m ρ c (Proc.devRef .tc main_arg9)) shapeCasts_S768_S1x768 := by
    show StableHlo.after hostOps1 (W2 m ρ c) (Proc.devRef .tc main_v11) = _
    dsimp only [hostOps1]
    after_results
    rfl
  rw [e, W2_arg9 m ρ c]
theorem W3_v12 : W3 m ρ c (Proc.devRef .tc main_v12) = shapeCast S1x768 (m ((c : Thread nD τ).loc main_arg10)) shapeCasts_S768_S1x768 := by
  have e : W3 m ρ c (Proc.devRef .tc main_v12) = shapeCast S1x768 (W2 m ρ c (Proc.devRef .tc main_arg10)) shapeCasts_S768_S1x768 := by
    show StableHlo.after hostOps1 (W2 m ρ c) (Proc.devRef .tc main_v12) = _
    dsimp only [hostOps1]
    after_results
    rfl
  rw [e, W2_arg10 m ρ c]
theorem W3_v13 : W3 m ρ c (Proc.devRef .tc main_v13) = shapeCast S1x768 (m ((c : Thread nD τ).loc main_arg11)) shapeCasts_S768_S1x768 := by
  have e : W3 m ρ c (Proc.devRef .tc main_v13) = shapeCast S1x768 (W2 m ρ c (Proc.devRef .tc main_arg11)) shapeCasts_S768_S1x768 := by
    show StableHlo.after hostOps1 (W2 m ρ c) (Proc.devRef .tc main_v13) = _
    dsimp only [hostOps1]
    after_results
    rfl
  rw [e, W2_arg11 m ρ c]
theorem W3_v14 : W3 m ρ c (Proc.devRef .tc main_v14) = shapeCast S1x768 (m ((c : Thread nD τ).loc main_arg12)) shapeCasts_S768_S1x768 := by
  have e : W3 m ρ c (Proc.devRef .tc main_v14) = shapeCast S1x768 (W2 m ρ c (Proc.devRef .tc main_arg12)) shapeCasts_S768_S1x768 := by
    show StableHlo.after hostOps1 (W2 m ρ c) (Proc.devRef .tc main_v14) = _
    dsimp only [hostOps1]
    after_results
    rfl
  rw [e, W2_arg12 m ρ c]
theorem W3_v0 : W3 m ρ c (Proc.devRef .tc main_v0) = shapeCast S2048x768 (m ((c : Thread nD τ).loc main_arg0)) shapeCasts_S16x128x768_S2048x768 := by
  have e : W3 m ρ c (Proc.devRef .tc main_v0) = W2 m ρ c (Proc.devRef .tc main_v0) := by
    show StableHlo.after hostOps1 (W2 m ρ c) (Proc.devRef .tc main_v0) = _
    dsimp only [hostOps1]
    after_results
  exact e.trans (W2_v0 m ρ c)
theorem W3_v2 : W3 m ρ c (Proc.devRef .tc main_v2) = m ((c : Thread nD τ).loc main_arg3) := by
  have e : W3 m ρ c (Proc.devRef .tc main_v2) = W2 m ρ c (Proc.devRef .tc main_v2) := by
    show StableHlo.after hostOps1 (W2 m ρ c) (Proc.devRef .tc main_v2) = _
    dsimp only [hostOps1]
    after_results
  exact e.trans (W2_v2 m ρ c)
theorem W3_v3 : W3 m ρ c (Proc.devRef .tc main_v3) = m ((c : Thread nD τ).loc main_arg5) := by
  have e : W3 m ρ c (Proc.devRef .tc main_v3) = W2 m ρ c (Proc.devRef .tc main_v3) := by
    show StableHlo.after hostOps1 (W2 m ρ c) (Proc.devRef .tc main_v3) = _
    dsimp only [hostOps1]
    after_results
  exact e.trans (W2_v3 m ρ c)
theorem W3_v4 : W3 m ρ c (Proc.devRef .tc main_v4) = m ((c : Thread nD τ).loc main_arg7) := by
  have e : W3 m ρ c (Proc.devRef .tc main_v4) = W2 m ρ c (Proc.devRef .tc main_v4) := by
    show StableHlo.after hostOps1 (W2 m ρ c) (Proc.devRef .tc main_v4) = _
    dsimp only [hostOps1]
    after_results
  exact e.trans (W2_v4 m ρ c)

/-! ## Boundary 4 -/

theorem W4_v15 : W4 m ρ c (Proc.devRef .tc main_v15) = (dat1 (V3 m ρ) c).arrAt 12 cfg1.N := W4_arr m ρ c 12

/-! ## Boundary 5 -/

theorem W5_v16 : W5 m ρ c (Proc.devRef .tc main_v16) = shapeCast S16x128x768 (W4 m ρ c (Proc.devRef .tc main_v15)) shapeCasts_S2048x768_S16x128x768 := by
  have e : W5 m ρ c (Proc.devRef .tc main_v16) = shapeCast S16x128x768 (W4 m ρ c (Proc.devRef .tc main_v15)) shapeCasts_S2048x768_S16x128x768 := by
    show StableHlo.after hostOps2 (W4 m ρ c) (Proc.devRef .tc main_v16) = _
    dsimp only [hostOps2]
    after_results
    rfl
  rw [e]

end Cert.KernelIdeal.Hand

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.LibMaxLane.lean ====
/-
  A lane maximum at the extended reals, for any shapes.

  A kernel's float maximum-reduction over ONE axis started from -inf (the word 0xFF800000), read at a reduced index,
  is the supremum over that axis's coordinates of the operand at the index with the coordinate put back: the mirror,
  for the lane reduction, of the host's maximum and of the lane minimum. It rests on the same two facts: the word
  0xFF800000 denotes -inf, and a fold of max started from the least element over a whole finite range is the supremum.
-/
import Idealize.ShloMosaic.PureOps.Ideal.Laws
import Idealize.ShloMosaic.PureOps.Reduce
import proofs.«143729_g2000604737890889_pallaspilot1_168_5_alg».proof.Proof.LibMaxReduce

noncomputable section

open scoped BigOperators

namespace Cert.Lib.MaxLane

open Idealize.ShloMosaic

/-- A kernel's lane maximum over one axis started from -inf, at reduced index j: the supremum over that axis's
    coordinates k of the operand at j with k put back (`h.lift j k`). The accumulator's proof is taken as the
    printed program spells it. -/
theorem maxReduce_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) := by
  refine (Ideal.multiReduction_maximumf_single src 0xFF800000#32 h hφ hacc j).trans ?_
  show (Finset.univ : Finset (Fin (s.size a))).fold max (Ideal.ofBits .f32 0xFF800000#32) (fun k => src (h.lift j k)) = _
  rw [Cert.Lib.MaxReduce.ofBits_neg_inf_f32]
  exact Cert.Lib.MaxReduce.fold_max_bot_eq_iSup _

end Cert.Lib.MaxLane

end
-- ==== Proof.LibRowOps.lean ====
/-
  A kernel body's operations on one block of rows, read at an entry, at the extended reals.

  Each lemma reads one spelling at one entry (p, q) of its result: a lane sum or a lane maximum (from -inf) kept
  as a column, a [1, b] row repeated over a block of rows, and the sums of a matrix's rows laid out as a [1, n] row — for any
  extents. (A column repeated along the columns is read by the keepdims-column lemmas this file imports.)
-/
import Idealize.ShloMosaic.PureOps.Ideal.Laws
import Idealize.ShloMosaic.Lib.ValueIdx
import Idealize.ShloMosaic.Lib.Pipeline.Value
import proofs.«143729_g2000604737890889_pallaspilot1_168_5_alg».proof.Proof.LibKeepdimsColumn
import proofs.«143729_g2000604737890889_pallaspilot1_168_5_alg».proof.Proof.LibMaxLane

noncomputable section

open scoped BigOperators

namespace Cert.Dual.Body

open Idealize.ShloMosaic Idealize.ShloMosaic.ValueIdx

/-- The index of an [a, b] array over the reduced index p of its rows with column k put back is (p, k). -/
theorem lift_cols {a b : Nat} (h : Shape.Reduces ⟨2, ![a, b]⟩ [1] ⟨1, ![a]⟩) (p : Fin a) (k : Fin b) :
    h.lift (ix1 p) k = ix2 p k := funext fun d => Fin.ext (by
  match d with
  | ⟨0, _⟩ => rfl
  | ⟨1, _⟩ => rfl)

/-- A lane sum of an [a, b] block kept as an [a, 1] column, at row p: the sum of row p. -/
theorem rowSum_at {a b : Nat} (v : FVec Ideal ⟨2, ![a, b]⟩ .f32)
    (hr : Shape.Reduces ⟨2, ![a, b]⟩ [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (p : Fin a) :
    shapeCast ⟨2, ![a, 1]⟩ (multiReduction .add [1] ⟨1, ![a]⟩ v 0x00000000#32 hr hφ hacc) hc
        (ix2 (n0 := a) (n1 := 1) p ⟨0, Nat.one_pos⟩)
      = ∑ k : Fin b, v (ix2 p k) := by
  rw [Cert.Lib.KeepdimsColumn.column_cast_at _ hc p, Ideal.multiReduction_add_single v _ hr hφ hacc (ix1 p)]
  exact Finset.sum_congr rfl fun k _ => by rw [lift_cols hr p k]

/-- A lane maximum from -inf of an [a, b] block kept as an [a, 1] column, at row p: the supremum of row p. -/
theorem rowMax_at {a b : Nat} (v : FVec Ideal ⟨2, ![a, b]⟩ .f32)
    (hr : Shape.Reduces ⟨2, ![a, b]⟩ [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) :
    shapeCast ⟨2, ![a, 1]⟩ (multiReduction .maximumf [1] ⟨1, ![a]⟩ v 0xFF800000#32 hr hφ hacc) hc
        (ix2 (n0 := a) (n1 := 1) p ⟨0, Nat.one_pos⟩)
      = ⨆ k : Fin b, v (ix2 p k) := by
  rw [Cert.Lib.KeepdimsColumn.column_cast_at _ hc p, Cert.Lib.MaxLane.maxReduce_single v hr hφ hacc (ix1 p)]
  exact iSup_congr fun k => by rw [lift_cols hr p k]

/-- A [1, b] row repeated over a block of a rows, at (p, q): the row's entry q. -/
theorem rowBcast_at {α : Type} {a b : Nat} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (n0 := 1) (n1 := b) ⟨0, Nat.one_pos⟩ q) :=
  broadcastTo_apply v h (ix2 p q) _ (fun d => by
    match d with
    | ⟨0, _⟩ => exact (if_pos rfl).symm
    | ⟨1, _⟩ =>
      show q.val = if b = 1 then 0 else q.val
      split
      · have := q.isLt; omega
      · rfl)

/-- The sums of the rows of an [n, b] matrix laid out as a [1, n] row, at entry h: the sum of row h. -/
theorem rowSums_row_at {n b : Nat} (w : FVec Ideal ⟨2, ![n, b]⟩ .f32)
    (hr : Shape.Reduces ⟨2, ![n, b]⟩ [1] ⟨1, ![n]⟩) (hφ : FKind.Formats .f32)
    (hacc : (0x00000000#32 : BitVec FTy.f32.bits) = FKind.add.neutral .f32 hφ)
    (hc : (⟨1, ![n]⟩ : Shape).ShapeCasts ⟨2, ![1, n]⟩) (h : Fin n) :
    shapeCast ⟨2, ![1, n]⟩ (multiReduction .add [1] ⟨1, ![n]⟩ w 0x00000000#32 hr hφ hacc) hc
        (ix2 (n0 := 1) (n1 := n) ⟨0, Nat.one_pos⟩ h)
      = ∑ d : Fin b, w (ix2 h d) := by
  rw [shapeCast_addUnit_apply ![n] _ hc _]
  have e : (fun a : Fin 1 => (ix2 (n0 := 1) (n1 := n) ⟨0, Nat.one_pos⟩ h) a.succ) = ix1 h :=
    funext fun a => by match a with | ⟨0, _⟩ => rfl
  rw [e, Ideal.multiReduction_add_single w _ hr hφ hacc (ix1 h)]
  exact Finset.sum_congr rfl fun k _ => by rw [lift_cols hr h k]

end Cert.Dual.Body

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«143729_g2000604737890889_pallaspilot1_168_5_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«143729_g2000604737890889_pallaspilot1_168_5_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.Layers.lean ====
/-
  Row-local layers on a block of rows, at the extended reals.

  A dense layer (a rows-by-columns product with a fixed right factor plus one bias row), a rectifier, and a layer
  normalisation in its one-pass form (mean = (sum x)·c, mean of squares = (sum x²)·c, scale = g·rsqrt(msq − mean² + e),
  result = x·scale + (b − mean·scale)) all act on every row by itself.  Each is spelt here once as the chain of vector
  operations a kernel body applies to a block of rows (for any number of rows), read at one entry as a function of
  that entry's row alone, and set beside the same function of a whole matrix: what the chain makes of a block of rows
  IS the same block of rows of what the function makes of the whole matrix.
-/
import Idealize.ShloMosaic.PureOps.Ideal.Laws
import Idealize.ShloMosaic.Lib.ValueIdx
import Idealize.ShloMosaic.Lib.Pipeline.Value
import proofs.«143729_g2000604737890889_pallaspilot1_168_5_alg».proof.Proof.LibRowOps
import proofs.«143729_g2000604737890889_pallaspilot1_168_5_alg».proof.Proof.LibPlainRecord

noncomputable section

open scoped BigOperators

namespace Cert.Hand.Layers

open Idealize.ShloMosaic Idealize.ShloMosaic.ValueIdx Cert.Lib.DenseLayer

/-- A matrix of extended reals. -/
abbrev Mat (a b : Nat) : Type := (⟨2, ![a, b]⟩ : Shape).Idx → EReal

/-- The row and the column of an index of a matrix, as numbers below the extents. -/
abbrev row {a b : Nat} (i : (⟨2, ![a, b]⟩ : Shape).Idx) : Fin a := ⟨(i 0).val, idx2_lt0 i⟩
abbrev col {a b : Nat} (i : (⟨2, ![a, b]⟩ : Shape).Idx) : Fin b := ⟨(i 1).val, idx2_lt1 i⟩
/-- The one row index of a one-row matrix. -/
abbrev r0 : Fin 1 := ⟨0, Nat.one_pos⟩

section Blocks

variable {F : FTy → Type} [FloatOps F]

/-- The dense layer's chain on a block of T rows: the product into the zero accumulator, plus the bias row repeated. -/
def linBlk {T K N : Nat} {φ₁ φ₂ : FTy} (d : DotDims ⟨2, ![T, K]⟩ ⟨2, ![K, N]⟩ ⟨2, ![T, N]⟩)
    (hb : (⟨2, ![1, N]⟩ : Shape).Broadcasts ⟨2, ![T, N]⟩)
    (x : FVec F ⟨2, ![T, K]⟩ φ₁) (w : FVec F ⟨2, ![K, N]⟩ φ₂) (b : FVec F ⟨2, ![1, N]⟩ .f32) : FVec F ⟨2, ![T, N]⟩ .f32 :=
  addf (matmul d none x w (constant ⟨2, ![T, N]⟩ .f32 0x00000000#32)) (broadcastTo ⟨2, ![T, N]⟩ b hb)

/-- The rectifier's chain: the maximum with a splat zero. -/
def reluBlk {T N : Nat} (x : FVec F ⟨2, ![T, N]⟩ .f32) : FVec F ⟨2, ![T, N]⟩ .f32 :=
  maximumf x (broadcast ⟨2, ![T, N]⟩ (Scalar.ofBits .f32 0x00000000#32))

/-- The column of row means: the lane sum kept as a column, times the folded reciprocal of the row length. -/
def lnMean {T N : Nat} (hr : (⟨2, ![T, N]⟩ : Shape).Reduces [1] ⟨1, ![T]⟩) (hc : (⟨1, ![T]⟩ : Shape).ShapeCasts ⟨2, ![T, 1]⟩)
    (x : FVec F ⟨2, ![T, N]⟩ .f32) : FVec F ⟨2, ![T, 1]⟩ .f32 :=
  mulf (shapeCast ⟨2, ![T, 1]⟩ (multiReduction .add [1] ⟨1, ![T]⟩ x 0x00000000#32 hr (.inl rfl) rfl) hc)
    (broadcast ⟨2, ![T, 1]⟩ (Scalar.ofBits .f32 0x3AAAAAAB#32))

/-- The column of reciprocal standard deviations: rsqrt (mean of squares − mean² + e). -/
def lnIstd {T N : Nat} (hr : (⟨2, ![T, N]⟩ : Shape).Reduces [1] ⟨1, ![T]⟩) (hc : (⟨1, ![T]⟩ : Shape).ShapeCasts ⟨2, ![T, 1]⟩)
    (x : FVec F ⟨2, ![T, N]⟩ .f32) : FVec F ⟨2, ![T, 1]⟩ .f32 :=
  rsqrt (addf (subf (lnMean hr hc (mulf x x)) (mulf (lnMean hr hc x) (lnMean hr hc x)))
    (broadcast ⟨2, ![T, 1]⟩ (Scalar.ofBits .f32 0x3727C5AC#32)))

/-- The layer normalisation's chain on a block of T rows. -/
def lnBlk {T N : Nat} (hr : (⟨2, ![T, N]⟩ : Shape).Reduces [1] ⟨1, ![T]⟩) (hc : (⟨1, ![T]⟩ : Shape).ShapeCasts ⟨2, ![T, 1]⟩)
    (hbc : (⟨2, ![T, 1]⟩ : Shape).Broadcasts ⟨2, ![T, N]⟩) (hbr : (⟨2, ![1, N]⟩ : Shape).Broadcasts ⟨2, ![T, N]⟩)
    (x : FVec F ⟨2, ![T, N]⟩ .f32) (g β : FVec F ⟨2, ![1, N]⟩ .f32) : FVec F ⟨2, ![T, N]⟩ .f32 :=
  addf (mulf x (mulf (broadcastTo ⟨2, ![T, N]⟩ g hbr) (broadcastTo ⟨2, ![T, N]⟩ (lnIstd hr hc x) hbc)))
    (subf (broadcastTo ⟨2, ![T, N]⟩ β hbr)
      (mulf (broadcastTo ⟨2, ![T, N]⟩ (lnMean hr hc x) hbc)
        (mulf (broadcastTo ⟨2, ![T, N]⟩ g hbr) (broadcastTo ⟨2, ![T, N]⟩ (lnIstd hr hc x) hbc))))

end Blocks

/-! ## The same layers as functions of a whole matrix, entry by entry -/

/-- The dense layer of a whole matrix. -/
def linW {M K N : Nat} (X : Mat M K) (W : Mat K N) (b : Mat 1 N) : Mat M N := fun i =>
  (∑ k : Fin K, X (ix2 (row i) k) * W (ix2 k (col i))) + b (ix2 r0 (col i))

/-- The rectifier of a whole matrix. -/
def reluW {M N : Nat} (X : Mat M N) : Mat M N := fun i => max (X i) (Ideal.ofBits .f32 0x00000000#32)

/-- One entry of a normalised row, from the row, the entry, and the scale and shift parameters of its column. -/
def lnEntry (N : Nat) (r : Fin N → EReal) (x g b : EReal) : EReal :=
  x * (g * Ideal.rsqrt ((∑ k : Fin N, r k * r k) * Ideal.ofBits .f32 0x3AAAAAAB#32
        - (∑ k : Fin N, r k) * Ideal.ofBits .f32 0x3AAAAAAB#32 * ((∑ k : Fin N, r k) * Ideal.ofBits .f32 0x3AAAAAAB#32)
        + Ideal.ofBits .f32 0x3727C5AC#32))
    + (b - (∑ k : Fin N, r k) * Ideal.ofBits .f32 0x3AAAAAAB#32
        * (g * Ideal.rsqrt ((∑ k : Fin N, r k * r k) * Ideal.ofBits .f32 0x3AAAAAAB#32
            - (∑ k : Fin N, r k) * Ideal.ofBits .f32 0x3AAAAAAB#32 * ((∑ k : Fin N, r k) * Ideal.ofBits .f32 0x3AAAAAAB#32)
            + Ideal.ofBits .f32 0x3727C5AC#32)))

/-- The layer normalisation of a whole matrix. -/
def lnW {M N : Nat} (X : Mat M N) (g β : Mat 1 N) : Mat M N := fun i =>
  lnEntry N (fun k => X (ix2 (row i) k)) (X i) (g (ix2 r0 (col i))) (β (ix2 r0 (col i)))

/-- The entrywise sum of two whole matrices. -/
def addW {M N : Nat} (X Y : Mat M N) : Mat M N := fun i => X i + Y i

/-! ## The chains read at an entry -/

theorem linBlk_at {T K N : Nat} {φ₁ φ₂ : FTy} {d : DotDims ⟨2, ![T, K]⟩ ⟨2, ![K, N]⟩ ⟨2, ![T, N]⟩} (hd : Plain d)
    (hb : (⟨2, ![1, N]⟩ : Shape).Broadcasts ⟨2, ![T, N]⟩)
    (x : FVec Ideal ⟨2, ![T, K]⟩ φ₁) (w : FVec Ideal ⟨2, ![K, N]⟩ φ₂) (b : FVec Ideal ⟨2, ![1, N]⟩ .f32) (p : Fin T) (q : Fin N) :
    linBlk d hb x w b (ix2 p q) = (∑ k : Fin K, x (ix2 p k) * w (ix2 k q)) + b (ix2 r0 q) := by
  show matmul d none x w (constant ⟨2, ![T, N]⟩ .f32 0x00000000#32) (ix2 p q) + broadcastTo ⟨2, ![T, N]⟩ b hb (ix2 p q) = _
  rw [Cert.Dual.Body.rowBcast_at b hb p q]
  exact congrArg (· + b (ix2 r0 q)) ((Ideal.matmul_constant_zero_apply d none x w (ix2 p q)).trans
    (Cert.Lib.PlainDot.contraction_sum d hd.rank hd.size hd.l0 hd.l1 hd.r0 hd.r1 x w p q))

theorem lnMean_at {T N : Nat} (hr : (⟨2, ![T, N]⟩ : Shape).Reduces [1] ⟨1, ![T]⟩) (hc : (⟨1, ![T]⟩ : Shape).ShapeCasts ⟨2, ![T, 1]⟩)
    (x : FVec Ideal ⟨2, ![T, N]⟩ .f32) (p : Fin T) :
    lnMean hr hc x (ix2 p r0) = (∑ k : Fin N, x (ix2 p k)) * Ideal.ofBits .f32 0x3AAAAAAB#32 :=
  congrArg (· * Ideal.ofBits .f32 0x3AAAAAAB#32) (Cert.Dual.Body.rowSum_at x hr (.inl rfl) rfl hc p)

theorem lnIstd_at {T N : Nat} (hr : (⟨2, ![T, N]⟩ : Shape).Reduces [1] ⟨1, ![T]⟩) (hc : (⟨1, ![T]⟩ : Shape).ShapeCasts ⟨2, ![T, 1]⟩)
    (x : FVec Ideal ⟨2, ![T, N]⟩ .f32) (p : Fin T) :
    lnIstd hr hc x (ix2 p r0) = Ideal.rsqrt ((∑ k : Fin N, x (ix2 p k) * x (ix2 p k)) * Ideal.ofBits .f32 0x3AAAAAAB#32
        - (∑ k : Fin N, x (ix2 p k)) * Ideal.ofBits .f32 0x3AAAAAAB#32 * ((∑ k : Fin N, x (ix2 p k)) * Ideal.ofBits .f32 0x3AAAAAAB#32)
        + Ideal.ofBits .f32 0x3727C5AC#32) := by
  show Ideal.rsqrt (lnMean hr hc (mulf x x) (ix2 p r0) - lnMean hr hc x (ix2 p r0) * lnMean hr hc x (ix2 p r0)
    + Ideal.ofBits .f32 0x3727C5AC#32) = _
  rw [lnMean_at hr hc (mulf x x) p, lnMean_at hr hc x p]
  rfl

theorem lnBlk_at {T N : Nat} (hr : (⟨2, ![T, N]⟩ : Shape).Reduces [1] ⟨1, ![T]⟩) (hc : (⟨1, ![T]⟩ : Shape).ShapeCasts ⟨2, ![T, 1]⟩)
    (hbc : (⟨2, ![T, 1]⟩ : Shape).Broadcasts ⟨2, ![T, N]⟩) (hbr : (⟨2, ![1, N]⟩ : Shape).Broadcasts ⟨2, ![T, N]⟩)
    (x : FVec Ideal ⟨2, ![T, N]⟩ .f32) (g β : FVec Ideal ⟨2, ![1, N]⟩ .f32) (p : Fin T) (q : Fin N) :
    lnBlk hr hc hbc hbr x g β (ix2 p q)
      = lnEntry N (fun k => x (ix2 p k)) (x (ix2 p q)) (g (ix2 r0 q)) (β (ix2 r0 q)) := by
  show x (ix2 p q) * (broadcastTo ⟨2, ![T, N]⟩ g hbr (ix2 p q) * broadcastTo ⟨2, ![T, N]⟩ (lnIstd hr hc x) hbc (ix2 p q))
      + (broadcastTo ⟨2, ![T, N]⟩ β hbr (ix2 p q)
          - broadcastTo ⟨2, ![T, N]⟩ (lnMean hr hc x) hbc (ix2 p q)
            * (broadcastTo ⟨2, ![T, N]⟩ g hbr (ix2 p q) * broadcastTo ⟨2, ![T, N]⟩ (lnIstd hr hc x) hbc (ix2 p q))) = _
  rw [Cert.Dual.Body.rowBcast_at g hbr p q, Cert.Dual.Body.rowBcast_at β hbr p q,
    Cert.Lib.KeepdimsColumn.column_broadcast_at (lnIstd hr hc x) hbc p q,
    Cert.Lib.KeepdimsColumn.column_broadcast_at (lnMean hr hc x) hbc p q, lnIstd_at hr hc x p, lnMean_at hr hc x p]
  rfl

/-! ## A block of rows of the whole-matrix functions -/

theorem linW_at {M K N : Nat} (X : Mat M K) (W : Mat K N) (b : Mat 1 N) (r : Fin M) (q : Fin N) :
    linW X W b (ix2 r q) = (∑ k : Fin K, X (ix2 r k) * W (ix2 k q)) + b (ix2 r0 q) := rfl

theorem lnW_at {M N : Nat} (X : Mat M N) (g β : Mat 1 N) (r : Fin M) (q : Fin N) :
    lnW X g β (ix2 r q) = lnEntry N (fun k => X (ix2 r k)) (X (ix2 r q)) (g (ix2 r0 q)) (β (ix2 r0 q)) := rfl

/-- The dense layer's chain on a block of rows is the block of rows of the whole matrix's dense layer. -/
theorem RowBlk.lin {T M K N : Nat} {φ₁ φ₂ : FTy} {off : Nat} {d : DotDims ⟨2, ![T, K]⟩ ⟨2, ![K, N]⟩ ⟨2, ![T, N]⟩} (hd : Plain d)
    (hb : (⟨2, ![1, N]⟩ : Shape).Broadcasts ⟨2, ![T, N]⟩)
    {xb : FVec Ideal ⟨2, ![T, K]⟩ φ₁} {X : Mat M K} (h : RowBlk off xb X) (w : FVec Ideal ⟨2, ![K, N]⟩ φ₂) (b : FVec Ideal ⟨2, ![1, N]⟩ .f32) :
    RowBlk off (linBlk d hb xb w b) (linW X w b) := fun r hr q => by
  rw [linBlk_at hd hb xb w b r q, linW_at]
  exact congrArg (· + b (ix2 r0 q)) (Finset.sum_congr rfl fun k _ => congrArg (· * w (ix2 k q)) (h r hr k))

/-- The rectifier's chain on a block of rows. -/
theorem RowBlk.relu {T M N : Nat} {off : Nat} {xb : FVec Ideal ⟨2, ![T, N]⟩ .f32} {X : Mat M N} (h : RowBlk off xb X) :
    RowBlk off (reluBlk xb) (reluW X) := fun r hr q => by
  show max (xb (ix2 r q)) (Ideal.ofBits .f32 0x00000000#32) = max (X (ix2 ⟨off + r.val, hr⟩ q)) (Ideal.ofBits .f32 0x00000000#32)
  rw [h r hr q]

/-- Entrywise sums of blocks of rows. -/
theorem RowBlk.addW {T M N : Nat} {off : Nat} {a b : FVec Ideal ⟨2, ![T, N]⟩ .f32} {A B : Mat M N}
    (ha : RowBlk off a A) (hb : RowBlk off b B) : RowBlk off (addf a b) (Layers.addW A B) := fun r hr q => by
  show a (ix2 r q) + b (ix2 r q) = A (ix2 ⟨off + r.val, hr⟩ q) + B (ix2 ⟨off + r.val, hr⟩ q)
  rw [ha r hr q, hb r hr q]

/-- The layer normalisation's chain on a block of rows is the block of rows of the whole matrix's normalisation. -/
theorem RowBlk.ln {T M N : Nat} {off : Nat} (hr : (⟨2, ![T, N]⟩ : Shape).Reduces [1] ⟨1, ![T]⟩)
    (hc : (⟨1, ![T]⟩ : Shape).ShapeCasts ⟨2, ![T, 1]⟩) (hbc : (⟨2, ![T, 1]⟩ : Shape).Broadcasts ⟨2, ![T, N]⟩)
    (hbr : (⟨2, ![1, N]⟩ : Shape).Broadcasts ⟨2, ![T, N]⟩)
    {xb : FVec Ideal ⟨2, ![T, N]⟩ .f32} {X : Mat M N} (h : RowBlk off xb X) (g β : FVec Ideal ⟨2, ![1, N]⟩ .f32) :
    RowBlk off (lnBlk hr hc hbc hbr xb g β) (lnW X g β) := fun r hrr q => by
  rw [lnBlk_at hr hc hbc hbr xb g β r q, lnW_at]
  have e : (fun k => xb (ix2 r k)) = fun k => X (ix2 ⟨off + r.val, hrr⟩ k) := funext fun k => h r hrr k
  rw [e, h r hrr q]

end Cert.Hand.Layers

end
-- ==== Proof.AttDefs.lean ====
/-
  Scaled dot-product attention of one head: the function, and the two spellings of it.

  From three 128 x 64 matrices Q, K, V the head computes the scores S = (Q Kᵀ) · c (c the scale, one float word),
  subtracts each row's maximum, exponentiates, divides each row by its sum, and multiplies the resulting 128 x 128
  matrix of weights by V. `att` is that function of the entries, at the extended reals. Two programs spell it over
  arrays: one contracts the second axes of Q and K directly and narrows the weights' float format before the last
  product, the other transposes K first and keeps the format.
-/
import Idealize.ShloMosaic.PureOps.Ideal
import proofs.«143729_g2000604737890889_pallaspilot1_168_5_alg».proof.KernelIdeal
import proofs.«143729_g2000604737890889_pallaspilot1_168_5_alg».proof.ReferenceIdeal

noncomputable section

open scoped BigOperators

namespace Cert.Hand.Attn

open Idealize.ShloMosaic

/-! ## The function both spellings compute -/

/-- The score of query row s against key row j: their inner product times the scale. -/
def scr (Q K : Fin 128 → Fin 64 → EReal) (s j : Fin 128) : EReal :=
  (∑ x : Fin 64, Q s x * K j x) * Ideal.ofBits .f32 0x3E000000#32

/-- The largest score of row s. -/
def rmax (Q K : Fin 128 → Fin 64 → EReal) (s : Fin 128) : EReal := ⨆ j : Fin 128, scr Q K s j

/-- The exponential of a score less its row's maximum. -/
def ex (Q K : Fin 128 → Fin 64 → EReal) (s j : Fin 128) : EReal := Ideal.exp (scr Q K s j - rmax Q K s)

/-- The sum of row s of those exponentials. -/
def den (Q K : Fin 128 → Fin 64 → EReal) (s : Fin 128) : EReal := ∑ j : Fin 128, ex Q K s j

/-- Attention at entry (s, d): the weights of row s (each exponential over the row's sum) against column d of V. -/
def att (Q K V : Fin 128 → Fin 64 → EReal) (s : Fin 128) (d : Fin 64) : EReal :=
  ∑ j : Fin 128, Ideal.div (ex Q K s j) (den Q K s) * V j d

/-! ## The two spellings -/

section KernelSpelling
open Cert.KernelIdeal Cert.KernelIdeal.Facts₀ Cert.KernelIdeal.Facts
variable [Cert.KernelIdeal.Facts]

/-- The first spelling: Q · Kᵀ by contracting the second axis of both operands; the weights narrowed before the
    product with V. -/
def headK {F : FTy → Type} [FloatOps F] (q k v : FVec F Cert.KernelIdeal.S128x64 .bf16) :
    FVec F Cert.KernelIdeal.S128x64 .f32 :=
  have cst_5 : FVec F S128x128 .f32 := constant S128x128 .f32 0x00000000#32
  have v16 : FVec F S128x128 .f32 := matmul dot_S128x64_S128x64_S128x128_1_1_0_0_n_n none q k cst_5
  have cst_6 : F .f32 := Scalar.ofBits .f32 0x3E000000#32
  have v17 : FVec F S128x128 .f32 := broadcast S128x128 cst_6
  have v18 : FVec F S128x128 .f32 := mulf v16 v17
  have v19 : FVec F S128 .f32 := multiReduction .maximumf [1] S128 v18 0xFF800000#32 reduces_S128x128_S128 (.inl rfl) rfl
  have v20 : FVec F S128x1 .f32 := shapeCast S128x1 v19 shapeCasts_S128_S128x1
  have v21 : FVec F S128x128 .f32 := broadcastTo S128x128 v20 broadcasts_S128x1_S128x128
  have v22 : FVec F S128x128 .f32 := subf v18 v21
  have v23 : FVec F S128x128 .f32 := exp v22
  have v24 : FVec F S128 .f32 := multiReduction .add [1] S128 v23 0x00000000#32 reduces_S128x128_S128 (.inl rfl) rfl
  have v25 : FVec F S128x1 .f32 := shapeCast S128x1 v24 shapeCasts_S128_S128x1
  have v26 : FVec F S128x128 .f32 := broadcastTo S128x128 v25 broadcasts_S128x1_S128x128
  have v27 : FVec F S128x128 .f32 := divf v23 v26
  have v28 : FVec F S128x128 .bf16 := truncf .bf16 v27 bitsLt_bf16_f32
  have cst_9 : FVec F S128x64 .f32 := constant S128x64 .f32 0x00000000#32
  matmul dot_S128x128_S128x64_S128x64_1_0_0_1_n_n none v28 v cst_9

end KernelSpelling

section ReferenceSpelling
open Cert.ReferenceIdeal Cert.ReferenceIdeal.Facts₀ Cert.ReferenceIdeal.Facts
variable [Cert.ReferenceIdeal.Facts]

/-- The second spelling: K transposed first, then the plain product; no change of format. -/
def headR {F : FTy → Type} [FloatOps F] (q k v : FVec F Cert.ReferenceIdeal.S128x64 .f32) :
    FVec F Cert.ReferenceIdeal.S128x64 .f32 :=
  have v6 : FVec F S64x128 .f32 := transpose S64x128 [1, 0] k transposes_S128x64_p1_0_S64x128
  have cst : FVec F S128x128 .f32 := constant S128x128 .f32 0x00000000#32
  have v7 : FVec F S128x128 .f32 := matmul dot_S128x64_S64x128_S128x128_1_0_0_1_n_n none q v6 cst
  have cst_8 : F .f32 := Scalar.ofBits .f32 0x3E000000#32
  have v8 : FVec F S128x128 .f32 := broadcast S128x128 cst_8
  have v9 : FVec F S128x128 .f32 := mulf v7 v8
  have v10 : FVec F S128 .f32 := multiReduction .maximumf [1] S128 v9 0xFF800000#32 reduces_S128x128_S128 (.inl rfl) rfl
  have v11 : FVec F S128x1 .f32 := shapeCast S128x1 v10 shapeCasts_S128_S128x1
  have v12 : FVec F S128x128 .f32 := broadcastTo S128x128 v11 broadcasts_S128x1_S128x128
  have v13 : FVec F S128x128 .f32 := subf v9 v12
  have v14 : FVec F S128x128 .f32 := exp v13
  have v15 : FVec F S128 .f32 := multiReduction .add [1] S128 v14 0x00000000#32 reduces_S128x128_S128 (.inl rfl) rfl
  have v16 : FVec F S128x1 .f32 := shapeCast S128x1 v15 shapeCasts_S128_S128x1
  have v17 : FVec F S128x128 .f32 := broadcastTo S128x128 v16 broadcasts_S128x1_S128x128
  have v18 : FVec F S128x128 .f32 := divf v14 v17
  have cst_11 : FVec F S128x64 .f32 := constant S128x64 .f32 0x00000000#32
  matmul dot_S128x128_S128x64_S128x64_1_0_0_1_n_n none v18 v cst_11

end ReferenceSpelling

end Cert.Hand.Attn

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.LibDotFreeAxis.lean ====
/-
  The free (non-contracted, non-batch) axes of a matrix product's operand indices.

  A product's dimension numbers say, for every axis of each operand, where its coordinate comes from: a free axis of
  the left operand reads the output index at the axis's place among the left free axes (after the batch axes), a free
  axis of the right operand reads it after all of the left operand's. With no batch axes and one free axis on each
  side, the left operand's free coordinate is the output's coordinate 0 and the right operand's is the output's
  coordinate 1, whatever the contraction position is. These are the companions, for the free axes, of the
  library's statements about the single contracted axis.
-/
import Idealize.ShloMosaic.PureOps.Dims

namespace Cert.Lib.DotFreeAxis

open Idealize.ShloMosaic

variable {sl sr so : Shape} (d : DotDims sl sr so)

/-- No batch axes, one left free axis a: the left operand's coordinate on a is the output's coordinate 0. -/
theorem lhsIdx_val_of_free {a : Fin sl.rank} (hb : d.lhsBatch = []) (hn : d.lhsNonContracting = [a])
    (h0 : 0 < so.rank) (j : so.Idx) (k : d.contr.Idx) :
    (d.lhsIdx j k a).val = (j ⟨0, h0⟩).val := by
  have h1 : a ∉ d.lhsBatch := by rw [hb]; exact List.not_mem_nil
  have h2 : a ∈ d.lhsNonContracting := by rw [hn]; exact List.mem_singleton.mpr rfl
  unfold DotDims.lhsIdx
  rw [dif_neg h1, dif_pos h2]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- No batch axes, one free axis on each side: the right operand's coordinate on its free axis a is the output's
    coordinate 1. -/
theorem rhsIdx_val_of_free {a : Fin sr.rank} {a' : Fin sl.rank} (hb : d.lhsBatch = []) (hb' : d.rhsBatch = [])
    (hn' : d.lhsNonContracting = [a']) (hn : d.rhsNonContracting = [a])
    (h1 : 1 < so.rank) (j : so.Idx) (k : d.contr.Idx) :
    (d.rhsIdx j k a).val = (j ⟨1, h1⟩).val := by
  have h2 : a ∉ d.rhsBatch := by rw [hb']; exact List.not_mem_nil
  have h3 : a ∈ d.rhsNonContracting := by rw [hn]; exact List.mem_singleton.mpr rfl
  unfold DotDims.rhsIdx
  rw [dif_neg h2, dif_pos h3]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn', hn])

end Cert.Lib.DotFreeAxis
-- ==== Proof.Attn.lean ====
/-
  Scaled dot-product attention of one head, read at an entry, at the extended reals.

  The two array spellings of the head both read, at every entry (s, d), as the one function `att` of the entries.
  At the extended reals a change of float format is the identity and a matrix product into the zero matrix is the
  sum of the products of the operands' entries, so the spellings differ only in how the scores Q Kᵀ are indexed:
  by contracting the second axes of Q and K, or by transposing K and taking the plain product. The rest — scale,
  subtract the row maximum, exponentiate, divide by the row sum — is one block, read here once for any extents.
-/
import Idealize.ShloMosaic.PureOps.Ideal.Laws
import Idealize.ShloMosaic.Lib.ValueIdx
import Idealize.ShloMosaic.Lib.ValueLayout
import Idealize.ShloMosaic.Lib.Pipeline.Value
import proofs.«143729_g2000604737890889_pallaspilot1_168_5_alg».proof.Proof.AttDefs
import proofs.«143729_g2000604737890889_pallaspilot1_168_5_alg».proof.Proof.LibRowOps
import proofs.«143729_g2000604737890889_pallaspilot1_168_5_alg».proof.Proof.LibKeepdimsColumn
import proofs.«143729_g2000604737890889_pallaspilot1_168_5_alg».proof.Proof.LibOneAxisDot
import proofs.«143729_g2000604737890889_pallaspilot1_168_5_alg».proof.Proof.LibDotFreeAxis
import proofs.«143729_g2000604737890889_pallaspilot1_168_5_alg».proof.Proof.LibPlainRecord

noncomputable section

open scoped BigOperators

namespace Cert.Hand.Attn

open Idealize.ShloMosaic Idealize.ShloMosaic.ValueIdx

/-! ## The block both spellings share, over any extents: scale, subtract the row maximum and exponentiate, divide by the row sum -/

section SharedBlock
variable {a b : Nat}

/-- A matrix of raw scores times the scale. -/
def scaled (s0 : FVec Ideal ⟨2, ![a, b]⟩ .f32) : FVec Ideal ⟨2, ![a, b]⟩ .f32 :=
  mulf s0 (broadcast ⟨2, ![a, b]⟩ (Scalar.ofBits .f32 0x3E000000#32))

/-- Each entry less its row's maximum (from -inf), exponentiated. -/
def shifted (hr : Shape.Reduces ⟨2, ![a, b]⟩ [1] ⟨1, ![a]⟩) (hc : (⟨1, ![a]⟩ : Shape).ShapeCasts ⟨2, ![a, 1]⟩)
    (hb : (⟨2, ![a, 1]⟩ : Shape).Broadcasts ⟨2, ![a, b]⟩) (sc : FVec Ideal ⟨2, ![a, b]⟩ .f32) : FVec Ideal ⟨2, ![a, b]⟩ .f32 :=
  exp (subf sc (broadcastTo ⟨2, ![a, b]⟩ (shapeCast ⟨2, ![a, 1]⟩
    (multiReduction .maximumf [1] ⟨1, ![a]⟩ sc 0xFF800000#32 hr (.inl rfl) rfl) hc) hb))

/-- Each entry over its row's sum. -/
def normed (hr : Shape.Reduces ⟨2, ![a, b]⟩ [1] ⟨1, ![a]⟩) (hc : (⟨1, ![a]⟩ : Shape).ShapeCasts ⟨2, ![a, 1]⟩)
    (hb : (⟨2, ![a, 1]⟩ : Shape).Broadcasts ⟨2, ![a, b]⟩) (e : FVec Ideal ⟨2, ![a, b]⟩ .f32) : FVec Ideal ⟨2, ![a, b]⟩ .f32 :=
  divf e (broadcastTo ⟨2, ![a, b]⟩ (shapeCast ⟨2, ![a, 1]⟩
    (multiReduction .add [1] ⟨1, ![a]⟩ e 0x00000000#32 hr (.inl rfl) rfl) hc) hb)

/-- The row maxima as a column repeated along the columns, at (p, q): the supremum of row p. -/
theorem rowMaxB_at (w : FVec Ideal ⟨2, ![a, b]⟩ .f32)
    (hr : Shape.Reduces ⟨2, ![a, b]⟩ [1] ⟨1, ![a]⟩) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩
        (multiReduction .maximumf [1] ⟨1, ![a]⟩ w 0xFF800000#32 hr (.inl rfl) rfl) hc) hb (ix2 p q)
      = ⨆ k : Fin b, w (ix2 p k) :=
  (Cert.Lib.KeepdimsColumn.column_broadcast_at _ hb p q).trans (Cert.Dual.Body.rowMax_at w hr (.inl rfl) rfl hc p)

/-- The row sums as a column repeated along the columns, at (p, q): the sum of row p. -/
theorem rowSumB_at (w : FVec Ideal ⟨2, ![a, b]⟩ .f32)
    (hr : Shape.Reduces ⟨2, ![a, b]⟩ [1] ⟨1, ![a]⟩) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩
        (multiReduction .add [1] ⟨1, ![a]⟩ w 0x00000000#32 hr (.inl rfl) rfl) hc) hb (ix2 p q)
      = ∑ k : Fin b, w (ix2 p k) :=
  (Cert.Lib.KeepdimsColumn.column_broadcast_at _ hb p q).trans (Cert.Dual.Body.rowSum_at w hr (.inl rfl) rfl hc p)

theorem scaled_at (s0 : FVec Ideal ⟨2, ![a, b]⟩ .f32) (i : (⟨2, ![a, b]⟩ : Shape).Idx) :
    scaled s0 i = s0 i * Ideal.ofBits .f32 0x3E000000#32 := rfl

theorem shifted_at (hr : Shape.Reduces ⟨2, ![a, b]⟩ [1] ⟨1, ![a]⟩) (hc : (⟨1, ![a]⟩ : Shape).ShapeCasts ⟨2, ![a, 1]⟩)
    (hb : (⟨2, ![a, 1]⟩ : Shape).Broadcasts ⟨2, ![a, b]⟩) (sc : FVec Ideal ⟨2, ![a, b]⟩ .f32) (p : Fin a) (q : Fin b) :
    shifted hr hc hb sc (ix2 p q) = Ideal.exp (sc (ix2 p q) - ⨆ k : Fin b, sc (ix2 p k)) :=
  congrArg (fun m => Ideal.exp (sc (ix2 p q) - m)) (rowMaxB_at sc hr hc hb p q)

theorem normed_at (hr : Shape.Reduces ⟨2, ![a, b]⟩ [1] ⟨1, ![a]⟩) (hc : (⟨1, ![a]⟩ : Shape).ShapeCasts ⟨2, ![a, 1]⟩)
    (hb : (⟨2, ![a, 1]⟩ : Shape).Broadcasts ⟨2, ![a, b]⟩) (e : FVec Ideal ⟨2, ![a, b]⟩ .f32) (p : Fin a) (q : Fin b) :
    normed hr hc hb e (ix2 p q) = Ideal.div (e (ix2 p q)) (∑ k : Fin b, e (ix2 p k)) :=
  congrArg (Ideal.div (e (ix2 p q))) (rowSumB_at e hr hc hb p q)

end SharedBlock

/-- The block applied to a 128 x 128 matrix whose entry (s, j) is the inner product of row s of Q with row j of K:
    entry (s, j) is the weight of key j for query s. -/
theorem weights_entry (S0 : FVec Ideal ⟨2, ![128, 128]⟩ .f32)
    (hr : Shape.Reduces ⟨2, ![128, 128]⟩ [1] ⟨1, ![128]⟩) (hc : (⟨1, ![128]⟩ : Shape).ShapeCasts ⟨2, ![128, 1]⟩)
    (hb : (⟨2, ![128, 1]⟩ : Shape).Broadcasts ⟨2, ![128, 128]⟩) (Q K : Fin 128 → Fin 64 → EReal)
    (h0 : ∀ s j : Fin 128, S0 (ix2 s j) = ∑ x : Fin 64, Q s x * K j x) (s j : Fin 128) :
    normed hr hc hb (shifted hr hc hb (scaled S0)) (ix2 s j) = Ideal.div (ex Q K s j) (den Q K s) := by
  have hS : ∀ s j : Fin 128, scaled S0 (ix2 s j) = scr Q K s j := fun s j =>
    (scaled_at S0 (ix2 s j)).trans (congrArg (· * Ideal.ofBits .f32 0x3E000000#32) (h0 s j))
  have hE : ∀ s j : Fin 128, shifted hr hc hb (scaled S0) (ix2 s j) = ex Q K s j := fun s j => by
    rw [shifted_at, hS]
    exact congrArg (fun m => Ideal.exp (scr Q K s j - m)) (iSup_congr fun j' => hS s j')
  rw [normed_at, hE]
  exact congrArg (Ideal.div (ex Q K s j)) (Finset.sum_congr rfl fun j' _ => hE s j')

section KernelRead
open Cert.KernelIdeal Cert.KernelIdeal.Facts₀ Cert.KernelIdeal.Facts
variable [Cert.KernelIdeal.Facts]

/-- Q · Kᵀ with the second axis of both operands contracted, at (s, j): the inner product of row s of Q and row j of K. -/
theorem qkT_at (q k : FVec Ideal Cert.KernelIdeal.S128x64 .bf16) (s j : Fin 128) :
    matmul dot_S128x64_S128x64_S128x128_1_1_0_0_n_n none q k (constant S128x128 .f32 0x00000000#32) (ix2 s j)
      = ∑ x : Fin 64, q (ix2 s x) * k (ix2 j x) := by
  have hr : dot_S128x64_S128x64_S128x128_1_1_0_0_n_n.contr.rank = 1 := by rw [DotDims.rank_contr]; rfl
  have hs : dot_S128x64_S128x64_S128x128_1_1_0_0_n_n.contr.size ⟨0, by omega⟩ = 64 := rfl
  refine Cert.Lib.OneAxisDot.matmul_zero_apply_at _ 64 hr hs none q k (ix2 s j)
    (fun x => ix2 s x) (fun x => ix2 j x) (fun x => ?_) (fun x => ?_)
  · funext c
    apply Fin.ext
    match c with
    | ⟨0, _⟩ => exact Cert.Lib.DotFreeAxis.lhsIdx_val_of_free _ rfl rfl (by decide) (ix2 s j) _
    | ⟨1, _⟩ => exact (DotDims.lhsIdx_val_of_single _ rfl (ix2 s j) _).trans (contrEquiv1_symm_val _ 64 hr hs x)
  · funext c
    apply Fin.ext
    match c with
    | ⟨0, _⟩ => exact Cert.Lib.DotFreeAxis.rhsIdx_val_of_free _ rfl rfl rfl rfl (by decide) (ix2 s j) _
    | ⟨1, _⟩ => exact (DotDims.rhsIdx_val_of_single _ rfl (ix2 s j) _).trans (contrEquiv1_symm_val _ 64 hr hs x)

/-- The first spelling at entry (s, d). -/
theorem headK_at (q k v : FVec Ideal Cert.KernelIdeal.S128x64 .bf16) (s : Fin 128) (d : Fin 64) :
    headK (F := Ideal) q k v (ix2 s d)
      = att (fun a b => q (ix2 a b)) (fun a b => k (ix2 a b)) (fun a b => v (ix2 a b)) s d := by
  have hPV : Cert.Lib.DenseLayer.Plain dot_S128x128_S128x64_S128x64_1_0_0_1_n_n :=
    Cert.Lib.DenseLayer.Plain.of_fields _ rfl rfl rfl rfl rfl rfl
  show matmul dot_S128x128_S128x64_S128x64_1_0_0_1_n_n none
      (truncf .bf16 (normed reduces_S128x128_S128 shapeCasts_S128_S128x1 broadcasts_S128x1_S128x128
        (shifted reduces_S128x128_S128 shapeCasts_S128_S128x1 broadcasts_S128x1_S128x128
          (scaled (matmul dot_S128x64_S128x64_S128x128_1_1_0_0_n_n none q k (constant S128x128 .f32 0x00000000#32)))))
        bitsLt_bf16_f32) v (constant S128x64 .f32 0x00000000#32) (ix2 s d) = _
  refine (Ideal.matmul_constant_zero_apply _ none _ v (ix2 s d)).trans ?_
  refine (Cert.Lib.PlainDot.contraction_sum _ hPV.rank hPV.size hPV.l0 hPV.l1 hPV.r0 hPV.r1 _ _ s d).trans ?_
  exact Finset.sum_congr rfl fun j _ => congrArg (· * v (ix2 j d))
    (weights_entry _ reduces_S128x128_S128 shapeCasts_S128_S128x1 broadcasts_S128x1_S128x128
      (fun a b => q (ix2 a b)) (fun a b => k (ix2 a b)) (qkT_at q k) s j)

end KernelRead

section ReferenceRead
open Cert.ReferenceIdeal Cert.ReferenceIdeal.Facts₀ Cert.ReferenceIdeal.Facts
variable [Cert.ReferenceIdeal.Facts]

/-- Q times the transpose of K, at (s, j): the inner product of row s of Q and row j of K. -/
theorem qkt_at (q k : FVec Ideal Cert.ReferenceIdeal.S128x64 .f32) (s j : Fin 128) :
    matmul dot_S128x64_S64x128_S128x128_1_0_0_1_n_n none q
        (transpose S64x128 [1, 0] k transposes_S128x64_p1_0_S64x128) (constant S128x128 .f32 0x00000000#32) (ix2 s j)
      = ∑ x : Fin 64, q (ix2 s x) * k (ix2 j x) := by
  have hP : Cert.Lib.DenseLayer.Plain dot_S128x64_S64x128_S128x128_1_0_0_1_n_n :=
    Cert.Lib.DenseLayer.Plain.of_fields _ rfl rfl rfl rfl rfl rfl
  refine (Ideal.matmul_constant_zero_apply _ none q _ (ix2 s j)).trans ?_
  refine (Cert.Lib.PlainDot.contraction_sum _ hP.rank hP.size hP.l0 hP.l1 hP.r0 hP.r1 _ _ s j).trans ?_
  exact Finset.sum_congr rfl fun x _ => congrArg (q (ix2 s x) * ·)
    (transpose_ix2_apply k transposes_S128x64_p1_0_S64x128 x j)

/-- The second spelling at entry (s, d). -/
theorem headR_at (q k v : FVec Ideal Cert.ReferenceIdeal.S128x64 .f32) (s : Fin 128) (d : Fin 64) :
    headR (F := Ideal) q k v (ix2 s d)
      = att (fun a b => q (ix2 a b)) (fun a b => k (ix2 a b)) (fun a b => v (ix2 a b)) s d := by
  have hPV : Cert.Lib.DenseLayer.Plain dot_S128x128_S128x64_S128x64_1_0_0_1_n_n :=
    Cert.Lib.DenseLayer.Plain.of_fields _ rfl rfl rfl rfl rfl rfl
  show matmul dot_S128x128_S128x64_S128x64_1_0_0_1_n_n none
      (normed reduces_S128x128_S128 shapeCasts_S128_S128x1 broadcasts_S128x1_S128x128
        (shifted reduces_S128x128_S128 shapeCasts_S128_S128x1 broadcasts_S128x1_S128x128
          (scaled (matmul dot_S128x64_S64x128_S128x128_1_0_0_1_n_n none q
            (transpose S64x128 [1, 0] k transposes_S128x64_p1_0_S64x128) (constant S128x128 .f32 0x00000000#32)))))
      v (constant S128x64 .f32 0x00000000#32) (ix2 s d) = _
  refine (Ideal.matmul_constant_zero_apply _ none _ v (ix2 s d)).trans ?_
  refine (Cert.Lib.PlainDot.contraction_sum _ hPV.rank hPV.size hPV.l0 hPV.l1 hPV.r0 hPV.r1 _ _ s d).trans ?_
  exact Finset.sum_congr rfl fun j _ => congrArg (· * v (ix2 j d))
    (weights_entry _ reduces_S128x128_S128 shapeCasts_S128_S128x1 broadcasts_S128x1_S128x128
      (fun a b => q (ix2 a b)) (fun a b => k (ix2 a b)) (qkt_at q k) s j)

end ReferenceRead

end Cert.Hand.Attn

end
-- ==== Proof.LibRowMajor.lean ====
/-
  Arrays read through their row-major positions.

  An array over a shape is "represented" by a function f on the natural numbers when its entry at every index is f
  at the index's row-major position.  A reshape keeps the row-major position of every entry, so it keeps the
  representing function; two arrays of one shape with one representing function are equal.  For ranks one to four
  the position of an index built from coordinates is spelt as the usual nested sum of products.
-/
import Idealize.ShloMosaic.PureOps.Ideal.Laws
import Idealize.ShloMosaic.Lib.ValueIdx
import Idealize.ShloMosaic.Lib.Pipeline.Value

noncomputable section

open scoped BigOperators

namespace Cert.Lib.RowMajor

open Idealize.ShloMosaic Idealize.ShloMosaic.ValueIdx

variable {α : Type}

/-- The array `A` at an index is `f` at the index's row-major position. -/
def Rep {S : Shape} (A : S.Idx → α) (f : ℕ → α) : Prop := ∀ i : S.Idx, A i = f (S.rowMajor i).val

/-- The entries of an array listed by row-major position (zero past the last one). -/
def flatOf {S : Shape} (A : S.Idx → EReal) (n : ℕ) : EReal :=
  if h : n < S.numel then A (S.rowMajor.symm ⟨n, h⟩) else 0

theorem rep_flatOf {S : Shape} (A : S.Idx → EReal) : Rep A (flatOf A) := fun i => by
  unfold flatOf
  rw [dif_pos (S.rowMajor i).isLt]
  exact congrArg A ((S.rowMajor.symm_apply_apply i).symm.trans (congrArg S.rowMajor.symm (Fin.ext rfl)))

theorem rep_ext {S : Shape} {A B : S.Idx → α} {f : ℕ → α} (hA : Rep A f) (hB : Rep B f) : A = B :=
  funext fun i => (hA i).trans (hB i).symm

/-- A reshape keeps every entry's row-major position. -/
theorem rep_shapeCast {S T : Shape} {A : S.Idx → α} {f : ℕ → α} (hA : Rep A f) (h : S.ShapeCasts T) :
    Rep (shapeCast T A h) f := fun j => by
  unfold Idealize.ShloMosaic.shapeCast
  rw [hA (Shape.reshapeEquiv h j), Shape.rowMajor_reshapeEquiv h j]

theorem rowMajor_ix1 {a : ℕ} (r : Fin a) : ((⟨1, ![a]⟩ : Shape).rowMajor (ix1 r)).val = r.val := by
  rw [Shape.rowMajor_val_one]; rfl

theorem rowMajor_ix2 {a b : ℕ} (r : Fin a) (c : Fin b) :
    ((⟨2, ![a, b]⟩ : Shape).rowMajor (ix2 r c)).val = r.val * b + c.val := by
  rw [Shape.rowMajor_val_two]; rfl

theorem rowMajor_ix3 {a b c : ℕ} (x : Fin a) (y : Fin b) (z : Fin c) :
    ((⟨3, ![a, b, c]⟩ : Shape).rowMajor (ix3 x y z)).val = (x.val * b + y.val) * c + z.val := by
  rw [Shape.rowMajor_val_three]; rfl

theorem rowMajor_ix4 {a b c d : ℕ} (x : Fin a) (y : Fin b) (z : Fin c) (w : Fin d) :
    ((⟨4, ![a, b, c, d]⟩ : Shape).rowMajor (ix4 x y z w)).val = ((x.val * b + y.val) * c + z.val) * d + w.val := by
  rw [Shape.rowMajor_val_four]; rfl

theorem rep1_iff {a : ℕ} {A : (⟨1, ![a]⟩ : Shape).Idx → α} {f : ℕ → α} :
    Rep A f ↔ ∀ r : Fin a, A (ix1 r) = f r.val :=
  ⟨fun h r => (h (ix1 r)).trans (congrArg f (rowMajor_ix1 r)),
   fun h i => by
    obtain ⟨r, rfl⟩ : ∃ r : Fin a, i = ix1 r := ⟨i 0, eq_ix1 i⟩
    exact (h r).trans (congrArg f (rowMajor_ix1 r).symm)⟩

theorem rep2_iff {a b : ℕ} {A : (⟨2, ![a, b]⟩ : Shape).Idx → α} {f : ℕ → α} :
    Rep A f ↔ ∀ (r : Fin a) (c : Fin b), A (ix2 r c) = f (r.val * b + c.val) :=
  ⟨fun h r c => (h (ix2 r c)).trans (congrArg f (rowMajor_ix2 r c)),
   fun h i => by
    obtain ⟨r, c, rfl⟩ : ∃ (r : Fin a) (c : Fin b), i = ix2 r c := ⟨i 0, i 1, eq_ix2 i⟩
    exact (h r c).trans (congrArg f (rowMajor_ix2 r c).symm)⟩

theorem rep3_iff {a b c : ℕ} {A : (⟨3, ![a, b, c]⟩ : Shape).Idx → α} {f : ℕ → α} :
    Rep A f ↔ ∀ (x : Fin a) (y : Fin b) (z : Fin c), A (ix3 x y z) = f ((x.val * b + y.val) * c + z.val) :=
  ⟨fun h x y z => (h (ix3 x y z)).trans (congrArg f (rowMajor_ix3 x y z)),
   fun h i => by
    obtain ⟨x, y, z, rfl⟩ : ∃ (x : Fin a) (y : Fin b) (z : Fin c), i = ix3 x y z := ⟨i 0, i 1, i 2, eq_ix3 i⟩
    exact (h x y z).trans (congrArg f (rowMajor_ix3 x y z).symm)⟩

theorem rep4_iff {a b c d : ℕ} {A : (⟨4, ![a, b, c, d]⟩ : Shape).Idx → α} {f : ℕ → α} :
    Rep A f ↔ ∀ (x : Fin a) (y : Fin b) (z : Fin c) (w : Fin d),
      A (ix4 x y z w) = f (((x.val * b + y.val) * c + z.val) * d + w.val) :=
  ⟨fun h x y z w => (h (ix4 x y z w)).trans (congrArg f (rowMajor_ix4 x y z w)),
   fun h i => by
    obtain ⟨x, y, z, w, rfl⟩ : ∃ (x : Fin a) (y : Fin b) (z : Fin c) (w : Fin d), i = ix4 x y z w :=
      ⟨i 0, i 1, i 2, i 3, eq_ix4 i⟩
    exact (h x y z w).trans (congrArg f (rowMajor_ix4 x y z w).symm)⟩

end Cert.Lib.RowMajor

end
-- ==== Proof.Spec.lean ====
/-
  The encoder layer as functions of whole arrays.

  The input rows X (2048 x 768) are projected to QKV (2048 x 2304).  Row 128·b + a of QKV, columns
  192·h + 64·o … 192·h + 64·o + 63, is row a of the query (o = 0), key (o = 1) or value (o = 2) matrix of batch element b and
  head h.  Each of the 16 x 12 heads yields a 128 x 64 matrix of attention values.  One program lays these out as a
  [16, 1536, 64] array (head h of batch b in rows 128·h … 128·h + 127 of slab b), the other as a [192, 128, 64] array (head h
  of batch b is slab 12·b + h); read in row-major order the two are the same list of numbers, so regrouped as 2048 x 768
  they are the same matrix.  The rest of the layer (out-projection, residual normalisation, feed-forward, residual
  normalisation) is a function of that matrix and of X, row by row.
-/
import proofs.«143729_g2000604737890889_pallaspilot1_168_5_alg».proof.Proof.AttDefs
import proofs.«143729_g2000604737890889_pallaspilot1_168_5_alg».proof.Proof.Layers
import proofs.«143729_g2000604737890889_pallaspilot1_168_5_alg».proof.Proof.LibRowMajor

noncomputable section

open scoped BigOperators

namespace Cert.Hand.Spec

open Idealize.ShloMosaic Idealize.ShloMosaic.ValueIdx Cert.Hand.Layers Cert.Hand.Attn

/-- An array of rank three of extended reals. -/
abbrev Arr3 (a b c : Nat) : Type := (⟨3, ![a, b, c]⟩ : Shape).Idx → EReal

/-- The query (o = 0), key (o = 1) or value (o = 2) matrix of batch element b and head h, cut out of QKV. -/
def headOf (QKV : Mat 2048 2304) (b : Fin 16) (h : Fin 12) (o : Fin 3) : Fin 128 → Fin 64 → EReal := fun a x =>
  QKV (ix2 ⟨b.val * 128 + a.val, by have := b.isLt; have := a.isLt; omega⟩
    ⟨192 * h.val + 64 * o.val + x.val, by have := h.isLt; have := o.isLt; have := x.isLt; omega⟩)

/-- The attention values of batch element b and head h. -/
def headOut (QKV : Mat 2048 2304) (b : Fin 16) (h : Fin 12) : Fin 128 → Fin 64 → EReal :=
  att (headOf QKV b h 0) (headOf QKV b h 1) (headOf QKV b h 2)

/-- All heads' values, head h of batch element b in rows 128·h … of slab b. -/
def kattW (QKV : Mat 2048 2304) : Arr3 16 1536 64 := fun i =>
  headOut QKV ⟨(i 0).val, (i 0).isLt⟩ ⟨(i 1).val / 128, by have : (i 1).val < 1536 := (i 1).isLt; omega⟩
    ⟨(i 1).val % 128, Nat.mod_lt _ (by decide)⟩ ⟨(i 2).val, (i 2).isLt⟩

/-- All heads' values, head h of batch element b as slab 12·b + h. -/
def rattW (QKV : Mat 2048 2304) : Arr3 192 128 64 := fun i =>
  headOut QKV ⟨(i 0).val / 12, by have : (i 0).val < 192 := (i 0).isLt; omega⟩ ⟨(i 0).val % 12, Nat.mod_lt _ (by decide)⟩
    ⟨(i 1).val, (i 1).isLt⟩ ⟨(i 2).val, (i 2).isLt⟩

/-- Attention slab by slab: slab n of the result from slab n of each operand. -/
def attW3 {B : Nat} (Q K V : Arr3 B 128 64) : Arr3 B 128 64 := fun i =>
  att (fun a x => Q (ix3 ⟨(i 0).val, (i 0).isLt⟩ a x)) (fun a x => K (ix3 ⟨(i 0).val, (i 0).isLt⟩ a x))
    (fun a x => V (ix3 ⟨(i 0).val, (i 0).isLt⟩ a x)) ⟨(i 1).val, (i 1).isLt⟩ ⟨(i 2).val, (i 2).isLt⟩

theorem kattW_at (QKV : Mat 2048 2304) (b : Fin 16) (y : Fin 1536) (d : Fin 64) :
    kattW QKV (ix3 b y d) = headOut QKV b ⟨y.val / 128, by have := y.isLt; omega⟩ ⟨y.val % 128, Nat.mod_lt _ (by decide)⟩ d := rfl

theorem rattW_at (QKV : Mat 2048 2304) (n : Fin 192) (a : Fin 128) (d : Fin 64) :
    rattW QKV (ix3 n a d) = headOut QKV ⟨n.val / 12, by have := n.isLt; omega⟩ ⟨n.val % 12, Nat.mod_lt _ (by decide)⟩ a d := rfl

theorem attW3_at {B : Nat} (Q K V : Arr3 B 128 64) (n : Fin B) (a : Fin 128) (d : Fin 64) :
    attW3 Q K V (ix3 n a d) = att (fun s x => Q (ix3 n s x)) (fun s x => K (ix3 n s x)) (fun s x => V (ix3 n s x)) a d := rfl

/-- Read in row-major order the two layouts are one list of numbers: regrouped to any one shape they are equal. -/
theorem layouts_agree (QKV : Mat 2048 2304) {T : Shape} (hk : (⟨3, ![16, 1536, 64]⟩ : Shape).ShapeCasts T)
    (hr : (⟨3, ![192, 128, 64]⟩ : Shape).ShapeCasts T) :
    shapeCast T (kattW QKV) hk = shapeCast T (rattW QKV) hr := by
  refine Cert.Lib.RowMajor.rep_ext (f := Cert.Lib.RowMajor.flatOf (rattW QKV))
    (Cert.Lib.RowMajor.rep_shapeCast ?_ hk) (Cert.Lib.RowMajor.rep_shapeCast (Cert.Lib.RowMajor.rep_flatOf _) hr)
  rw [Cert.Lib.RowMajor.rep3_iff]
  intro b y d
  have hy := y.isLt
  have hb := b.isLt
  have hd := d.isLt
  have hn : b.val * 12 + y.val / 128 < 192 := by omega
  have e : (b.val * 1536 + y.val) * 64 + d.val = ((b.val * 12 + y.val / 128) * 128 + y.val % 128) * 64 + d.val := by omega
  rw [e, ← (Cert.Lib.RowMajor.rep3_iff.mp (Cert.Lib.RowMajor.rep_flatOf (rattW QKV))) ⟨b.val * 12 + y.val / 128, hn⟩
    ⟨y.val % 128, Nat.mod_lt _ (by decide)⟩ d, kattW_at, rattW_at]
  have e1 : (b.val * 12 + y.val / 128) / 12 = b.val := by omega
  have e2 : (b.val * 12 + y.val / 128) % 12 = y.val / 128 := by omega
  congr 1
  · exact Fin.ext e1.symm
  · exact Fin.ext e2.symm

/-- The layer after the attention values: out-projection, residual normalisation, feed-forward with the rectifier,
    residual normalisation. -/
def tail (vals x : Mat 2048 768) (wo : Mat 768 768) (bo : Mat 1 768) (w1 : Mat 768 3072) (b1 : Mat 1 3072)
    (w2 : Mat 3072 768) (b2 g1 β1 g2 β2 : Mat 1 768) : Mat 2048 768 :=
  lnW (addW (linW (reluW (linW (lnW (addW (linW vals wo bo) x) g1 β1) w1 b1)) w2 b2) (lnW (addW (linW vals wo bo) x) g1 β1)) g2 β2

end Cert.Hand.Spec

end
-- ==== Proof.KerAtt.lean ====
/-
  The kernel's first region, as it leaves its result array.  Point t of the grid reads rows 128·t … 128·t + 127 of
  the input (one batch element), projects them with the whole weight matrix and bias row to a 128 x 2304 block whose
  columns 192·h + 64·o … 192·h + 64·o + 63 are the query (o = 0), key (o = 1) and value (o = 2) matrices of head h, and
  writes the attention values of head h into rows 128·h … 128·h + 127 of slab t of the result.  The twelve pieces tile
  the slab, every piece is the one attention function of three column slices of the projected block, and the projected
  block is the block of rows of the projection of the whole input; so the result array after the region is the
  attention values of all heads of the projection of the whole input.
-/
import proofs.«143729_g2000604737890889_pallaspilot1_168_5_alg».proof.Proof.Gen.KernelIdeal.Frame
import proofs.«143729_g2000604737890889_pallaspilot1_168_5_alg».proof.Proof.Layers
import proofs.«143729_g2000604737890889_pallaspilot1_168_5_alg».proof.Proof.Attn
import proofs.«143729_g2000604737890889_pallaspilot1_168_5_alg».proof.Proof.Spec

set_option maxRecDepth 16384

noncomputable section

open scoped BigOperators

namespace Cert.KernelIdeal.Hand

open Idealize.ShloMosaic Idealize.ShloMosaic.TcCoe Idealize.ShloMosaic.ValueIdx Idealize.ShloMosaic.Pipeline
open Cert.KernelIdeal Cert.KernelIdeal.Gen Cert.Hand.Layers Cert.Lib.DenseLayer
open Cert.Hand.Spec Cert.Hand.Attn

/-! ## One head's piece, read at an entry -/

/-- The query (o = 0), key (o = 1) or value (o = 2) matrix of head h, cut out of a 128-row block of projected rows. -/
def hcols (v : Mat 128 2304) (h : Fin 12) (o : Fin 3) : Fin 128 → Fin 64 → EReal := fun a x =>
  v (ix2 a ⟨192 * h.val + 64 * o.val + x.val, by have := h.isLt; have := o.isLt; have := x.isLt; omega⟩)

/-- Attention depends on its three matrices through their entries only. -/
theorem att_congr {Q Q' K K' W W' : Fin 128 → Fin 64 → EReal} (hq : ∀ a b, Q a b = Q' a b) (hk : ∀ a b, K a b = K' a b)
    (hw : ∀ a b, W a b = W' a b) (s : Fin 128) (d : Fin 64) : att Q K W s d = att Q' K' W' s d := by
  obtain rfl : Q = Q' := funext fun a => funext fun b => hq a b
  obtain rfl : K = K' := funext fun a => funext fun b => hk a b
  obtain rfl : W = W' := funext fun a => funext fun b => hw a b
  rfl

/-- A 64-column slice of the projected block, narrowed, at an entry: the entry of the block 'off' columns along. -/
theorem slice_at (v : FVec Ideal S128x2304 .f32) (off : Nat) (hs : S128x2304.Slices ![0, off] S128x64)
    (h : Fin 12) (o : Fin 3) (ho : off = 192 * h.val + 64 * o.val) (a : Fin 128) (x : Fin 64) :
    (truncf .bf16 (extractStridedSlice S128x64 ![0, off] v hs) bitsLt_bf16_f32 : FVec Ideal S128x64 .bf16) (ix2 a x)
      = hcols v h o a x := by
  subst ho
  show extractStridedSlice S128x64 ![0, 192 * h.val + 64 * o.val] v hs (ix2 a x) = _
  exact extractStridedSlice_apply _ v hs (ix2 a x)
    (ix2 a ⟨192 * h.val + 64 * o.val + x.val, by have := h.isLt; have := o.isLt; have := x.isLt; omega⟩)
    (fun c => match c with
      | ⟨0, _⟩ => by show a.val = 0 + a.val; omega
      | ⟨1, _⟩ => by show 192 * h.val + 64 * o.val + x.val = (192 * h.val + 64 * o.val) + x.val; omega)

/-- The head's values, narrowed and given a leading unit axis, at entry (0, s, d): attention of the entries. -/
theorem headPiece_at (q k v : FVec Ideal S128x64 .bf16) (z : Fin 1) (s : Fin 128) (d : Fin 64) :
    shapeCast S1x128x64 (truncf .bf16 (headK (F := Ideal) q k v) bitsLt_bf16_f32 : FVec Ideal S128x64 .bf16)
        shapeCasts_S128x64_S1x128x64 (ix3 z s d)
      = att (fun a b => q (ix2 a b)) (fun a b => k (ix2 a b)) (fun a b => v (ix2 a b)) s d := by
  refine (shapeCast_addUnit_apply ![128, 64] _ _ (ix3 z s d)).trans ?_
  refine Eq.trans ?_ (headK_at q k v s d)
  show headK (F := Ideal) q k v (fun a => (ix3 z s d) a.succ) = headK (F := Ideal) q k v (ix2 s d)
  exact congrArg _ (funext fun a => match a with | ⟨0, _⟩ => rfl | ⟨1, _⟩ => rfl)

/-- One head's piece: attention of three column slices of the projected block, narrowed, as a one-slab array. -/
abbrev hpiece (v9 : FVec Ideal S128x2304 .f32) (o0 o1 o2 : Nat) (h0 : S128x2304.Slices ![0, o0] S128x64)
    (h1 : S128x2304.Slices ![0, o1] S128x64) (h2 : S128x2304.Slices ![0, o2] S128x64) : FVec Ideal S1x128x64 .bf16 :=
  shapeCast S1x128x64 (truncf .bf16 (headK (F := Ideal)
      (truncf .bf16 (extractStridedSlice S128x64 ![0, o0] v9 h0) bitsLt_bf16_f32)
      (truncf .bf16 (extractStridedSlice S128x64 ![0, o1] v9 h1) bitsLt_bf16_f32)
      (truncf .bf16 (extractStridedSlice S128x64 ![0, o2] v9 h2) bitsLt_bf16_f32)) bitsLt_bf16_f32)
    shapeCasts_S128x64_S1x128x64

/-- A piece at entry (0, s, d): attention of head h's three matrices, when the slices start at head h's columns. -/
theorem hpiece_at (v9 : FVec Ideal S128x2304 .f32) (o0 o1 o2 : Nat) (h0 : S128x2304.Slices ![0, o0] S128x64)
    (h1 : S128x2304.Slices ![0, o1] S128x64) (h2 : S128x2304.Slices ![0, o2] S128x64) (h : Fin 12)
    (e0 : o0 = 192 * h.val + 64 * (0 : Fin 3).val) (e1 : o1 = 192 * h.val + 64 * (1 : Fin 3).val)
    (e2 : o2 = 192 * h.val + 64 * (2 : Fin 3).val) (z : Fin 1) (s : Fin 128) (d : Fin 64) :
    hpiece v9 o0 o1 o2 h0 h1 h2 (ix3 z s d) = att (hcols v9 h 0) (hcols v9 h 1) (hcols v9 h 2) s d :=
  (headPiece_at _ _ _ z s d).trans
    (att_congr (fun a b => slice_at v9 o0 h0 h 0 e0 a b) (fun a b => slice_at v9 o1 h1 h 1 e1 a b)
      (fun a b => slice_at v9 o2 h2 h 2 e2 a b) s d)

/-! ## The twelve stored pieces are pieces of that form

The body's values are cut into named parts at the stores, so head after head the same chain of operations appears
under different part names; unfolded, each stored value is the one-head piece of its three column slices. -/

section Pieces
variable (v0 : Vec Ideal S128x768 .f32) (v3 : Vec Ideal S768x2304 .bf16) (v6 : Vec Ideal S1x2304 .f32)
  (v9 : FVec Ideal S128x2304 .f32)

theorem pay_h0 : k0_pay2 (F := Ideal) v0 v3 v6
    = hpiece (k0_pay1 v0 v3 v6) 0 64 128 slices_S128x2304_o0_0_S128x64 slices_S128x2304_o0_64_S128x64 slices_S128x2304_o0_128_S128x64 := rfl
theorem pay_h1 : k0_pay5 (F := Ideal) (k0_pay3 v0 v3 v6) (k0_pay4 v0 v3 v6) (Scalar.ofBits .f32 0x3E000000#32)
    = hpiece (k0_pay1 v0 v3 v6) 192 256 320 slices_S128x2304_o0_192_S128x64 slices_S128x2304_o0_256_S128x64 slices_S128x2304_o0_320_S128x64 := rfl
theorem pay_h2 : k0_pay6 (F := Ideal) v9
    = hpiece v9 384 448 512 slices_S128x2304_o0_384_S128x64 slices_S128x2304_o0_448_S128x64 slices_S128x2304_o0_512_S128x64 := rfl
theorem pay_h3 : k0_pay9 (F := Ideal) v9 (k0_pay7 v9) (k0_pay8 v9)
    = hpiece v9 576 640 704 slices_S128x2304_o0_576_S128x64 slices_S128x2304_o0_640_S128x64 slices_S128x2304_o0_704_S128x64 := rfl
theorem pay_h4 : k0_pay11 (F := Ideal) (k0_pay10 v9)
    = hpiece v9 768 832 896 slices_S128x2304_o0_768_S128x64 slices_S128x2304_o0_832_S128x64 slices_S128x2304_o0_896_S128x64 := rfl
theorem pay_h5 : k0_pay12 (F := Ideal) v9
    = hpiece v9 960 1024 1088 slices_S128x2304_o0_960_S128x64 slices_S128x2304_o0_1024_S128x64 slices_S128x2304_o0_1088_S128x64 := rfl
theorem pay_h6 : k0_pay15 (F := Ideal) (k0_pay13 v9) (k0_pay14 v9) (constant S128x64 .f32 0x00000000#32)
    = hpiece v9 1152 1216 1280 slices_S128x2304_o0_1152_S128x64 slices_S128x2304_o0_1216_S128x64 slices_S128x2304_o0_1280_S128x64 := rfl
theorem pay_h7 : k0_pay16 (F := Ideal) v9
    = hpiece v9 1344 1408 1472 slices_S128x2304_o0_1344_S128x64 slices_S128x2304_o0_1408_S128x64 slices_S128x2304_o0_1472_S128x64 := rfl
theorem pay_h8 : k0_pay19 (F := Ideal) (k0_pay17 v9) (k0_pay18 v9)
    = hpiece v9 1536 1600 1664 slices_S128x2304_o0_1536_S128x64 slices_S128x2304_o0_1600_S128x64 slices_S128x2304_o0_1664_S128x64 := rfl
theorem pay_h9 : k0_pay20 (F := Ideal) v9
    = hpiece v9 1728 1792 1856 slices_S128x2304_o0_1728_S128x64 slices_S128x2304_o0_1792_S128x64 slices_S128x2304_o0_1856_S128x64 := rfl
theorem pay_h10 : k0_pay23 (F := Ideal) (k0_pay21 v9) (k0_pay22 v9)
    = hpiece v9 1920 1984 2048 slices_S128x2304_o0_1920_S128x64 slices_S128x2304_o0_1984_S128x64 slices_S128x2304_o0_2048_S128x64 := rfl
theorem pay_h11 : k0_pay24 (F := Ideal) v9
    = hpiece v9 2112 2176 2240 slices_S128x2304_o0_2112_S128x64 slices_S128x2304_o0_2176_S128x64 slices_S128x2304_o0_2240_S128x64 := rfl

end Pieces

/-! ## The slab the body leaves -/

/-- The head, the row within the head, and the column that an index of the slab names. -/
def hdOf (y : S1x1536x64.Idx) : Fin 12 := ⟨(y 1).val / 128, by have : (y 1).val < 1536 := (y 1).isLt; omega⟩
def rwOf (y : S1x1536x64.Idx) : Fin 128 := ⟨(y 1).val % 128, Nat.mod_lt _ (by decide)⟩
def dpOf (y : S1x1536x64.Idx) : Fin 64 := ⟨(y 2).val, (y 2).isLt⟩

/-- The slab as one function of its index: row y of the slab is row y % 128 of the values of head y / 128. -/
def slabFn (v9 : Mat 128 2304) : S1x1536x64.Idx → EReal := fun y =>
  att (hcols v9 (hdOf y) 0) (hcols v9 (hdOf y) 1) (hcols v9 (hdOf y) 2) (rwOf y) (dpOf y)

theorem slabFn_at (v9 : Mat 128 2304) (y : S1x1536x64.Idx) (h : Fin 12) (s : Fin 128) (d : Fin 64)
    (h1 : (y 1).val = 128 * h.val + s.val) (h2 : (y 2).val = d.val) :
    slabFn v9 y = att (hcols v9 h 0) (hcols v9 h 1) (hcols v9 h 2) s d := by
  have e1 : hdOf y = h := Fin.ext (by show (y 1).val / 128 = h.val; have := s.isLt; omega)
  have e2 : rwOf y = s := Fin.ext (by show (y 1).val % 128 = s.val; have := s.isLt; omega)
  have e3 : dpOf y = d := Fin.ext h2
  unfold slabFn
  rw [e1, e2, e3]

/-- A one-head piece stored at rows 128·h … of the slab is the slab function under it. -/
theorem piece_ok (v9 : FVec Ideal S128x2304 .f32) (h : Fin 12) (off1 : Nat) (e : off1 = 128 * h.val) (o0 o1 o2 : Nat)
    (h0 : S128x2304.Slices ![0, o0] S128x64) (h1 : S128x2304.Slices ![0, o1] S128x64) (h2 : S128x2304.Slices ![0, o2] S128x64)
    (e0 : o0 = 192 * h.val + 64 * (0 : Fin 3).val) (e1 : o1 = 192 * h.val + 64 * (1 : Fin 3).val)
    (e2 : o2 = 192 * h.val + 64 * (2 : Fin 3).val)
    (inb : ∀ a, (![0, off1, 0] : Fin 3 → Nat) a + S1x128x64.size a ≤ S1x1536x64.size a)
    (x : (Rect.unit (s := S1x1536x64) ![0, off1, 0] S1x128x64.size inb).shape.Idx) :
    hpiece v9 o0 o1 o2 h0 h1 h2 x = slabFn v9 ((Rect.unit (s := S1x1536x64) ![0, off1, 0] S1x128x64.size inb).emb x) := by
  obtain ⟨z, s, d, rfl⟩ : ∃ (z : Fin 1) (s : Fin 128) (d : Fin 64), x = ix3 z s d := ⟨x 0, x 1, x 2, eq_ix3 x⟩
  rw [hpiece_at v9 o0 o1 o2 h0 h1 h2 h e0 e1 e2 z s d]
  refine (slabFn_at v9 _ h s d ?_ ?_).symm
  · show off1 + 1 * s.val = 128 * h.val + s.val; omega
  · show 0 + 1 * d.val = d.val; omega

/-- What the twelve stores leave in the slab, at any index: the slab function of the projected block. -/
theorem out0_3_at (x0 : Vec Ideal S128x768 .f32) (x1 : Vec Ideal S768x2304 .bf16) (x2 : Vec Ideal S1x2304 .f32)
    (y : S1x1536x64.Idx) :
    out0_3 (F := Ideal) x0 x1 x2 y = slabFn (k0_pay1 (View.ld x0 r0_0) (View.ld x1 r0_1) (View.ld x2 r0_2)) y := by
  unfold out0_3
  refine View.canon_apply_of_pieces (Val := Elt Ideal) (S := S1x1536x64) (e := .bf16) (slabFn (k0_pay1 (View.ld x0 r0_0) (View.ld x1 r0_1) (View.ld x2 r0_2))) _ ?_ y
    (cover0_3 _ _ _ _ _ _ _ _ _ _ _ _ y)
  intro pc hpc x
  rcases List.mem_cons.mp hpc with rfl | hpc
  · exact (congrFun (pay_h11 _) x).trans
      (piece_ok _ ⟨11, by omega⟩ 1408 rfl 2112 2176 2240 _ _ _ rfl rfl rfl inb_S1x1536x64_S1x128x64_0_1408_0 x)
  rcases List.mem_cons.mp hpc with rfl | hpc
  · exact (congrFun (pay_h10 _) x).trans
      (piece_ok _ ⟨10, by omega⟩ 1280 rfl 1920 1984 2048 _ _ _ rfl rfl rfl inb_S1x1536x64_S1x128x64_0_1280_0 x)
  rcases List.mem_cons.mp hpc with rfl | hpc
  · exact (congrFun (pay_h9 _) x).trans
      (piece_ok _ ⟨9, by omega⟩ 1152 rfl 1728 1792 1856 _ _ _ rfl rfl rfl inb_S1x1536x64_S1x128x64_0_1152_0 x)
  rcases List.mem_cons.mp hpc with rfl | hpc
  · exact (congrFun (pay_h8 _) x).trans
      (piece_ok _ ⟨8, by omega⟩ 1024 rfl 1536 1600 1664 _ _ _ rfl rfl rfl inb_S1x1536x64_S1x128x64_0_1024_0 x)
  rcases List.mem_cons.mp hpc with rfl | hpc
  · exact (congrFun (pay_h7 _) x).trans
      (piece_ok _ ⟨7, by omega⟩ 896 rfl 1344 1408 1472 _ _ _ rfl rfl rfl inb_S1x1536x64_S1x128x64_0_896_0 x)
  rcases List.mem_cons.mp hpc with rfl | hpc
  · exact (congrFun (pay_h6 _) x).trans
      (piece_ok _ ⟨6, by omega⟩ 768 rfl 1152 1216 1280 _ _ _ rfl rfl rfl inb_S1x1536x64_S1x128x64_0_768_0 x)
  rcases List.mem_cons.mp hpc with rfl | hpc
  · exact (congrFun (pay_h5 _) x).trans
      (piece_ok _ ⟨5, by omega⟩ 640 rfl 960 1024 1088 _ _ _ rfl rfl rfl inb_S1x1536x64_S1x128x64_0_640_0 x)
  rcases List.mem_cons.mp hpc with rfl | hpc
  · exact (congrFun (pay_h4 _) x).trans
      (piece_ok _ ⟨4, by omega⟩ 512 rfl 768 832 896 _ _ _ rfl rfl rfl inb_S1x1536x64_S1x128x64_0_512_0 x)
  rcases List.mem_cons.mp hpc with rfl | hpc
  · exact (congrFun (pay_h3 _) x).trans
      (piece_ok _ ⟨3, by omega⟩ 384 rfl 576 640 704 _ _ _ rfl rfl rfl inb_S1x1536x64_S1x128x64_0_384_0 x)
  rcases List.mem_cons.mp hpc with rfl | hpc
  · exact (congrFun (pay_h2 _) x).trans
      (piece_ok _ ⟨2, by omega⟩ 256 rfl 384 448 512 _ _ _ rfl rfl rfl inb_S1x1536x64_S1x128x64_0_256_0 x)
  rcases List.mem_cons.mp hpc with rfl | hpc
  · exact (congrFun (pay_h1 _ _ _) x).trans
      (piece_ok _ ⟨1, by omega⟩ 128 rfl 192 256 320 _ _ _ rfl rfl rfl inb_S1x1536x64_S1x128x64_0_128_0 x)
  rcases List.mem_cons.mp hpc with rfl | hpc
  · exact (congrFun (pay_h0 _ _ _) x).trans
      (piece_ok _ ⟨0, by omega⟩ 0 rfl 0 64 128 _ _ _ rfl rfl rfl inb_S1x1536x64_S1x128x64_0_0_0 x)
  nomatch hpc

/-! ## The region -/

variable (V : (c : Dev nD) → (b : Ref sig .tc) → Buf (Elt Ideal) ((c : Thread nD τ).loc b))

theorem hz2a : (![0, 0] : Fin 2 → Nat) = fun _ => 0 := funext fun a => by fin_cases a <;> rfl

/-- The projection's product record is the plain one. -/
theorem plainQ : Plain dot_S128x768_S768x2304_S128x2304_1_0_0_1_n_n := Plain.of_fields _ rfl rfl rfl rfl rfl rfl

/-- The projected block is the dense layer's chain of the loaded blocks, the input rows narrowed first. -/
theorem qkv_blk (x0 : Vec Ideal S128x768 .f32) (x1 : Vec Ideal S768x2304 .bf16) (x2 : Vec Ideal S1x2304 .f32) :
    k0_pay1 (F := Ideal) (View.ld x0 r0_0) (View.ld x1 r0_1) (View.ld x2 r0_2)
      = linBlk (F := Ideal) (φ₁ := .bf16) (φ₂ := .bf16) dot_S128x768_S768x2304_S128x2304_1_0_0_1_n_n broadcasts_S1x2304_S128x2304
          (truncf .bf16 x0 bitsLt_bf16_f32) x1 x2 := by
  simp only [View.ld_unit_zero (S := S128x768) hz2a, View.ld_unit_zero (S := S768x2304) hz2a, View.ld_unit_zero (S := S1x2304) hz2a]
  unfold k0_pay1
  simp only [shapeCast_self]
  rfl

/-- The index maps, decided over the grid: the input rows sit at block row t, the result at slab t, the others at
    block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 ∧ t.val < 16 :=
  (by decide +kernel : ∀ t : Fin grid0.N, _)

/-- The input block at point t is the block of rows of the input array from row 128·t. -/
theorem blk0_0 (c : Dev nD) (t : Fin cfg0.N) : RowBlk (t.val * 128) (iblk0 V c 0 t : Mat 128 768) (V c main_v0 : Mat 2048 768) := fun r hr k => by
  obtain ⟨e0, e1, -⟩ := idx_facts0 t
  show V c main_v0 (((cfg0.win 0).blk t).view.emb (ix2 r k)) = V c main_v0 (ix2 ⟨t.val * 128 + r.val, hr⟩ k)
  refine congrArg (V c main_v0) (funext fun a => Fin.ext ?_)
  match a with
  | ⟨0, _⟩ => show win0_0.index t (0 : Fin 2) * 128 + 1 * r.val = t.val * 128 + r.val; omega
  | ⟨1, _⟩ => show win0_0.index t (1 : Fin 2) * 768 + 1 * k.val = k.val; omega

/-- The weight matrix is read whole at every point. -/
theorem blk0_1 (c : Dev nD) (t : Fin cfg0.N) : (iblk0 V c 1 t : Mat 768 2304) = (V c main_v1 : Mat 768 2304) := by
  obtain ⟨-, -, e0, e1, -⟩ := idx_facts0 t
  funext y
  show V c main_v1 (((cfg0.win 1).blk t).view.emb y) = V c main_v1 y
  refine congrArg (V c main_v1) (funext fun a => Fin.ext ?_)
  match a with
  | ⟨0, _⟩ => show win0_1.index t (0 : Fin 2) * 768 + 1 * (y 0).val = (y 0).val; omega
  | ⟨1, _⟩ => show win0_1.index t (1 : Fin 2) * 2304 + 1 * (y 1).val = (y 1).val; omega

/-- The bias row is read whole at every point. -/
theorem blk0_2 (c : Dev nD) (t : Fin cfg0.N) : (iblk0 V c 2 t : Mat 1 2304) = (V c main_v5 : Mat 1 2304) := by
  obtain ⟨-, -, -, -, e0, e1, -⟩ := idx_facts0 t
  funext y
  show V c main_v5 (((cfg0.win 2).blk t).view.emb y) = V c main_v5 y
  refine congrArg (V c main_v5) (funext fun a => Fin.ext ?_)
  match a with
  | ⟨0, _⟩ => show win0_2.index t (0 : Fin 2) * 1 + 1 * (y 0).val = (y 0).val; omega
  | ⟨1, _⟩ => show win0_2.index t (1 : Fin 2) * 2304 + 1 * (y 1).val = (y 1).val; omega

/-- Narrowing to a shorter format changes no entry of a block of extended reals. -/
theorem rowBlk_narrow0 {T M N : Nat} {off : Nat} {v : FVec Ideal ⟨2, ![T, N]⟩ .f32} {X : Mat M N} (h : RowBlk off v X)
    (hb : FTy.bf16.bits < FTy.f32.bits) : RowBlk off (truncf .bf16 v hb : FVec Ideal ⟨2, ![T, N]⟩ .bf16) X :=
  fun r hr k => h r hr k

/-- Head h's matrices cut out of the block of rows from row 128·b of a matrix are those of batch element b. -/
theorem hcols_of_blk {v9 : Mat 128 2304} {QKV : Mat 2048 2304} (b : Fin 16) (hblk : RowBlk (b.val * 128) v9 QKV)
    (h : Fin 12) (o : Fin 3) (a : Fin 128) (x : Fin 64) : hcols v9 h o a x = headOf QKV b h o a x :=
  hblk a _ _

/-- What point t writes back is slab t of the attention values of the projection of the whole input array. -/
theorem flushed0 (c : Dev nD) (t : Fin cfg0.N) :
    (dat0 V c).flushed 3 t = ((cfg0.win 3).blk t).view.read (Elt Ideal)
      (kattW (linW (V c main_v0 : Mat 2048 768) (V c main_v1 : Mat 768 2304) (V c main_v5 : Mat 1 2304))) := by
  show (cfg0.win 3).cut (grid0.coords t) ((dat0 V c).after 3 t) = _
  rw [after0_3]
  obtain ⟨-, -, -, -, -, -, e0, e1, e2, ht⟩ := idx_facts0 t
  funext j
  obtain ⟨z, y, d, rfl⟩ : ∃ (z : Fin 1) (y : Fin 1536) (d : Fin 64), j = ix3 z y d := ⟨j 0, j 1, j 2, eq_ix3 j⟩
  have hz : z.val = 0 := by have := z.isLt; omega
  have e : ((cfg0.win 3).blk t).view.emb (ix3 z y d) = ix3 (n0 := 16) (n1 := 1536) (n2 := 64) ⟨t.val, ht⟩ y d :=
    funext fun a => Fin.ext (by
      match a with
      | ⟨0, _⟩ => show win0_3.index t (0 : Fin 3) * 1 + 1 * z.val = t.val; omega
      | ⟨1, _⟩ => show win0_3.index t (1 : Fin 3) * 1536 + 1 * y.val = y.val; omega
      | ⟨2, _⟩ => show win0_3.index t (2 : Fin 3) * 64 + 1 * d.val = d.val; omega)
  show out0_3 (F := Ideal) (iblk0 V c 0 t) (iblk0 V c 1 t) (iblk0 V c 2 t) (ix3 z y d)
    = kattW (linW (V c main_v0 : Mat 2048 768) (V c main_v1 : Mat 768 2304) (V c main_v5 : Mat 1 2304))
        (((cfg0.win 3).blk t).view.emb (ix3 z y d))
  rw [e, out0_3_at, qkv_blk, blk0_1, blk0_2, kattW_at]
  have hblk : RowBlk ((⟨t.val, ht⟩ : Fin 16).val * 128)
      (linBlk (F := Ideal) (φ₁ := .bf16) (φ₂ := .bf16) dot_S128x768_S768x2304_S128x2304_1_0_0_1_n_n broadcasts_S1x2304_S128x2304
        (truncf .bf16 (iblk0 V c 0 t) bitsLt_bf16_f32) (V c main_v1 : Mat 768 2304) (V c main_v5 : Mat 1 2304))
      (linW (V c main_v0 : Mat 2048 768) (V c main_v1 : Mat 768 2304) (V c main_v5 : Mat 1 2304)) :=
    RowBlk.lin (φ₁ := .bf16) (φ₂ := .bf16) plainQ broadcasts_S1x2304_S128x2304 (rowBlk_narrow0 (blk0_0 V c t) bitsLt_bf16_f32)
      (V c main_v1 : Mat 768 2304) (V c main_v5 : Mat 1 2304)
  refine (slabFn_at _ _ ⟨y.val / 128, by have := y.isLt; omega⟩ ⟨y.val % 128, Nat.mod_lt _ (by decide)⟩ d ?_ rfl).trans ?_
  · show y.val = 128 * (y.val / 128) + y.val % 128; omega
  · exact att_congr (fun a x => hcols_of_blk ⟨t.val, ht⟩ hblk _ 0 a x) (fun a x => hcols_of_blk ⟨t.val, ht⟩ hblk _ 1 a x)
      (fun a x => hcols_of_blk ⟨t.val, ht⟩ hblk _ 2 a x) _ _

/-- An index of the result array is in point t's slab iff each coordinate is in the slab's range. -/
theorem mem_blk0 (t : Fin cfg0.N) (i : S16x1536x64.Idx) :
    i ∈ ((cfg0.win 3).blk t).view.set ↔ ∀ a : Fin 3, win0_3.index t a * S1x1536x64.size a ≤ (i a).val ∧ (i a).val < win0_3.index t a * S1x1536x64.size a + S1x1536x64.size a := by
  show i ∈ ((View.whole main_v6).slice (win0_3.rect t)).set ↔ _
  rw [View.set_slice_whole, Rect.mem_set_unit]
  exact Iff.rfl

theorem idx_onto0 : ∀ q0 : Fin 16, ∃ t : Fin cfg0.N, win0_3.index t = ![q0.val, 0, 0] :=
  (by decide +kernel : ∀ q0 : Fin 16, ∃ t : Fin grid0.N, win0_3.index t = ![q0.val, 0, 0])

/-- Every index of the result array is in some point's slab. -/
theorem cover0 (i : S16x1536x64.Idx) : ∃ t : Fin cfg0.N, (cfg0.win 3).flush t = true ∧ i ∈ ((cfg0.win 3).blk t).view.set := by
  have hi0 : (i 0).val < 16 := (i 0).isLt
  have hi1 : (i 1).val < 1536 := (i 1).isLt
  have hi2 : (i 2).val < 64 := (i 2).isLt
  obtain ⟨t, ht⟩ := idx_onto0 ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk0]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1536 ≤ (i 1).val ∧ (i 1).val < win0_3.index t (1 : Fin 3) * 1536 + 1536; omega
  | ⟨2, _⟩ => show win0_3.index t (2 : Fin 3) * 64 ≤ (i 2).val ∧ (i 2).val < win0_3.index t (2 : Fin 3) * 64 + 64; omega

/-- The result array after the region: the attention values of all heads of the projection of the whole input array. -/
theorem final0 (c : Dev nD) : (dat0 V c).arrAt 3 cfg0.N
    = kattW (linW (V c main_v0 : Mat 2048 768) (V c main_v1 : Mat 768 2304) (V c main_v5 : Mat 1 2304)) :=
  (dat0 V c).arrAt_eq_of_cover 3 _ (fun t _ => flushed0 V c t) cover0

end Cert.KernelIdeal.Hand

end
-- ==== Proof.KerFfn.lean ====
/-
  The kernel's second region, as it leaves its result array: on 256-row tiles, the attention values times the output
  projection plus its bias row, plus the residual input, normalised row by row; then the two dense layers of the
  feed-forward block with a rectifier between them, plus the first normalised rows, normalised again.  Point t of the
  grid reads rows 256·t … 256·t + 255 of the two row-tiled arrays and writes the same rows of the result; the weight
  matrices, the bias rows and the scale and shift rows are read whole at every point.  Every layer acts on each row by
  itself, so the result array after the region is the same chain of layers of the whole arrays.
-/
import proofs.«143729_g2000604737890889_pallaspilot1_168_5_alg».proof.Proof.Gen.KernelIdeal.Frame
import proofs.«143729_g2000604737890889_pallaspilot1_168_5_alg».proof.Proof.Layers

set_option maxRecDepth 16384

noncomputable section

open scoped BigOperators

namespace Cert.KernelIdeal.Hand

open Idealize.ShloMosaic Idealize.ShloMosaic.TcCoe Idealize.ShloMosaic.ValueIdx Idealize.ShloMosaic.Pipeline
open Cert.KernelIdeal Cert.KernelIdeal.Gen Cert.Hand.Layers Cert.Lib.DenseLayer

variable (V : (c : Dev nD) → (b : Ref sig .tc) → Buf (Elt Ideal) ((c : Thread nD τ).loc b))

/-- The first normalised rows of the whole arrays: the output projection of the attention values plus the residual
    input, normalised. -/
abbrev H1 (c : Dev nD) : Mat 2048 768 :=
  lnW (addW (linW (V c main_v7 : Mat 2048 768) (V c main_v2 : Mat 768 768) (V c main_v8 : Mat 1 768)) (V c main_v0 : Mat 2048 768))
    (V c main_v11 : Mat 1 768) (V c main_v12 : Mat 1 768)

theorem hz2 : (![0, 0] : Fin 2 → Nat) = fun _ => 0 := funext fun a => by fin_cases a <;> rfl

/-- The three products' records are the plain ones. -/
theorem plainO : Plain dot_S256x768_S768x768_S256x768_1_0_0_1_n_n := Plain.of_fields _ rfl rfl rfl rfl rfl rfl
theorem plain1 : Plain dot_S256x768_S768x3072_S256x3072_1_0_0_1_n_n := Plain.of_fields _ rfl rfl rfl rfl rfl rfl
theorem plain2 : Plain dot_S256x3072_S3072x768_S256x768_1_0_0_1_n_n := Plain.of_fields _ rfl rfl rfl rfl rfl rfl

/-- The first normalised rows of a block: the chain the body applies to the loaded blocks. -/
abbrev h1Blk (x0 : Vec Ideal S256x768 .bf16) (x1 : Vec Ideal S256x768 .f32) (x2 : Vec Ideal S768x768 .bf16) (x3 x8 x9 : Vec Ideal S1x768 .f32) :
    FVec Ideal S256x768 .f32 :=
  lnBlk (F := Ideal) reduces_S256x768_S256 shapeCasts_S256_S256x1 broadcasts_S256x1_S256x768 broadcasts_S1x768_S256x768
    (addf (linBlk (F := Ideal) (φ₁ := .bf16) (φ₂ := .bf16) dot_S256x768_S768x768_S256x768_1_0_0_1_n_n broadcasts_S1x768_S256x768 x0 x2 x3) x1) x8 x9

/-- The feed-forward block's rows before the second normalisation. -/
abbrev ffBlk (h : FVec Ideal S256x768 .f32) (x4 : Vec Ideal S768x3072 .bf16) (x5 : Vec Ideal S1x3072 .f32) (x6 : Vec Ideal S3072x768 .bf16) (x7 : Vec Ideal S1x768 .f32) :
    FVec Ideal S256x768 .f32 :=
  addf (linBlk (F := Ideal) (φ₁ := .bf16) (φ₂ := .bf16) dot_S256x3072_S3072x768_S256x768_1_0_0_1_n_n broadcasts_S1x768_S256x768
    (truncf .bf16 (reluBlk (linBlk (F := Ideal) (φ₁ := .bf16) (φ₂ := .bf16) dot_S256x768_S768x3072_S256x3072_1_0_0_1_n_n broadcasts_S1x3072_S256x3072
      (truncf .bf16 h bitsLt_bf16_f32) x4 x5)) bitsLt_bf16_f32) x6 x7) h

/-- The body's result is the chain of layers of the loaded blocks. -/
theorem out1_12_eq (x0 : Vec Ideal S256x768 .bf16) (x1 : Vec Ideal S256x768 .f32) (x2 : Vec Ideal S768x768 .bf16) (x3 : Vec Ideal S1x768 .f32)
    (x4 : Vec Ideal S768x3072 .bf16) (x5 : Vec Ideal S1x3072 .f32) (x6 : Vec Ideal S3072x768 .bf16) (x7 x8 x9 x10 x11 : Vec Ideal S1x768 .f32) :
    out1_12 (F := Ideal) x0 x1 x2 x3 x4 x5 x6 x7 x8 x9 x10 x11
      = lnBlk (F := Ideal) reduces_S256x768_S256 shapeCasts_S256_S256x1 broadcasts_S256x1_S256x768 broadcasts_S1x768_S256x768
          (ffBlk (h1Blk x0 x1 x2 x3 x8 x9) x4 x5 x6 x7) x10 x11 := by
  unfold out1_12
  rw [View.canon_unit_zero hz2]
  simp only [View.ld_unit_zero (S := S256x768) hz2, View.ld_unit_zero (S := S768x768) hz2, View.ld_unit_zero (S := S1x768) hz2,
    View.ld_unit_zero (S := S768x3072) hz2, View.ld_unit_zero (S := S1x3072) hz2, View.ld_unit_zero (S := S3072x768) hz2]
  unfold k1_pay1 k1_pay8 k1_pay7 k1_pay6 k1_pay5 k1_pay4 k1_pay3 k1_pay2
  simp only [shapeCast_self]
  rfl

/-- The index maps of the row-tiled windows, decided over the grid: they sit at block row t. -/
theorem idx_rows1 : ∀ t : Fin cfg1.N, win1_0.index t (0 : Fin 2) = t.val ∧ win1_0.index t (1 : Fin 2) = 0
    ∧ win1_1.index t (0 : Fin 2) = t.val ∧ win1_1.index t (1 : Fin 2) = 0
    ∧ win1_12.index t (0 : Fin 2) = t.val ∧ win1_12.index t (1 : Fin 2) = 0 ∧ t.val < 8 :=
  (by decide +kernel : ∀ t : Fin grid1.N, _)

/-- The index maps of the other windows, decided over the grid: they sit at block (0, 0). -/
theorem idx_whole1 : ∀ t : Fin cfg1.N, (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0) :=
  (by decide +kernel : ∀ t : Fin grid1.N, _)

/-- The block of attention values at point t is the block of rows of its array from row 256·t. -/
theorem blk1_0 (c : Dev nD) (t : Fin cfg1.N) : RowBlk (t.val * 256) (iblk1 V c 0 t : Mat 256 768) (V c main_v7 : Mat 2048 768) := fun r hr k => by
  obtain ⟨e0, e1, -⟩ := idx_rows1 t
  show V c main_v7 (((cfg1.win 0).blk t).view.emb (ix2 r k)) = V c main_v7 (ix2 ⟨t.val * 256 + r.val, hr⟩ k)
  refine congrArg (V c main_v7) (funext fun a => Fin.ext ?_)
  match a with
  | ⟨0, _⟩ => show win1_0.index t (0 : Fin 2) * 256 + 1 * r.val = t.val * 256 + r.val; omega
  | ⟨1, _⟩ => show win1_0.index t (1 : Fin 2) * 768 + 1 * k.val = k.val; omega

/-- The block of the residual input at point t is the block of rows of its array from row 256·t. -/
theorem blk1_1 (c : Dev nD) (t : Fin cfg1.N) : RowBlk (t.val * 256) (iblk1 V c 1 t : Mat 256 768) (V c main_v0 : Mat 2048 768) := fun r hr k => by
  obtain ⟨-, -, e0, e1, -⟩ := idx_rows1 t
  show V c main_v0 (((cfg1.win 1).blk t).view.emb (ix2 r k)) = V c main_v0 (ix2 ⟨t.val * 256 + r.val, hr⟩ k)
  refine congrArg (V c main_v0) (funext fun a => Fin.ext ?_)
  match a with
  | ⟨0, _⟩ => show win1_1.index t (0 : Fin 2) * 256 + 1 * r.val = t.val * 256 + r.val; omega
  | ⟨1, _⟩ => show win1_1.index t (1 : Fin 2) * 768 + 1 * k.val = k.val; omega

/-- The output projection's weight matrix is read whole at every point. -/
theorem blk1_2 (c : Dev nD) (t : Fin cfg1.N) : (iblk1 V c 2 t : Mat 768 768) = (V c main_v2 : Mat 768 768) := by
  obtain ⟨⟨e0, e1⟩, -⟩ := idx_whole1 t
  funext y
  show V c main_v2 (((cfg1.win 2).blk t).view.emb y) = V c main_v2 y
  refine congrArg (V c main_v2) (funext fun a => Fin.ext ?_)
  match a with
  | ⟨0, _⟩ => show win1_2.index t (0 : Fin 2) * 768 + 1 * (y 0).val = (y 0).val; omega
  | ⟨1, _⟩ => show win1_2.index t (1 : Fin 2) * 768 + 1 * (y 1).val = (y 1).val; omega

/-- The output projection's bias row is read whole at every point. -/
theorem blk1_3 (c : Dev nD) (t : Fin cfg1.N) : (iblk1 V c 3 t : Mat 1 768) = (V c main_v8 : Mat 1 768) := by
  obtain ⟨-, ⟨e0, e1⟩, -⟩ := idx_whole1 t
  funext y
  show V c main_v8 (((cfg1.win 3).blk t).view.emb y) = V c main_v8 y
  refine congrArg (V c main_v8) (funext fun a => Fin.ext ?_)
  match a with
  | ⟨0, _⟩ => show win1_3.index t (0 : Fin 2) * 1 + 1 * (y 0).val = (y 0).val; omega
  | ⟨1, _⟩ => show win1_3.index t (1 : Fin 2) * 768 + 1 * (y 1).val = (y 1).val; omega

/-- The first feed-forward weight matrix is read whole at every point. -/
theorem blk1_4 (c : Dev nD) (t : Fin cfg1.N) : (iblk1 V c 4 t : Mat 768 3072) = (V c main_v3 : Mat 768 3072) := by
  obtain ⟨-, -, ⟨e0, e1⟩, -⟩ := idx_whole1 t
  funext y
  show V c main_v3 (((cfg1.win 4).blk t).view.emb y) = V c main_v3 y
  refine congrArg (V c main_v3) (funext fun a => Fin.ext ?_)
  match a with
  | ⟨0, _⟩ => show win1_4.index t (0 : Fin 2) * 768 + 1 * (y 0).val = (y 0).val; omega
  | ⟨1, _⟩ => show win1_4.index t (1 : Fin 2) * 3072 + 1 * (y 1).val = (y 1).val; omega

/-- The first feed-forward bias row is read whole at every point. -/
theorem blk1_5 (c : Dev nD) (t : Fin cfg1.N) : (iblk1 V c 5 t : Mat 1 3072) = (V c main_v9 : Mat 1 3072) := by
  obtain ⟨-, -, -, ⟨e0, e1⟩, -⟩ := idx_whole1 t
  funext y
  show V c main_v9 (((cfg1.win 5).blk t).view.emb y) = V c main_v9 y
  refine congrArg (V c main_v9) (funext fun a => Fin.ext ?_)
  match a with
  | ⟨0, _⟩ => show win1_5.index t (0 : Fin 2) * 1 + 1 * (y 0).val = (y 0).val; omega
  | ⟨1, _⟩ => show win1_5.index t (1 : Fin 2) * 3072 + 1 * (y 1).val = (y 1).val; omega

/-- The second feed-forward weight matrix is read whole at every point. -/
theorem blk1_6 (c : Dev nD) (t : Fin cfg1.N) : (iblk1 V c 6 t : Mat 3072 768) = (V c main_v4 : Mat 3072 768) := by
  obtain ⟨-, -, -, -, ⟨e0, e1⟩, -⟩ := idx_whole1 t
  funext y
  show V c main_v4 (((cfg1.win 6).blk t).view.emb y) = V c main_v4 y
  refine congrArg (V c main_v4) (funext fun a => Fin.ext ?_)
  match a with
  | ⟨0, _⟩ => show win1_6.index t (0 : Fin 2) * 3072 + 1 * (y 0).val = (y 0).val; omega
  | ⟨1, _⟩ => show win1_6.index t (1 : Fin 2) * 768 + 1 * (y 1).val = (y 1).val; omega

/-- The second feed-forward bias row is read whole at every point. -/
theorem blk1_7 (c : Dev nD) (t : Fin cfg1.N) : (iblk1 V c 7 t : Mat 1 768) = (V c main_v10 : Mat 1 768) := by
  obtain ⟨-, -, -, -, -, ⟨e0, e1⟩, -⟩ := idx_whole1 t
  funext y
  show V c main_v10 (((cfg1.win 7).blk t).view.emb y) = V c main_v10 y
  refine congrArg (V c main_v10) (funext fun a => Fin.ext ?_)
  match a with
  | ⟨0, _⟩ => show win1_7.index t (0 : Fin 2) * 1 + 1 * (y 0).val = (y 0).val; omega
  | ⟨1, _⟩ => show win1_7.index t (1 : Fin 2) * 768 + 1 * (y 1).val = (y 1).val; omega

/-- The first normalisation's scale row is read whole at every point. -/
theorem blk1_8 (c : Dev nD) (t : Fin cfg1.N) : (iblk1 V c 8 t : Mat 1 768) = (V c main_v11 : Mat 1 768) := by
  obtain ⟨-, -, -, -, -, -, ⟨e0, e1⟩, -⟩ := idx_whole1 t
  funext y
  show V c main_v11 (((cfg1.win 8).blk t).view.emb y) = V c main_v11 y
  refine congrArg (V c main_v11) (funext fun a => Fin.ext ?_)
  match a with
  | ⟨0, _⟩ => show win1_8.index t (0 : Fin 2) * 1 + 1 * (y 0).val = (y 0).val; omega
  | ⟨1, _⟩ => show win1_8.index t (1 : Fin 2) * 768 + 1 * (y 1).val = (y 1).val; omega

/-- The first normalisation's shift row is read whole at every point. -/
theorem blk1_9 (c : Dev nD) (t : Fin cfg1.N) : (iblk1 V c 9 t : Mat 1 768) = (V c main_v12 : Mat 1 768) := by
  obtain ⟨-, -, -, -, -, -, -, ⟨e0, e1⟩, -⟩ := idx_whole1 t
  funext y
  show V c main_v12 (((cfg1.win 9).blk t).view.emb y) = V c main_v12 y
  refine congrArg (V c main_v12) (funext fun a => Fin.ext ?_)
  match a with
  | ⟨0, _⟩ => show win1_9.index t (0 : Fin 2) * 1 + 1 * (y 0).val = (y 0).val; omega
  | ⟨1, _⟩ => show win1_9.index t (1 : Fin 2) * 768 + 1 * (y 1).val = (y 1).val; omega

/-- The second normalisation's scale row is read whole at every point. -/
theorem blk1_10 (c : Dev nD) (t : Fin cfg1.N) : (iblk1 V c 10 t : Mat 1 768) = (V c main_v13 : Mat 1 768) := by
  obtain ⟨-, -, -, -, -, -, -, -, ⟨e0, e1⟩, -⟩ := idx_whole1 t
  funext y
  show V c main_v13 (((cfg1.win 10).blk t).view.emb y) = V c main_v13 y
  refine congrArg (V c main_v13) (funext fun a => Fin.ext ?_)
  match a with
  | ⟨0, _⟩ => show win1_10.index t (0 : Fin 2) * 1 + 1 * (y 0).val = (y 0).val; omega
  | ⟨1, _⟩ => show win1_10.index t (1 : Fin 2) * 768 + 1 * (y 1).val = (y 1).val; omega

/-- The second normalisation's shift row is read whole at every point. -/
theorem blk1_11 (c : Dev nD) (t : Fin cfg1.N) : (iblk1 V c 11 t : Mat 1 768) = (V c main_v14 : Mat 1 768) := by
  obtain ⟨-, -, -, -, -, -, -, -, -, ⟨e0, e1⟩⟩ := idx_whole1 t
  funext y
  show V c main_v14 (((cfg1.win 11).blk t).view.emb y) = V c main_v14 y
  refine congrArg (V c main_v14) (funext fun a => Fin.ext ?_)
  match a with
  | ⟨0, _⟩ => show win1_11.index t (0 : Fin 2) * 1 + 1 * (y 0).val = (y 0).val; omega
  | ⟨1, _⟩ => show win1_11.index t (1 : Fin 2) * 768 + 1 * (y 1).val = (y 1).val; omega

/-- Narrowing to a shorter format changes no entry of a block of extended reals. -/
theorem rowBlk_narrow {T M N : Nat} {off : Nat} {v : FVec Ideal ⟨2, ![T, N]⟩ .f32} {X : Mat M N} (h : RowBlk off v X)
    (hb : FTy.bf16.bits < FTy.f32.bits) : RowBlk off (truncf .bf16 v hb : FVec Ideal ⟨2, ![T, N]⟩ .bf16) X :=
  fun r hr k => h r hr k

/-- The region's result for the whole arrays: the feed-forward block of the first normalised rows, plus those rows,
    normalised. -/
abbrev Out1 (c : Dev nD) : Mat 2048 768 :=
  lnW (addW (linW (reluW (linW (H1 V c) (V c main_v3 : Mat 768 3072) (V c main_v9 : Mat 1 3072))) (V c main_v4 : Mat 3072 768) (V c main_v10 : Mat 1 768)) (H1 V c))
    (V c main_v13 : Mat 1 768) (V c main_v14 : Mat 1 768)

/-- The first normalised rows of point t's blocks are the block of rows from row 256·t of those of the whole arrays. -/
theorem h1_blk (c : Dev nD) (t : Fin cfg1.N) :
    RowBlk (t.val * 256)
      (h1Blk (iblk1 V c 0 t) (iblk1 V c 1 t) (V c main_v2 : Mat 768 768) (V c main_v8 : Mat 1 768) (V c main_v11 : Mat 1 768) (V c main_v12 : Mat 1 768))
      (H1 V c) :=
  RowBlk.ln reduces_S256x768_S256 shapeCasts_S256_S256x1 broadcasts_S256x1_S256x768 broadcasts_S1x768_S256x768
    (RowBlk.addW (RowBlk.lin (φ₁ := .bf16) (φ₂ := .bf16) plainO broadcasts_S1x768_S256x768 (blk1_0 V c t) (V c main_v2 : Mat 768 768) (V c main_v8 : Mat 1 768)) (blk1_1 V c t))
    (V c main_v11 : Mat 1 768) (V c main_v12 : Mat 1 768)

/-- What point t writes back is block t of the region's result for the whole arrays. -/
theorem flushed1 (c : Dev nD) (t : Fin cfg1.N) :
    (dat1 V c).flushed 12 t = ((cfg1.win 12).blk t).view.read (Elt Ideal) (Out1 V c) := by
  show (cfg1.win 12).cut (grid1.coords t) ((dat1 V c).after 12 t) = _
  rw [after1_12, out1_12_eq, blk1_2, blk1_3, blk1_4, blk1_5, blk1_6, blk1_7, blk1_8, blk1_9, blk1_10, blk1_11]
  obtain ⟨-, -, -, -, e0, e1, ht⟩ := idx_rows1 t
  funext j
  obtain ⟨p, q, rfl⟩ : ∃ (p : Fin 256) (q : Fin 768), j = ix2 p q := ⟨j 0, j 1, eq_ix2 j⟩
  have hr : t.val * 256 + p.val < 2048 := by have := p.isLt; omega
  have e : ((cfg1.win 12).blk t).view.emb (ix2 p q) = ix2 (n0 := 2048) (n1 := 768) ⟨t.val * 256 + p.val, hr⟩ q :=
    funext fun a => Fin.ext (by
      match a with
      | ⟨0, _⟩ => show win1_12.index t (0 : Fin 2) * 256 + 1 * p.val = t.val * 256 + p.val; omega
      | ⟨1, _⟩ => show win1_12.index t (1 : Fin 2) * 768 + 1 * q.val = q.val; omega)
  show lnBlk (F := Ideal) reduces_S256x768_S256 shapeCasts_S256_S256x1 broadcasts_S256x1_S256x768 broadcasts_S1x768_S256x768
      (ffBlk (h1Blk (iblk1 V c 0 t) (iblk1 V c 1 t) (V c main_v2 : Mat 768 768) (V c main_v8 : Mat 1 768) (V c main_v11 : Mat 1 768) (V c main_v12 : Mat 1 768))
        (V c main_v3 : Mat 768 3072) (V c main_v9 : Mat 1 3072) (V c main_v4 : Mat 3072 768) (V c main_v10 : Mat 1 768))
      (V c main_v13 : Mat 1 768) (V c main_v14 : Mat 1 768) (ix2 p q)
    = Out1 V c (((cfg1.win 12).blk t).view.emb (ix2 p q))
  rw [e]
  exact RowBlk.ln reduces_S256x768_S256 shapeCasts_S256_S256x1 broadcasts_S256x1_S256x768 broadcasts_S1x768_S256x768
    (RowBlk.addW
      (RowBlk.lin (φ₁ := .bf16) (φ₂ := .bf16) plain2 broadcasts_S1x768_S256x768
        (rowBlk_narrow (RowBlk.relu (RowBlk.lin (φ₁ := .bf16) (φ₂ := .bf16) plain1 broadcasts_S1x3072_S256x3072
          (rowBlk_narrow (h1_blk V c t) bitsLt_bf16_f32) (V c main_v3 : Mat 768 3072) (V c main_v9 : Mat 1 3072))) bitsLt_bf16_f32)
        (V c main_v4 : Mat 3072 768) (V c main_v10 : Mat 1 768))
      (h1_blk V c t))
    (V c main_v13 : Mat 1 768) (V c main_v14 : Mat 1 768) p hr q

/-- An index of the result array is in point t's block iff each coordinate is in the block's range. -/
theorem mem_blk1 (t : Fin cfg1.N) (i : S2048x768.Idx) :
    i ∈ ((cfg1.win 12).blk t).view.set ↔ ∀ a : Fin 2, win1_12.index t a * S256x768.size a ≤ (i a).val ∧ (i a).val < win1_12.index t a * S256x768.size a + S256x768.size a := by
  show i ∈ ((View.whole main_v15).slice (win1_12.rect t)).set ↔ _
  rw [View.set_slice_whole, Rect.mem_set_unit]
  exact Iff.rfl

theorem idx_onto1 : ∀ q0 : Fin 8, ∃ t : Fin cfg1.N, win1_12.index t = ![q0.val, 0] :=
  (by decide +kernel : ∀ q0 : Fin 8, ∃ t : Fin grid1.N, win1_12.index t = ![q0.val, 0])

/-- Every index of the result array is in some point's block. -/
theorem cover1 (i : S2048x768.Idx) : ∃ t : Fin cfg1.N, (cfg1.win 12).flush t = true ∧ i ∈ ((cfg1.win 12).blk t).view.set := by
  have hi0 : (i 0).val < 2048 := (i 0).isLt
  have hi1 : (i 1).val < 768 := (i 1).isLt
  obtain ⟨t, ht⟩ := idx_onto1 ⟨(i 0).val / 256, by omega⟩
  have q0 : win1_12.index t (0 : Fin 2) = (i 0).val / 256 := congrFun ht 0
  have q1 : win1_12.index t (1 : Fin 2) = 0 := congrFun ht 1
  refine ⟨t, flush1_12 t, ?_⟩
  rw [mem_blk1]
  intro a
  match a with
  | ⟨0, _⟩ => show win1_12.index t (0 : Fin 2) * 256 ≤ (i 0).val ∧ (i 0).val < win1_12.index t (0 : Fin 2) * 256 + 256; omega
  | ⟨1, _⟩ => show win1_12.index t (1 : Fin 2) * 768 ≤ (i 1).val ∧ (i 1).val < win1_12.index t (1 : Fin 2) * 768 + 768; omega

/-- The result array after the region: the whole chain of layers of the whole arrays. -/
theorem final1 (c : Dev nD) : (dat1 V c).arrAt 12 cfg1.N
    = lnW (addW (linW (reluW (linW (H1 V c) (V c main_v3 : Mat 768 3072) (V c main_v9 : Mat 1 3072))) (V c main_v4 : Mat 3072 768) (V c main_v10 : Mat 1 768)) (H1 V c))
        (V c main_v13 : Mat 1 768) (V c main_v14 : Mat 1 768) :=
  (dat1 V c).arrAt_eq_of_cover 12 _ (fun t _ => flushed1 V c t) cover1

end Cert.KernelIdeal.Hand

end
-- ==== Proof.Bridge.lean ====
/-
  The two layouts of the attention values regrouped as one 2048 x 768 matrix, and the whole layer as one function of the
  thirteen argument arrays.
-/
import proofs.«143729_g2000604737890889_pallaspilot1_168_5_alg».proof.Proof.Spec

noncomputable section

open scoped BigOperators

namespace Cert.Hand.Spec

open Idealize.ShloMosaic Idealize.ShloMosaic.ValueIdx Cert.Hand.Layers Cert.Hand.Attn Cert.Lib.RowMajor

/-- The slab-per-batch layout lists, in row-major order, the same numbers as the slab-per-head layout. -/
theorem kattW_rep (QKV : Mat 2048 2304) : Rep (kattW QKV) (flatOf (rattW QKV)) := by
  rw [rep3_iff]
  intro b y d
  have hy := y.isLt
  have hb := b.isLt
  have hd := d.isLt
  have hn : b.val * 12 + y.val / 128 < 192 := by omega
  have e : (b.val * 1536 + y.val) * 64 + d.val = ((b.val * 12 + y.val / 128) * 128 + y.val % 128) * 64 + d.val := by omega
  rw [e, ← (rep3_iff.mp (rep_flatOf (rattW QKV))) ⟨b.val * 12 + y.val / 128, hn⟩
    ⟨y.val % 128, Nat.mod_lt _ (by decide)⟩ d, kattW_at, rattW_at]
  have e1 : (b.val * 12 + y.val / 128) / 12 = b.val := by omega
  have e2 : (b.val * 12 + y.val / 128) % 12 = y.val / 128 := by omega
  congr 1
  · exact Fin.ext e1.symm
  · exact Fin.ext e2.symm

/-- Regrouped (in one step or in two) to one shape, the two layouts are one array. -/
theorem vals_agree (QKV : Mat 2048 2304) {T U : Shape} (hk : (⟨3, ![16, 1536, 64]⟩ : Shape).ShapeCasts U)
    (hr : (⟨3, ![192, 128, 64]⟩ : Shape).ShapeCasts T) (hr' : T.ShapeCasts U) :
    shapeCast U (shapeCast T (rattW QKV) hr) hr' = shapeCast U (kattW QKV) hk :=
  rep_ext (f := flatOf (rattW QKV)) (rep_shapeCast (rep_shapeCast (rep_flatOf _) hr) hr') (rep_shapeCast (kattW_rep QKV) hk)

theorem sc_16_128_768 : (⟨3, ![16, 128, 768]⟩ : Shape).ShapeCasts ⟨2, ![2048, 768]⟩ := by decide
theorem sc_2048_768 : (⟨2, ![2048, 768]⟩ : Shape).ShapeCasts ⟨3, ![16, 128, 768]⟩ := by decide
theorem sc_katt : (⟨3, ![16, 1536, 64]⟩ : Shape).ShapeCasts ⟨2, ![2048, 768]⟩ := by decide
theorem sc_row (n : Nat) : (⟨1, ![n]⟩ : Shape).ShapeCasts ⟨2, ![1, n]⟩ := by
  show (⟨2, ![1, n]⟩ : Shape).numel = (⟨1, ![n]⟩ : Shape).numel
  simp [Shape.numel]

/-- The encoder layer: the result array as one function of the thirteen argument arrays. -/
def layer (a0 : (⟨3, ![16, 128, 768]⟩ : Shape).Idx → EReal) (a1 : Mat 768 2304) (a2 : (⟨1, ![2304]⟩ : Shape).Idx → EReal)
    (a3 : Mat 768 768) (a4 : (⟨1, ![768]⟩ : Shape).Idx → EReal) (a5 : Mat 768 3072) (a6 : (⟨1, ![3072]⟩ : Shape).Idx → EReal)
    (a7 : Mat 3072 768) (a8 a9 a10 a11 a12 : (⟨1, ![768]⟩ : Shape).Idx → EReal) : (⟨3, ![16, 128, 768]⟩ : Shape).Idx → EReal :=
  shapeCast ⟨3, ![16, 128, 768]⟩
    (tail (shapeCast ⟨2, ![2048, 768]⟩ (kattW (linW (shapeCast ⟨2, ![2048, 768]⟩ a0 sc_16_128_768) a1 (shapeCast ⟨2, ![1, 2304]⟩ a2 (sc_row 2304)))) sc_katt)
      (shapeCast ⟨2, ![2048, 768]⟩ a0 sc_16_128_768) a3 (shapeCast ⟨2, ![1, 768]⟩ a4 (sc_row 768)) a5 (shapeCast ⟨2, ![1, 3072]⟩ a6 (sc_row 3072)) a7
      (shapeCast ⟨2, ![1, 768]⟩ a8 (sc_row 768)) (shapeCast ⟨2, ![1, 768]⟩ a9 (sc_row 768)) (shapeCast ⟨2, ![1, 768]⟩ a10 (sc_row 768))
      (shapeCast ⟨2, ![1, 768]⟩ a11 (sc_row 768)) (shapeCast ⟨2, ![1, 768]⟩ a12 (sc_row 768)))
    sc_2048_768

end Cert.Hand.Spec

end
-- ==== Proof.FoldK.lean ====
/-
  The kernel program's result array as one function of its argument arrays: the host stretches' reads composed with the
  two regions' values.
-/
import proofs.«143729_g2000604737890889_pallaspilot1_168_5_alg».proof.Proof.FoldKHost
import proofs.«143729_g2000604737890889_pallaspilot1_168_5_alg».proof.Proof.KerAtt
import proofs.«143729_g2000604737890889_pallaspilot1_168_5_alg».proof.Proof.KerFfn
import proofs.«143729_g2000604737890889_pallaspilot1_168_5_alg».proof.Proof.Bridge

set_option maxRecDepth 16384

noncomputable section

open scoped BigOperators

namespace Cert.KernelIdeal.Hand

open Idealize.ShloMosaic Idealize.ShloMosaic.TcCoe Idealize.ShloMosaic.ValueIdx Idealize.ShloMosaic.Pipeline Idealize.ShloMosaic.StableHlo
open Cert.KernelIdeal Cert.KernelIdeal.Gen Cert.Hand.Layers Cert.Hand.Spec

variable (m : (ℓ : Loc nD τ sig) → Buf (Elt Ideal) ℓ) (ρ : Dev nD → PrngReg) (c : Dev nD)

/-- The attention values as region 1 finds them: the first region's result regrouped as a 2048 x 768 matrix. -/
theorem V3_v7 : (V3 m ρ c main_v7 : Mat 2048 768)
    = shapeCast S2048x768 (kattW (linW (shapeCast S2048x768 (m ((c : Thread nD τ).loc main_arg0)) shapeCasts_S16x128x768_S2048x768) (m ((c : Thread nD τ).loc main_arg1)) (shapeCast S1x2304 (m ((c : Thread nD τ).loc main_arg2)) shapeCasts_S2304_S1x2304))) shapeCasts_S16x1536x64_S2048x768 := by
  show W3 m ρ c (Proc.devRef .tc main_v7) = _
  rw [W3_v7 m ρ c, W2_v6 m ρ c, final0 (V1 m ρ) c]
  show shapeCast S2048x768 (kattW (linW (W1 m ρ c (Proc.devRef .tc main_v0)) (W1 m ρ c (Proc.devRef .tc main_v1)) (W1 m ρ c (Proc.devRef .tc main_v5)))) shapeCasts_S16x1536x64_S2048x768 = _
  rw [W1_v0 m ρ c, W1_v1 m ρ c, W1_v5 m ρ c]

/-- The result array after every weakly fair execution's last boundary: the layer of the argument arrays. -/
theorem kernel_value : W5 m ρ c (Proc.devRef .tc main_v16)
    = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e0 : (V3 m ρ c main_v0 : Mat 2048 768) = (shapeCast S2048x768 (m ((c : Thread nD τ).loc main_arg0)) shapeCasts_S16x128x768_S2048x768) := W3_v0 m ρ c
  have e2 : (V3 m ρ c main_v2 : Mat 768 768) = (m ((c : Thread nD τ).loc main_arg3)) := W3_v2 m ρ c
  have e8 : (V3 m ρ c main_v8 : Mat 1 768) = (shapeCast S1x768 (m ((c : Thread nD τ).loc main_arg4)) shapeCasts_S768_S1x768) := W3_v8 m ρ c
  have e3 : (V3 m ρ c main_v3 : Mat 768 3072) = (m ((c : Thread nD τ).loc main_arg5)) := W3_v3 m ρ c
  have e9 : (V3 m ρ c main_v9 : Mat 1 3072) = (shapeCast S1x3072 (m ((c : Thread nD τ).loc main_arg6)) shapeCasts_S3072_S1x3072) := W3_v9 m ρ c
  have e4 : (V3 m ρ c main_v4 : Mat 3072 768) = (m ((c : Thread nD τ).loc main_arg7)) := W3_v4 m ρ c
  have e10 : (V3 m ρ c main_v10 : Mat 1 768) = (shapeCast S1x768 (m ((c : Thread nD τ).loc main_arg8)) shapeCasts_S768_S1x768) := W3_v10 m ρ c
  have e11 : (V3 m ρ c main_v11 : Mat 1 768) = (shapeCast S1x768 (m ((c : Thread nD τ).loc main_arg9)) shapeCasts_S768_S1x768) := W3_v11 m ρ c
  have e12 : (V3 m ρ c main_v12 : Mat 1 768) = (shapeCast S1x768 (m ((c : Thread nD τ).loc main_arg10)) shapeCasts_S768_S1x768) := W3_v12 m ρ c
  have e13 : (V3 m ρ c main_v13 : Mat 1 768) = (shapeCast S1x768 (m ((c : Thread nD τ).loc main_arg11)) shapeCasts_S768_S1x768) := W3_v13 m ρ c
  have e14 : (V3 m ρ c main_v14 : Mat 1 768) = (shapeCast S1x768 (m ((c : Thread nD τ).loc main_arg12)) shapeCasts_S768_S1x768) := W3_v14 m ρ c
  rw [W5_v16 m ρ c, W4_v15 m ρ c, final1 (V3 m ρ) c]
  dsimp only [H1]
  rw [V3_v7 m ρ c, e0, e2, e8, e3, e9, e4, e10, e11, e12, e13, e14]
  rfl

end Cert.KernelIdeal.Hand

end
-- ==== Proof.FoldRHost.lean ====
/-
  The reference program's buffers at the boundaries of its host stretches and regions, read back to the argument arrays
  and to the regions' result arrays: what each region's input arrays hold when the region is entered, and where the
  result array comes from.  A host reshape keeps the entries in row-major order; a buffer that no operation of a stretch
  writes and that no region's output window covers keeps its contents.
-/
import proofs.«143729_g2000604737890889_pallaspilot1_168_5_alg».proof.Proof.Gen.ReferenceIdeal.Frame
import Idealize.ShloMosaic.Lib.StableHlo.Run
import Idealize.ShloMosaic.Lib.ValueIdx
import Idealize.ShloMosaic.Lib.Pipeline.Value

set_option maxRecDepth 16384

noncomputable section

open scoped BigOperators

namespace Cert.ReferenceIdeal.Hand

open Idealize.ShloMosaic Idealize.ShloMosaic.TcCoe Idealize.ShloMosaic.ValueIdx Idealize.ShloMosaic.Pipeline Idealize.ShloMosaic.StableHlo
open Cert.ReferenceIdeal Cert.ReferenceIdeal.Gen

variable (m : (ℓ : Loc nD τ sig) → Buf (Elt Ideal) ℓ) (ρ : Dev nD → PrngReg) (c : Dev nD)

/-! ## Boundary 1 -/

theorem W1_v0 : W1 m ρ c (Proc.devRef .tc main_v0) = shapeCast S2048x768 (m ((c : Thread nD τ).loc main_arg0)) shapeCasts_S16x128x768_S2048x768 := by
  have e : W1 m ρ c (Proc.devRef .tc main_v0) = shapeCast S2048x768 (W0 m ρ c (Proc.devRef .tc main_arg0)) shapeCasts_S16x128x768_S2048x768 := by
    show StableHlo.after hostOps0 (W0 m ρ c) (Proc.devRef .tc main_v0) = _
    dsimp only [hostOps0]
    after_results
    rfl
  rw [e]
theorem W1_v1 : W1 m ρ c (Proc.devRef .tc main_v1) = shapeCast S1x2304 (m ((c : Thread nD τ).loc main_arg2)) shapeCasts_S2304_S1x2304 := by
  have e : W1 m ρ c (Proc.devRef .tc main_v1) = shapeCast S1x2304 (W0 m ρ c (Proc.devRef .tc main_arg2)) shapeCasts_S2304_S1x2304 := by
    show StableHlo.after hostOps0 (W0 m ρ c) (Proc.devRef .tc main_v1) = _
    dsimp only [hostOps0]
    after_results
    rfl
  rw [e]
theorem W1_arg1 : W1 m ρ c (Proc.devRef .tc main_arg1) = m ((c : Thread nD τ).loc main_arg1) := by
  have e : W1 m ρ c (Proc.devRef .tc main_arg1) = W0 m ρ c (Proc.devRef .tc main_arg1) := by
    show StableHlo.after hostOps0 (W0 m ρ c) (Proc.devRef .tc main_arg1) = _
    dsimp only [hostOps0]
    after_results
  exact e
theorem W1_arg3 : W1 m ρ c (Proc.devRef .tc main_arg3) = m ((c : Thread nD τ).loc main_arg3) := by
  have e : W1 m ρ c (Proc.devRef .tc main_arg3) = W0 m ρ c (Proc.devRef .tc main_arg3) := by
    show StableHlo.after hostOps0 (W0 m ρ c) (Proc.devRef .tc main_arg3) = _
    dsimp only [hostOps0]
    after_results
  exact e
theorem W1_arg4 : W1 m ρ c (Proc.devRef .tc main_arg4) = m ((c : Thread nD τ).loc main_arg4) := by
  have e : W1 m ρ c (Proc.devRef .tc main_arg4) = W0 m ρ c (Proc.devRef .tc main_arg4) := by
    show StableHlo.after hostOps0 (W0 m ρ c) (Proc.devRef .tc main_arg4) = _
    dsimp only [hostOps0]
    after_results
  exact e
theorem W1_arg5 : W1 m ρ c (Proc.devRef .tc main_arg5) = m ((c : Thread nD τ).loc main_arg5) := by
  have e : W1 m ρ c (Proc.devRef .tc main_arg5) = W0 m ρ c (Proc.devRef .tc main_arg5) := by
    show StableHlo.after hostOps0 (W0 m ρ c) (Proc.devRef .tc main_arg5) = _
    dsimp only [hostOps0]
    after_results
  exact e
theorem W1_arg6 : W1 m ρ c (Proc.devRef .tc main_arg6) = m ((c : Thread nD τ).loc main_arg6) := by
  have e : W1 m ρ c (Proc.devRef .tc main_arg6) = W0 m ρ c (Proc.devRef .tc main_arg6) := by
    show StableHlo.after hostOps0 (W0 m ρ c) (Proc.devRef .tc main_arg6) = _
    dsimp only [hostOps0]
    after_results
  exact e
theorem W1_arg7 : W1 m ρ c (Proc.devRef .tc main_arg7) = m ((c : Thread nD τ).loc main_arg7) := by
  have e : W1 m ρ c (Proc.devRef .tc main_arg7) = W0 m ρ c (Proc.devRef .tc main_arg7) := by
    show StableHlo.after hostOps0 (W0 m ρ c) (Proc.devRef .tc main_arg7) = _
    dsimp only [hostOps0]
    after_results
  exact e
theorem W1_arg8 : W1 m ρ c (Proc.devRef .tc main_arg8) = m ((c : Thread nD τ).loc main_arg8) := by
  have e : W1 m ρ c (Proc.devRef .tc main_arg8) = W0 m ρ c (Proc.devRef .tc main_arg8) := by
    show StableHlo.after hostOps0 (W0 m ρ c) (Proc.devRef .tc main_arg8) = _
    dsimp only [hostOps0]
    after_results
  exact e
theorem W1_arg9 : W1 m ρ c (Proc.devRef .tc main_arg9) = m ((c : Thread nD τ).loc main_arg9) := by
  have e : W1 m ρ c (Proc.devRef .tc main_arg9) = W0 m ρ c (Proc.devRef .tc main_arg9) := by
    show StableHlo.after hostOps0 (W0 m ρ c) (Proc.devRef .tc main_arg9) = _
    dsimp only [hostOps0]
    after_results
  exact e
theorem W1_arg10 : W1 m ρ c (Proc.devRef .tc main_arg10) = m ((c : Thread nD τ).loc main_arg10) := by
  have e : W1 m ρ c (Proc.devRef .tc main_arg10) = W0 m ρ c (Proc.devRef .tc main_arg10) := by
    show StableHlo.after hostOps0 (W0 m ρ c) (Proc.devRef .tc main_arg10) = _
    dsimp only [hostOps0]
    after_results
  exact e
theorem W1_arg11 : W1 m ρ c (Proc.devRef .tc main_arg11) = m ((c : Thread nD τ).loc main_arg11) := by
  have e : W1 m ρ c (Proc.devRef .tc main_arg11) = W0 m ρ c (Proc.devRef .tc main_arg11) := by
    show StableHlo.after hostOps0 (W0 m ρ c) (Proc.devRef .tc main_arg11) = _
    dsimp only [hostOps0]
    after_results
  exact e
theorem W1_arg12 : W1 m ρ c (Proc.devRef .tc main_arg12) = m ((c : Thread nD τ).loc main_arg12) := by
  have e : W1 m ρ c (Proc.devRef .tc main_arg12) = W0 m ρ c (Proc.devRef .tc main_arg12) := by
    show StableHlo.after hostOps0 (W0 m ρ c) (Proc.devRef .tc main_arg12) = _
    dsimp only [hostOps0]
    after_results
  exact e

/-! ## Boundary 2 -/

theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_v0 : W2 m ρ c (Proc.devRef .tc main_v0) = shapeCast S2048x768 (m ((c : Thread nD τ).loc main_arg0)) shapeCasts_S16x128x768_S2048x768 :=
  ((W2_arr m ρ c 0).trans (((dat0 (V1 m ρ) c).arrAt_in 0 rfl _).trans (A_eq0 (V1 m ρ) c 0))).trans (W1_v0 m ρ c)
theorem W2_v2 : W2 m ρ c (Proc.devRef .tc main_v2) = (dat0 (V1 m ρ) c).arrAt 3 cfg0.N := W2_arr m ρ c 3

/-! ## Boundary 3 -/

theorem W3_v8 : W3 m ρ c (Proc.devRef .tc main_v8) = shapeCast S192x128x64 (extractStridedSlice S16x12x128x64 ![0, 0, 0, 0] (transpose S16x12x128x192 [0, 2, 1, 3] (shapeCast S16x128x12x192 (W2 m ρ c (Proc.devRef .tc main_v2)) shapeCasts_S2048x2304_S16x128x12x192) transposes_S16x128x12x192_S16x12x128x192_0_2_1_3) slices_S16x12x128x192_S16x12x128x64_0_0_0_0) shapeCasts_S16x12x128x64_S192x128x64 := by
  have e : W3 m ρ c (Proc.devRef .tc main_v8) = shapeCast S192x128x64 (extractStridedSlice S16x12x128x64 ![0, 0, 0, 0] (transpose S16x12x128x192 [0, 2, 1, 3] (shapeCast S16x128x12x192 (W2 m ρ c (Proc.devRef .tc main_v2)) shapeCasts_S2048x2304_S16x128x12x192) transposes_S16x128x12x192_S16x12x128x192_0_2_1_3) slices_S16x12x128x192_S16x12x128x64_0_0_0_0) shapeCasts_S16x12x128x64_S192x128x64 := by
    show StableHlo.after hostOps1 (W2 m ρ c) (Proc.devRef .tc main_v8) = _
    dsimp only [hostOps1]
    after_results
    rfl
  rw [e]
theorem W3_v9 : W3 m ρ c (Proc.devRef .tc main_v9) = shapeCast S192x128x64 (extractStridedSlice S16x12x128x64 ![0, 0, 0, 64] (transpose S16x12x128x192 [0, 2, 1, 3] (shapeCast S16x128x12x192 (W2 m ρ c (Proc.devRef .tc main_v2)) shapeCasts_S2048x2304_S16x128x12x192) transposes_S16x128x12x192_S16x12x128x192_0_2_1_3) slices_S16x12x128x192_S16x12x128x64_0_0_0_64) shapeCasts_S16x12x128x64_S192x128x64 := by
  have e : W3 m ρ c (Proc.devRef .tc main_v9) = shapeCast S192x128x64 (extractStridedSlice S16x12x128x64 ![0, 0, 0, 64] (transpose S16x12x128x192 [0, 2, 1, 3] (shapeCast S16x128x12x192 (W2 m ρ c (Proc.devRef .tc main_v2)) shapeCasts_S2048x2304_S16x128x12x192) transposes_S16x128x12x192_S16x12x128x192_0_2_1_3) slices_S16x12x128x192_S16x12x128x64_0_0_0_64) shapeCasts_S16x12x128x64_S192x128x64 := by
    show StableHlo.after hostOps1 (W2 m ρ c) (Proc.devRef .tc main_v9) = _
    dsimp only [hostOps1]
    after_results
    rfl
  rw [e]
theorem W3_v10 : W3 m ρ c (Proc.devRef .tc main_v10) = shapeCast S192x128x64 (extractStridedSlice S16x12x128x64 ![0, 0, 0, 128] (transpose S16x12x128x192 [0, 2, 1, 3] (shapeCast S16x128x12x192 (W2 m ρ c (Proc.devRef .tc main_v2)) shapeCasts_S2048x2304_S16x128x12x192) transposes_S16x128x12x192_S16x12x128x192_0_2_1_3) slices_S16x12x128x192_S16x12x128x64_0_0_0_128) shapeCasts_S16x12x128x64_S192x128x64 := by
  have e : W3 m ρ c (Proc.devRef .tc main_v10) = shapeCast S192x128x64 (extractStridedSlice S16x12x128x64 ![0, 0, 0, 128] (transpose S16x12x128x192 [0, 2, 1, 3] (shapeCast S16x128x12x192 (W2 m ρ c (Proc.devRef .tc main_v2)) shapeCasts_S2048x2304_S16x128x12x192) transposes_S16x128x12x192_S16x12x128x192_0_2_1_3) slices_S16x12x128x192_S16x12x128x64_0_0_0_128) shapeCasts_S16x12x128x64_S192x128x64 := by
    show StableHlo.after hostOps1 (W2 m ρ c) (Proc.devRef .tc main_v10) = _
    dsimp only [hostOps1]
    after_results
    rfl
  rw [e]
theorem W3_arg3 : W3 m ρ c (Proc.devRef .tc main_arg3) = m ((c : Thread nD τ).loc main_arg3) := by
  have e : W3 m ρ c (Proc.devRef .tc main_arg3) = W2 m ρ c (Proc.devRef .tc main_arg3) := by
    show StableHlo.after hostOps1 (W2 m ρ c) (Proc.devRef .tc main_arg3) = _
    dsimp only [hostOps1]
    after_results
  exact e.trans (W2_arg3 m ρ c)
theorem W3_arg4 : W3 m ρ c (Proc.devRef .tc main_arg4) = m ((c : Thread nD τ).loc main_arg4) := by
  have e : W3 m ρ c (Proc.devRef .tc main_arg4) = W2 m ρ c (Proc.devRef .tc main_arg4) := by
    show StableHlo.after hostOps1 (W2 m ρ c) (Proc.devRef .tc main_arg4) = _
    dsimp only [hostOps1]
    after_results
  exact e.trans (W2_arg4 m ρ c)
theorem W3_arg5 : W3 m ρ c (Proc.devRef .tc main_arg5) = m ((c : Thread nD τ).loc main_arg5) := by
  have e : W3 m ρ c (Proc.devRef .tc main_arg5) = W2 m ρ c (Proc.devRef .tc main_arg5) := by
    show StableHlo.after hostOps1 (W2 m ρ c) (Proc.devRef .tc main_arg5) = _
    dsimp only [hostOps1]
    after_results
  exact e.trans (W2_arg5 m ρ c)
theorem W3_arg6 : W3 m ρ c (Proc.devRef .tc main_arg6) = m ((c : Thread nD τ).loc main_arg6) := by
  have e : W3 m ρ c (Proc.devRef .tc main_arg6) = W2 m ρ c (Proc.devRef .tc main_arg6) := by
    show StableHlo.after hostOps1 (W2 m ρ c) (Proc.devRef .tc main_arg6) = _
    dsimp only [hostOps1]
    after_results
  exact e.trans (W2_arg6 m ρ c)
theorem W3_arg7 : W3 m ρ c (Proc.devRef .tc main_arg7) = m ((c : Thread nD τ).loc main_arg7) := by
  have e : W3 m ρ c (Proc.devRef .tc main_arg7) = W2 m ρ c (Proc.devRef .tc main_arg7) := by
    show StableHlo.after hostOps1 (W2 m ρ c) (Proc.devRef .tc main_arg7) = _
    dsimp only [hostOps1]
    after_results
  exact e.trans (W2_arg7 m ρ c)
theorem W3_arg8 : W3 m ρ c (Proc.devRef .tc main_arg8) = m ((c : Thread nD τ).loc main_arg8) := by
  have e : W3 m ρ c (Proc.devRef .tc main_arg8) = W2 m ρ c (Proc.devRef .tc main_arg8) := by
    show StableHlo.after hostOps1 (W2 m ρ c) (Proc.devRef .tc main_arg8) = _
    dsimp only [hostOps1]
    after_results
  exact e.trans (W2_arg8 m ρ c)
theorem W3_arg9 : W3 m ρ c (Proc.devRef .tc main_arg9) = m ((c : Thread nD τ).loc main_arg9) := by
  have e : W3 m ρ c (Proc.devRef .tc main_arg9) = W2 m ρ c (Proc.devRef .tc main_arg9) := by
    show StableHlo.after hostOps1 (W2 m ρ c) (Proc.devRef .tc main_arg9) = _
    dsimp only [hostOps1]
    after_results
  exact e.trans (W2_arg9 m ρ c)
theorem W3_arg10 : W3 m ρ c (Proc.devRef .tc main_arg10) = m ((c : Thread nD τ).loc main_arg10) := by
  have e : W3 m ρ c (Proc.devRef .tc main_arg10) = W2 m ρ c (Proc.devRef .tc main_arg10) := by
    show StableHlo.after hostOps1 (W2 m ρ c) (Proc.devRef .tc main_arg10) = _
    dsimp only [hostOps1]
    after_results
  exact e.trans (W2_arg10 m ρ c)
theorem W3_arg11 : W3 m ρ c (Proc.devRef .tc main_arg11) = m ((c : Thread nD τ).loc main_arg11) := by
  have e : W3 m ρ c (Proc.devRef .tc main_arg11) = W2 m ρ c (Proc.devRef .tc main_arg11) := by
    show StableHlo.after hostOps1 (W2 m ρ c) (Proc.devRef .tc main_arg11) = _
    dsimp only [hostOps1]
    after_results
  exact e.trans (W2_arg11 m ρ c)
theorem W3_arg12 : W3 m ρ c (Proc.devRef .tc main_arg12) = m ((c : Thread nD τ).loc main_arg12) := by
  have e : W3 m ρ c (Proc.devRef .tc main_arg12) = W2 m ρ c (Proc.devRef .tc main_arg12) := by
    show StableHlo.after hostOps1 (W2 m ρ c) (Proc.devRef .tc main_arg12) = _
    dsimp only [hostOps1]
    after_results
  exact e.trans (W2_arg12 m ρ c)
theorem W3_v0 : W3 m ρ c (Proc.devRef .tc main_v0) = shapeCast S2048x768 (m ((c : Thread nD τ).loc main_arg0)) shapeCasts_S16x128x768_S2048x768 := by
  have e : W3 m ρ c (Proc.devRef .tc main_v0) = W2 m ρ c (Proc.devRef .tc main_v0) := by
    show StableHlo.after hostOps1 (W2 m ρ c) (Proc.devRef .tc main_v0) = _
    dsimp only [hostOps1]
    after_results
  exact e.trans (W2_v0 m ρ c)

/-! ## Boundary 4 -/

theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_v0 : W4 m ρ c (Proc.devRef .tc main_v0) = shapeCast S2048x768 (m ((c : Thread nD τ).loc main_arg0)) shapeCasts_S16x128x768_S2048x768 :=
  (W4_of_ne m ρ c main_v0 (by decide)).trans (W3_v0 m ρ c)
theorem W4_v11 : W4 m ρ c (Proc.devRef .tc main_v11) = (dat1 (V3 m ρ) c).arrAt 3 cfg1.N := W4_arr m ρ c 3

/-! ## Boundary 5 -/

theorem W5_v13 : W5 m ρ c (Proc.devRef .tc main_v13) = shapeCast S2048x768 (shapeCast S16x128x768 (W4 m ρ c (Proc.devRef .tc main_v11)) shapeCasts_S192x128x64_S16x128x768) shapeCasts_S16x128x768_S2048x768 := by
  have e : W5 m ρ c (Proc.devRef .tc main_v13) = shapeCast S2048x768 (shapeCast S16x128x768 (W4 m ρ c (Proc.devRef .tc main_v11)) shapeCasts_S192x128x64_S16x128x768) shapeCasts_S16x128x768_S2048x768 := by
    show StableHlo.after hostOps2 (W4 m ρ c) (Proc.devRef .tc main_v13) = _
    dsimp only [hostOps2]
    after_results
    rfl
  rw [e]
theorem W5_v14 : W5 m ρ c (Proc.devRef .tc main_v14) = shapeCast S1x768 (m ((c : Thread nD τ).loc main_arg4)) shapeCasts_S768_S1x768 := by
  have e : W5 m ρ c (Proc.devRef .tc main_v14) = shapeCast S1x768 (W4 m ρ c (Proc.devRef .tc main_arg4)) shapeCasts_S768_S1x768 := by
    show StableHlo.after hostOps2 (W4 m ρ c) (Proc.devRef .tc main_v14) = _
    dsimp only [hostOps2]
    after_results
    rfl
  rw [e, W4_arg4 m ρ c]
theorem W5_arg3 : W5 m ρ c (Proc.devRef .tc main_arg3) = m ((c : Thread nD τ).loc main_arg3) := by
  have e : W5 m ρ c (Proc.devRef .tc main_arg3) = W4 m ρ c (Proc.devRef .tc main_arg3) := by
    show StableHlo.after hostOps2 (W4 m ρ c) (Proc.devRef .tc main_arg3) = _
    dsimp only [hostOps2]
    after_results
  exact e.trans (W4_arg3 m ρ c)
theorem W5_arg5 : W5 m ρ c (Proc.devRef .tc main_arg5) = m ((c : Thread nD τ).loc main_arg5) := by
  have e : W5 m ρ c (Proc.devRef .tc main_arg5) = W4 m ρ c (Proc.devRef .tc main_arg5) := by
    show StableHlo.after hostOps2 (W4 m ρ c) (Proc.devRef .tc main_arg5) = _
    dsimp only [hostOps2]
    after_results
  exact e.trans (W4_arg5 m ρ c)
theorem W5_arg6 : W5 m ρ c (Proc.devRef .tc main_arg6) = m ((c : Thread nD τ).loc main_arg6) := by
  have e : W5 m ρ c (Proc.devRef .tc main_arg6) = W4 m ρ c (Proc.devRef .tc main_arg6) := by
    show StableHlo.after hostOps2 (W4 m ρ c) (Proc.devRef .tc main_arg6) = _
    dsimp only [hostOps2]
    after_results
  exact e.trans (W4_arg6 m ρ c)
theorem W5_arg7 : W5 m ρ c (Proc.devRef .tc main_arg7) = m ((c : Thread nD τ).loc main_arg7) := by
  have e : W5 m ρ c (Proc.devRef .tc main_arg7) = W4 m ρ c (Proc.devRef .tc main_arg7) := by
    show StableHlo.after hostOps2 (W4 m ρ c) (Proc.devRef .tc main_arg7) = _
    dsimp only [hostOps2]
    after_results
  exact e.trans (W4_arg7 m ρ c)
theorem W5_arg8 : W5 m ρ c (Proc.devRef .tc main_arg8) = m ((c : Thread nD τ).loc main_arg8) := by
  have e : W5 m ρ c (Proc.devRef .tc main_arg8) = W4 m ρ c (Proc.devRef .tc main_arg8) := by
    show StableHlo.after hostOps2 (W4 m ρ c) (Proc.devRef .tc main_arg8) = _
    dsimp only [hostOps2]
    after_results
  exact e.trans (W4_arg8 m ρ c)
theorem W5_arg9 : W5 m ρ c (Proc.devRef .tc main_arg9) = m ((c : Thread nD τ).loc main_arg9) := by
  have e : W5 m ρ c (Proc.devRef .tc main_arg9) = W4 m ρ c (Proc.devRef .tc main_arg9) := by
    show StableHlo.after hostOps2 (W4 m ρ c) (Proc.devRef .tc main_arg9) = _
    dsimp only [hostOps2]
    after_results
  exact e.trans (W4_arg9 m ρ c)
theorem W5_arg10 : W5 m ρ c (Proc.devRef .tc main_arg10) = m ((c : Thread nD τ).loc main_arg10) := by
  have e : W5 m ρ c (Proc.devRef .tc main_arg10) = W4 m ρ c (Proc.devRef .tc main_arg10) := by
    show StableHlo.after hostOps2 (W4 m ρ c) (Proc.devRef .tc main_arg10) = _
    dsimp only [hostOps2]
    after_results
  exact e.trans (W4_arg10 m ρ c)
theorem W5_arg11 : W5 m ρ c (Proc.devRef .tc main_arg11) = m ((c : Thread nD τ).loc main_arg11) := by
  have e : W5 m ρ c (Proc.devRef .tc main_arg11) = W4 m ρ c (Proc.devRef .tc main_arg11) := by
    show StableHlo.after hostOps2 (W4 m ρ c) (Proc.devRef .tc main_arg11) = _
    dsimp only [hostOps2]
    after_results
  exact e.trans (W4_arg11 m ρ c)
theorem W5_arg12 : W5 m ρ c (Proc.devRef .tc main_arg12) = m ((c : Thread nD τ).loc main_arg12) := by
  have e : W5 m ρ c (Proc.devRef .tc main_arg12) = W4 m ρ c (Proc.devRef .tc main_arg12) := by
    show StableHlo.after hostOps2 (W4 m ρ c) (Proc.devRef .tc main_arg12) = _
    dsimp only [hostOps2]
    after_results
  exact e.trans (W4_arg12 m ρ c)
theorem W5_v0 : W5 m ρ c (Proc.devRef .tc main_v0) = shapeCast S2048x768 (m ((c : Thread nD τ).loc main_arg0)) shapeCasts_S16x128x768_S2048x768 := by
  have e : W5 m ρ c (Proc.devRef .tc main_v0) = W4 m ρ c (Proc.devRef .tc main_v0) := by
    show StableHlo.after hostOps2 (W4 m ρ c) (Proc.devRef .tc main_v0) = _
    dsimp only [hostOps2]
    after_results
  exact e.trans (W4_v0 m ρ c)

/-! ## Boundary 6 -/

theorem W6_arg5 : W6 m ρ c (Proc.devRef .tc main_arg5) = m ((c : Thread nD τ).loc main_arg5) :=
  (W6_of_ne m ρ c main_arg5 (by decide)).trans (W5_arg5 m ρ c)
theorem W6_arg6 : W6 m ρ c (Proc.devRef .tc main_arg6) = m ((c : Thread nD τ).loc main_arg6) :=
  (W6_of_ne m ρ c main_arg6 (by decide)).trans (W5_arg6 m ρ c)
theorem W6_arg7 : W6 m ρ c (Proc.devRef .tc main_arg7) = m ((c : Thread nD τ).loc main_arg7) :=
  (W6_of_ne m ρ c main_arg7 (by decide)).trans (W5_arg7 m ρ c)
theorem W6_arg8 : W6 m ρ c (Proc.devRef .tc main_arg8) = m ((c : Thread nD τ).loc main_arg8) :=
  (W6_of_ne m ρ c main_arg8 (by decide)).trans (W5_arg8 m ρ c)
theorem W6_arg9 : W6 m ρ c (Proc.devRef .tc main_arg9) = m ((c : Thread nD τ).loc main_arg9) :=
  (W6_of_ne m ρ c main_arg9 (by decide)).trans (W5_arg9 m ρ c)
theorem W6_arg10 : W6 m ρ c (Proc.devRef .tc main_arg10) = m ((c : Thread nD τ).loc main_arg10) :=
  (W6_of_ne m ρ c main_arg10 (by decide)).trans (W5_arg10 m ρ c)
theorem W6_arg11 : W6 m ρ c (Proc.devRef .tc main_arg11) = m ((c : Thread nD τ).loc main_arg11) :=
  (W6_of_ne m ρ c main_arg11 (by decide)).trans (W5_arg11 m ρ c)
theorem W6_arg12 : W6 m ρ c (Proc.devRef .tc main_arg12) = m ((c : Thread nD τ).loc main_arg12) :=
  (W6_of_ne m ρ c main_arg12 (by decide)).trans (W5_arg12 m ρ c)
theorem W6_v0 : W6 m ρ c (Proc.devRef .tc main_v0) = shapeCast S2048x768 (m ((c : Thread nD τ).loc main_arg0)) shapeCasts_S16x128x768_S2048x768 :=
  (W6_of_ne m ρ c main_v0 (by decide)).trans (W5_v0 m ρ c)
theorem W6_v15 : W6 m ρ c (Proc.devRef .tc main_v15) = (dat2 (V5 m ρ) c).arrAt 3 cfg2.N := W6_arr m ρ c 3

/-! ## Boundary 7 -/

theorem W7_v16 : W7 m ρ c (Proc.devRef .tc main_v16) = shapeCast S1x768 (m ((c : Thread nD τ).loc main_arg9)) shapeCasts_S768_S1x768 := by
  have e : W7 m ρ c (Proc.devRef .tc main_v16) = shapeCast S1x768 (W6 m ρ c (Proc.devRef .tc main_arg9)) shapeCasts_S768_S1x768 := by
    show StableHlo.after hostOps3 (W6 m ρ c) (Proc.devRef .tc main_v16) = _
    dsimp only [hostOps3]
    after_results
    rfl
  rw [e, W6_arg9 m ρ c]
theorem W7_v17 : W7 m ρ c (Proc.devRef .tc main_v17) = shapeCast S1x768 (m ((c : Thread nD τ).loc main_arg10)) shapeCasts_S768_S1x768 := by
  have e : W7 m ρ c (Proc.devRef .tc main_v17) = shapeCast S1x768 (W6 m ρ c (Proc.devRef .tc main_arg10)) shapeCasts_S768_S1x768 := by
    show StableHlo.after hostOps3 (W6 m ρ c) (Proc.devRef .tc main_v17) = _
    dsimp only [hostOps3]
    after_results
    rfl
  rw [e, W6_arg10 m ρ c]
theorem W7_arg5 : W7 m ρ c (Proc.devRef .tc main_arg5) = m ((c : Thread nD τ).loc main_arg5) := by
  have e : W7 m ρ c (Proc.devRef .tc main_arg5) = W6 m ρ c (Proc.devRef .tc main_arg5) := by
    show StableHlo.after hostOps3 (W6 m ρ c) (Proc.devRef .tc main_arg5) = _
    dsimp only [hostOps3]
    after_results
  exact e.trans (W6_arg5 m ρ c)
theorem W7_arg6 : W7 m ρ c (Proc.devRef .tc main_arg6) = m ((c : Thread nD τ).loc main_arg6) := by
  have e : W7 m ρ c (Proc.devRef .tc main_arg6) = W6 m ρ c (Proc.devRef .tc main_arg6) := by
    show StableHlo.after hostOps3 (W6 m ρ c) (Proc.devRef .tc main_arg6) = _
    dsimp only [hostOps3]
    after_results
  exact e.trans (W6_arg6 m ρ c)
theorem W7_arg7 : W7 m ρ c (Proc.devRef .tc main_arg7) = m ((c : Thread nD τ).loc main_arg7) := by
  have e : W7 m ρ c (Proc.devRef .tc main_arg7) = W6 m ρ c (Proc.devRef .tc main_arg7) := by
    show StableHlo.after hostOps3 (W6 m ρ c) (Proc.devRef .tc main_arg7) = _
    dsimp only [hostOps3]
    after_results
  exact e.trans (W6_arg7 m ρ c)
theorem W7_arg8 : W7 m ρ c (Proc.devRef .tc main_arg8) = m ((c : Thread nD τ).loc main_arg8) := by
  have e : W7 m ρ c (Proc.devRef .tc main_arg8) = W6 m ρ c (Proc.devRef .tc main_arg8) := by
    show StableHlo.after hostOps3 (W6 m ρ c) (Proc.devRef .tc main_arg8) = _
    dsimp only [hostOps3]
    after_results
  exact e.trans (W6_arg8 m ρ c)
theorem W7_arg11 : W7 m ρ c (Proc.devRef .tc main_arg11) = m ((c : Thread nD τ).loc main_arg11) := by
  have e : W7 m ρ c (Proc.devRef .tc main_arg11) = W6 m ρ c (Proc.devRef .tc main_arg11) := by
    show StableHlo.after hostOps3 (W6 m ρ c) (Proc.devRef .tc main_arg11) = _
    dsimp only [hostOps3]
    after_results
  exact e.trans (W6_arg11 m ρ c)
theorem W7_arg12 : W7 m ρ c (Proc.devRef .tc main_arg12) = m ((c : Thread nD τ).loc main_arg12) := by
  have e : W7 m ρ c (Proc.devRef .tc main_arg12) = W6 m ρ c (Proc.devRef .tc main_arg12) := by
    show StableHlo.after hostOps3 (W6 m ρ c) (Proc.devRef .tc main_arg12) = _
    dsimp only [hostOps3]
    after_results
  exact e.trans (W6_arg12 m ρ c)
theorem W7_v0 : W7 m ρ c (Proc.devRef .tc main_v0) = shapeCast S2048x768 (m ((c : Thread nD τ).loc main_arg0)) shapeCasts_S16x128x768_S2048x768 := by
  have e : W7 m ρ c (Proc.devRef .tc main_v0) = W6 m ρ c (Proc.devRef .tc main_v0) := by
    show StableHlo.after hostOps3 (W6 m ρ c) (Proc.devRef .tc main_v0) = _
    dsimp only [hostOps3]
    after_results
  exact e.trans (W6_v0 m ρ c)
theorem W7_v15 : W7 m ρ c (Proc.devRef .tc main_v15) = W6 m ρ c (Proc.devRef .tc main_v15) := by
  have e : W7 m ρ c (Proc.devRef .tc main_v15) = W6 m ρ c (Proc.devRef .tc main_v15) := by
    show StableHlo.after hostOps3 (W6 m ρ c) (Proc.devRef .tc main_v15) = _
    dsimp only [hostOps3]
    after_results
  exact e

/-! ## Boundary 8 -/

theorem W8_arg5 : W8 m ρ c (Proc.devRef .tc main_arg5) = m ((c : Thread nD τ).loc main_arg5) :=
  (W8_of_ne m ρ c main_arg5 (by decide)).trans (W7_arg5 m ρ c)
theorem W8_arg6 : W8 m ρ c (Proc.devRef .tc main_arg6) = m ((c : Thread nD τ).loc main_arg6) :=
  (W8_of_ne m ρ c main_arg6 (by decide)).trans (W7_arg6 m ρ c)
theorem W8_arg7 : W8 m ρ c (Proc.devRef .tc main_arg7) = m ((c : Thread nD τ).loc main_arg7) :=
  (W8_of_ne m ρ c main_arg7 (by decide)).trans (W7_arg7 m ρ c)
theorem W8_arg8 : W8 m ρ c (Proc.devRef .tc main_arg8) = m ((c : Thread nD τ).loc main_arg8) :=
  (W8_of_ne m ρ c main_arg8 (by decide)).trans (W7_arg8 m ρ c)
theorem W8_arg11 : W8 m ρ c (Proc.devRef .tc main_arg11) = m ((c : Thread nD τ).loc main_arg11) :=
  (W8_of_ne m ρ c main_arg11 (by decide)).trans (W7_arg11 m ρ c)
theorem W8_arg12 : W8 m ρ c (Proc.devRef .tc main_arg12) = m ((c : Thread nD τ).loc main_arg12) :=
  (W8_of_ne m ρ c main_arg12 (by decide)).trans (W7_arg12 m ρ c)
theorem W8_v18 : W8 m ρ c (Proc.devRef .tc main_v18) = (dat3 (V7 m ρ) c).arrAt 4 cfg3.N := W8_arr m ρ c 4

/-! ## Boundary 9 -/

theorem W9_v19 : W9 m ρ c (Proc.devRef .tc main_v19) = shapeCast S1x3072 (m ((c : Thread nD τ).loc main_arg6)) shapeCasts_S3072_S1x3072 := by
  have e : W9 m ρ c (Proc.devRef .tc main_v19) = shapeCast S1x3072 (W8 m ρ c (Proc.devRef .tc main_arg6)) shapeCasts_S3072_S1x3072 := by
    show StableHlo.after hostOps4 (W8 m ρ c) (Proc.devRef .tc main_v19) = _
    dsimp only [hostOps4]
    after_results
    rfl
  rw [e, W8_arg6 m ρ c]
theorem W9_arg5 : W9 m ρ c (Proc.devRef .tc main_arg5) = m ((c : Thread nD τ).loc main_arg5) := by
  have e : W9 m ρ c (Proc.devRef .tc main_arg5) = W8 m ρ c (Proc.devRef .tc main_arg5) := by
    show StableHlo.after hostOps4 (W8 m ρ c) (Proc.devRef .tc main_arg5) = _
    dsimp only [hostOps4]
    after_results
  exact e.trans (W8_arg5 m ρ c)
theorem W9_arg7 : W9 m ρ c (Proc.devRef .tc main_arg7) = m ((c : Thread nD τ).loc main_arg7) := by
  have e : W9 m ρ c (Proc.devRef .tc main_arg7) = W8 m ρ c (Proc.devRef .tc main_arg7) := by
    show StableHlo.after hostOps4 (W8 m ρ c) (Proc.devRef .tc main_arg7) = _
    dsimp only [hostOps4]
    after_results
  exact e.trans (W8_arg7 m ρ c)
theorem W9_arg8 : W9 m ρ c (Proc.devRef .tc main_arg8) = m ((c : Thread nD τ).loc main_arg8) := by
  have e : W9 m ρ c (Proc.devRef .tc main_arg8) = W8 m ρ c (Proc.devRef .tc main_arg8) := by
    show StableHlo.after hostOps4 (W8 m ρ c) (Proc.devRef .tc main_arg8) = _
    dsimp only [hostOps4]
    after_results
  exact e.trans (W8_arg8 m ρ c)
theorem W9_arg11 : W9 m ρ c (Proc.devRef .tc main_arg11) = m ((c : Thread nD τ).loc main_arg11) := by
  have e : W9 m ρ c (Proc.devRef .tc main_arg11) = W8 m ρ c (Proc.devRef .tc main_arg11) := by
    show StableHlo.after hostOps4 (W8 m ρ c) (Proc.devRef .tc main_arg11) = _
    dsimp only [hostOps4]
    after_results
  exact e.trans (W8_arg11 m ρ c)
theorem W9_arg12 : W9 m ρ c (Proc.devRef .tc main_arg12) = m ((c : Thread nD τ).loc main_arg12) := by
  have e : W9 m ρ c (Proc.devRef .tc main_arg12) = W8 m ρ c (Proc.devRef .tc main_arg12) := by
    show StableHlo.after hostOps4 (W8 m ρ c) (Proc.devRef .tc main_arg12) = _
    dsimp only [hostOps4]
    after_results
  exact e.trans (W8_arg12 m ρ c)
theorem W9_v18 : W9 m ρ c (Proc.devRef .tc main_v18) = W8 m ρ c (Proc.devRef .tc main_v18) := by
  have e : W9 m ρ c (Proc.devRef .tc main_v18) = W8 m ρ c (Proc.devRef .tc main_v18) := by
    show StableHlo.after hostOps4 (W8 m ρ c) (Proc.devRef .tc main_v18) = _
    dsimp only [hostOps4]
    after_results
  exact e

/-! ## Boundary 10 -/

theorem W10_arg7 : W10 m ρ c (Proc.devRef .tc main_arg7) = m ((c : Thread nD τ).loc main_arg7) :=
  (W10_of_ne m ρ c main_arg7 (by decide)).trans (W9_arg7 m ρ c)
theorem W10_arg8 : W10 m ρ c (Proc.devRef .tc main_arg8) = m ((c : Thread nD τ).loc main_arg8) :=
  (W10_of_ne m ρ c main_arg8 (by decide)).trans (W9_arg8 m ρ c)
theorem W10_arg11 : W10 m ρ c (Proc.devRef .tc main_arg11) = m ((c : Thread nD τ).loc main_arg11) :=
  (W10_of_ne m ρ c main_arg11 (by decide)).trans (W9_arg11 m ρ c)
theorem W10_arg12 : W10 m ρ c (Proc.devRef .tc main_arg12) = m ((c : Thread nD τ).loc main_arg12) :=
  (W10_of_ne m ρ c main_arg12 (by decide)).trans (W9_arg12 m ρ c)
theorem W10_v18 : W10 m ρ c (Proc.devRef .tc main_v18) = W8 m ρ c (Proc.devRef .tc main_v18) :=
  ((W10_arr m ρ c 0).trans (((dat4 (V9 m ρ) c).arrAt_in 0 rfl _).trans (A_eq4 (V9 m ρ) c 0))).trans (W9_v18 m ρ c)
theorem W10_v20 : W10 m ρ c (Proc.devRef .tc main_v20) = (dat4 (V9 m ρ) c).arrAt 3 cfg4.N := W10_arr m ρ c 3

/-! ## Boundary 11 -/

theorem W11_v21 : W11 m ρ c (Proc.devRef .tc main_v21) = shapeCast S1x768 (m ((c : Thread nD τ).loc main_arg8)) shapeCasts_S768_S1x768 := by
  have e : W11 m ρ c (Proc.devRef .tc main_v21) = shapeCast S1x768 (W10 m ρ c (Proc.devRef .tc main_arg8)) shapeCasts_S768_S1x768 := by
    show StableHlo.after hostOps5 (W10 m ρ c) (Proc.devRef .tc main_v21) = _
    dsimp only [hostOps5]
    after_results
    rfl
  rw [e, W10_arg8 m ρ c]
theorem W11_arg7 : W11 m ρ c (Proc.devRef .tc main_arg7) = m ((c : Thread nD τ).loc main_arg7) := by
  have e : W11 m ρ c (Proc.devRef .tc main_arg7) = W10 m ρ c (Proc.devRef .tc main_arg7) := by
    show StableHlo.after hostOps5 (W10 m ρ c) (Proc.devRef .tc main_arg7) = _
    dsimp only [hostOps5]
    after_results
  exact e.trans (W10_arg7 m ρ c)
theorem W11_arg11 : W11 m ρ c (Proc.devRef .tc main_arg11) = m ((c : Thread nD τ).loc main_arg11) := by
  have e : W11 m ρ c (Proc.devRef .tc main_arg11) = W10 m ρ c (Proc.devRef .tc main_arg11) := by
    show StableHlo.after hostOps5 (W10 m ρ c) (Proc.devRef .tc main_arg11) = _
    dsimp only [hostOps5]
    after_results
  exact e.trans (W10_arg11 m ρ c)
theorem W11_arg12 : W11 m ρ c (Proc.devRef .tc main_arg12) = m ((c : Thread nD τ).loc main_arg12) := by
  have e : W11 m ρ c (Proc.devRef .tc main_arg12) = W10 m ρ c (Proc.devRef .tc main_arg12) := by
    show StableHlo.after hostOps5 (W10 m ρ c) (Proc.devRef .tc main_arg12) = _
    dsimp only [hostOps5]
    after_results
  exact e.trans (W10_arg12 m ρ c)
theorem W11_v18 : W11 m ρ c (Proc.devRef .tc main_v18) = W8 m ρ c (Proc.devRef .tc main_v18) := by
  have e : W11 m ρ c (Proc.devRef .tc main_v18) = W10 m ρ c (Proc.devRef .tc main_v18) := by
    show StableHlo.after hostOps5 (W10 m ρ c) (Proc.devRef .tc main_v18) = _
    dsimp only [hostOps5]
    after_results
  exact e.trans (W10_v18 m ρ c)
theorem W11_v20 : W11 m ρ c (Proc.devRef .tc main_v20) = W10 m ρ c (Proc.devRef .tc main_v20) := by
  have e : W11 m ρ c (Proc.devRef .tc main_v20) = W10 m ρ c (Proc.devRef .tc main_v20) := by
    show StableHlo.after hostOps5 (W10 m ρ c) (Proc.devRef .tc main_v20) = _
    dsimp only [hostOps5]
    after_results
  exact e

/-! ## Boundary 12 -/

theorem W12_arg11 : W12 m ρ c (Proc.devRef .tc main_arg11) = m ((c : Thread nD τ).loc main_arg11) :=
  (W12_of_ne m ρ c main_arg11 (by decide)).trans (W11_arg11 m ρ c)
theorem W12_arg12 : W12 m ρ c (Proc.devRef .tc main_arg12) = m ((c : Thread nD τ).loc main_arg12) :=
  (W12_of_ne m ρ c main_arg12 (by decide)).trans (W11_arg12 m ρ c)
theorem W12_v18 : W12 m ρ c (Proc.devRef .tc main_v18) = W8 m ρ c (Proc.devRef .tc main_v18) :=
  (W12_of_ne m ρ c main_v18 (by decide)).trans (W11_v18 m ρ c)
theorem W12_v22 : W12 m ρ c (Proc.devRef .tc main_v22) = (dat5 (V11 m ρ) c).arrAt 3 cfg5.N := W12_arr m ρ c 3

/-! ## Boundary 13 -/

theorem W13_v23 : W13 m ρ c (Proc.devRef .tc main_v23) = shapeCast S1x768 (m ((c : Thread nD τ).loc main_arg11)) shapeCasts_S768_S1x768 := by
  have e : W13 m ρ c (Proc.devRef .tc main_v23) = shapeCast S1x768 (W12 m ρ c (Proc.devRef .tc main_arg11)) shapeCasts_S768_S1x768 := by
    show StableHlo.after hostOps6 (W12 m ρ c) (Proc.devRef .tc main_v23) = _
    dsimp only [hostOps6]
    after_results
    rfl
  rw [e, W12_arg11 m ρ c]
theorem W13_v24 : W13 m ρ c (Proc.devRef .tc main_v24) = shapeCast S1x768 (m ((c : Thread nD τ).loc main_arg12)) shapeCasts_S768_S1x768 := by
  have e : W13 m ρ c (Proc.devRef .tc main_v24) = shapeCast S1x768 (W12 m ρ c (Proc.devRef .tc main_arg12)) shapeCasts_S768_S1x768 := by
    show StableHlo.after hostOps6 (W12 m ρ c) (Proc.devRef .tc main_v24) = _
    dsimp only [hostOps6]
    after_results
    rfl
  rw [e, W12_arg12 m ρ c]
theorem W13_v18 : W13 m ρ c (Proc.devRef .tc main_v18) = W8 m ρ c (Proc.devRef .tc main_v18) := by
  have e : W13 m ρ c (Proc.devRef .tc main_v18) = W12 m ρ c (Proc.devRef .tc main_v18) := by
    show StableHlo.after hostOps6 (W12 m ρ c) (Proc.devRef .tc main_v18) = _
    dsimp only [hostOps6]
    after_results
  exact e.trans (W12_v18 m ρ c)
theorem W13_v22 : W13 m ρ c (Proc.devRef .tc main_v22) = W12 m ρ c (Proc.devRef .tc main_v22) := by
  have e : W13 m ρ c (Proc.devRef .tc main_v22) = W12 m ρ c (Proc.devRef .tc main_v22) := by
    show StableHlo.after hostOps6 (W12 m ρ c) (Proc.devRef .tc main_v22) = _
    dsimp only [hostOps6]
    after_results
  exact e

/-! ## Boundary 14 -/

theorem W14_v25 : W14 m ρ c (Proc.devRef .tc main_v25) = (dat6 (V13 m ρ) c).arrAt 4 cfg6.N := W14_arr m ρ c 4

/-! ## Boundary 15 -/

theorem W15_v26 : W15 m ρ c (Proc.devRef .tc main_v26) = shapeCast S16x128x768 (W14 m ρ c (Proc.devRef .tc main_v25)) shapeCasts_S2048x768_S16x128x768 := by
  have e : W15 m ρ c (Proc.devRef .tc main_v26) = shapeCast S16x128x768 (W14 m ρ c (Proc.devRef .tc main_v25)) shapeCasts_S2048x768_S16x128x768 := by
    show StableHlo.after hostOps7 (W14 m ρ c) (Proc.devRef .tc main_v26) = _
    dsimp only [hostOps7]
    after_results
    rfl
  rw [e]

end Cert.ReferenceIdeal.Hand

end
-- ==== Proof.RefLin0.lean ====
/-
  The reference's first dense layer, as its region leaves it: the product of the input rows with the first weight
  matrix plus its bias row, computed 512 rows at a time.  Point t of the grid reads rows 512·t … 512·t + 511 of the input
  and writes the same rows of the result; the weight matrix and the bias row are read whole at every point.  So the
  result array after the region is the dense layer of the whole input array.
-/
import proofs.«143729_g2000604737890889_pallaspilot1_168_5_alg».proof.Proof.Gen.ReferenceIdeal.Frame
import proofs.«143729_g2000604737890889_pallaspilot1_168_5_alg».proof.Proof.Layers

set_option maxRecDepth 16384

noncomputable section

open scoped BigOperators

namespace Cert.ReferenceIdeal.Hand

open Idealize.ShloMosaic Idealize.ShloMosaic.TcCoe Idealize.ShloMosaic.ValueIdx Idealize.ShloMosaic.Pipeline
open Cert.ReferenceIdeal Cert.ReferenceIdeal.Gen Cert.Hand.Layers Cert.Lib.DenseLayer

variable (V : (c : Dev nD) → (b : Ref sig .tc) → Buf (Elt Ideal) ((c : Thread nD τ).loc b))

/-- The region's arrays as the region finds them, as matrices. -/
abbrev aX (c : Dev nD) : Mat 2048 768 := V c main_v0
abbrev aW (c : Dev nD) : Mat 768 2304 := V c main_arg1
abbrev aB (c : Dev nD) : Mat 1 2304 := V c main_v1

theorem hz2 : (![0, 0] : Fin 2 → Nat) = fun _ => 0 := funext fun a => by fin_cases a <;> rfl

/-- The product's record is the plain one. -/
theorem plain0 : Plain dot_S512x768_S768x2304_S512x2304_1_0_0_1_n_n := Plain.of_fields _ rfl rfl rfl rfl rfl rfl

/-- The body's result is the dense layer's chain of the loaded blocks. -/
theorem out0_3_eq (x0 : Vec Ideal S512x768 .f32) (x1 : Vec Ideal S768x2304 .f32) (x2 : Vec Ideal S1x2304 .f32) :
    out0_3 (F := Ideal) x0 x1 x2 = linBlk (F := Ideal) (φ₁ := .f32) (φ₂ := .f32) dot_S512x768_S768x2304_S512x2304_1_0_0_1_n_n broadcasts_S1x2304_S512x2304 x0 x1 x2 := by
  unfold out0_3
  rw [View.canon_unit_zero hz2]
  simp only [View.ld_unit_zero (S := S512x768) hz2, View.ld_unit_zero (S := S768x2304) hz2, View.ld_unit_zero (S := S1x2304) hz2]
  unfold k0_pay1
  simp only [shapeCast_self]
  rfl

/-- The index maps, decided over the grid: the row-tiled windows sit at block row t, the others at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 4 :=
  (by decide +kernel : ∀ t : Fin grid0.N, _)

/-- The input block at point t is the block of rows of the input array from row 512·t. -/
theorem blk0_0 (c : Dev nD) (t : Fin cfg0.N) : RowBlk (t.val * 512) (iblk0 V c 0 t : Mat 512 768) (aX V c) := fun r hr k => by
  obtain ⟨e0, e1, -⟩ := idx_facts0 t
  show V c main_v0 (((cfg0.win 0).blk t).view.emb (ix2 r k)) = V c main_v0 (ix2 ⟨t.val * 512 + r.val, hr⟩ k)
  refine congrArg (V c main_v0) (funext fun a => Fin.ext ?_)
  match a with
  | ⟨0, _⟩ => show win0_0.index t (0 : Fin 2) * 512 + 1 * r.val = t.val * 512 + r.val; omega
  | ⟨1, _⟩ => show win0_0.index t (1 : Fin 2) * 768 + 1 * k.val = k.val; omega

/-- The weight matrix is read whole at every point. -/
theorem blk0_1 (c : Dev nD) (t : Fin cfg0.N) : (iblk0 V c 1 t : Mat 768 2304) = aW V c := by
  obtain ⟨-, -, e0, e1, -⟩ := idx_facts0 t
  funext y
  show V c main_arg1 (((cfg0.win 1).blk t).view.emb y) = V c main_arg1 y
  refine congrArg (V c main_arg1) (funext fun a => Fin.ext ?_)
  match a with
  | ⟨0, _⟩ => show win0_1.index t (0 : Fin 2) * 768 + 1 * (y 0).val = (y 0).val; omega
  | ⟨1, _⟩ => show win0_1.index t (1 : Fin 2) * 2304 + 1 * (y 1).val = (y 1).val; omega

/-- The bias row is read whole at every point. -/
theorem blk0_2 (c : Dev nD) (t : Fin cfg0.N) : (iblk0 V c 2 t : Mat 1 2304) = aB V c := by
  obtain ⟨-, -, -, -, e0, e1, -⟩ := idx_facts0 t
  funext y
  show V c main_v1 (((cfg0.win 2).blk t).view.emb y) = V c main_v1 y
  refine congrArg (V c main_v1) (funext fun a => Fin.ext ?_)
  match a with
  | ⟨0, _⟩ => show win0_2.index t (0 : Fin 2) * 1 + 1 * (y 0).val = (y 0).val; omega
  | ⟨1, _⟩ => show win0_2.index t (1 : Fin 2) * 2304 + 1 * (y 1).val = (y 1).val; omega

/-- What point t writes back is block t of the dense layer of the whole input array. -/
theorem flushed0 (c : Dev nD) (t : Fin cfg0.N) :
    (dat0 V c).flushed 3 t = ((cfg0.win 3).blk t).view.read (Elt Ideal) (linW (aX V c) (aW V c) (aB V c)) := by
  show (cfg0.win 3).cut (grid0.coords t) ((dat0 V c).after 3 t) = _
  rw [after0_3, out0_3_eq, blk0_1, blk0_2]
  obtain ⟨-, -, -, -, -, -, e0, e1, ht⟩ := idx_facts0 t
  funext j
  obtain ⟨p, q, rfl⟩ : ∃ (p : Fin 512) (q : Fin 2304), j = ix2 p q := ⟨j 0, j 1, eq_ix2 j⟩
  have hr : t.val * 512 + p.val < 2048 := by have := p.isLt; omega
  have e : ((cfg0.win 3).blk t).view.emb (ix2 p q) = ix2 (n0 := 2048) (n1 := 2304) ⟨t.val * 512 + p.val, hr⟩ q :=
    funext fun a => Fin.ext (by
      match a with
      | ⟨0, _⟩ => show win0_3.index t (0 : Fin 2) * 512 + 1 * p.val = t.val * 512 + p.val; omega
      | ⟨1, _⟩ => show win0_3.index t (1 : Fin 2) * 2304 + 1 * q.val = q.val; omega)
  show linBlk (F := Ideal) (φ₁ := .f32) (φ₂ := .f32) dot_S512x768_S768x2304_S512x2304_1_0_0_1_n_n broadcasts_S1x2304_S512x2304 (iblk0 V c 0 t) (aW V c) (aB V c) (ix2 p q)
    = linW (aX V c) (aW V c) (aB V c) (((cfg0.win 3).blk t).view.emb (ix2 p q))
  rw [e]
  exact RowBlk.lin plain0 broadcasts_S1x2304_S512x2304 (blk0_0 V c t) (aW V c) (aB V c) p hr q

/-- An index of the result array is in point t's block iff each coordinate is in the block's range. -/
theorem mem_blk0 (t : Fin cfg0.N) (i : S2048x2304.Idx) :
    i ∈ ((cfg0.win 3).blk t).view.set ↔ ∀ a : Fin 2, win0_3.index t a * S512x2304.size a ≤ (i a).val ∧ (i a).val < win0_3.index t a * S512x2304.size a + S512x2304.size a := by
  show i ∈ ((View.whole main_v2).slice (win0_3.rect t)).set ↔ _
  rw [View.set_slice_whole, Rect.mem_set_unit]
  exact Iff.rfl

theorem idx_onto0 : ∀ q0 : Fin 4, ∃ t : Fin cfg0.N, win0_3.index t = ![q0.val, 0] :=
  (by decide +kernel : ∀ q0 : Fin 4, ∃ t : Fin grid0.N, win0_3.index t = ![q0.val, 0])

/-- Every index of the result array is in some point's block. -/
theorem cover0 (i : S2048x2304.Idx) : ∃ t : Fin cfg0.N, (cfg0.win 3).flush t = true ∧ i ∈ ((cfg0.win 3).blk t).view.set := by
  have hi0 : (i 0).val < 2048 := (i 0).isLt
  have hi1 : (i 1).val < 2304 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2304 ≤ (i 1).val ∧ (i 1).val < win0_3.index t (1 : Fin 2) * 2304 + 2304; omega

/-- The result array after the region: the dense layer of the whole input array. -/
theorem final0 (c : Dev nD) : (dat0 V c).arrAt 3 cfg0.N = linW (aX V c) (aW V c) (aB V c) :=
  (dat0 V c).arrAt_eq_of_cover 3 _ (fun t _ => flushed0 V c t) cover0

end Cert.ReferenceIdeal.Hand

end
-- ==== Proof.RefAtt.lean ====
/-
  The reference's attention region, as it leaves its result array: slab by slab, the attention of one head.

  The grid has 192 points. Point t reads slab t of the query, key and value arrays (each [192, 128, 64]) as [1, 128, 64]
  blocks, views each as a 128 x 64 matrix, computes the head's attention values, and writes them back as slab t of the
  result. So the result array after the region is the slab-by-slab attention of the three arrays.
-/
import proofs.«143729_g2000604737890889_pallaspilot1_168_5_alg».proof.Proof.Gen.ReferenceIdeal.Frame
import proofs.«143729_g2000604737890889_pallaspilot1_168_5_alg».proof.Proof.Attn
import proofs.«143729_g2000604737890889_pallaspilot1_168_5_alg».proof.Proof.Spec

set_option maxRecDepth 16384

noncomputable section

open scoped BigOperators

namespace Cert.ReferenceIdeal.Hand

open Idealize.ShloMosaic Idealize.ShloMosaic.TcCoe Idealize.ShloMosaic.ValueIdx Idealize.ShloMosaic.Pipeline
open Cert.ReferenceIdeal Cert.ReferenceIdeal.Gen Cert.Hand.Layers Cert.Lib.DenseLayer
open Cert.Hand.Spec Cert.Hand.Attn

variable (V : (c : Dev nD) → (b : Ref sig .tc) → Buf (Elt Ideal) ((c : Thread nD τ).loc b))

/-- The region's input arrays as the region finds them, as arrays of rank three. -/
abbrev aQ (c : Dev nD) : Arr3 192 128 64 := V c main_v8
abbrev aK (c : Dev nD) : Arr3 192 128 64 := V c main_v9
abbrev aVl (c : Dev nD) : Arr3 192 128 64 := V c main_v10

theorem hz3 : (![0, 0, 0] : Fin 3 → Nat) = fun _ => 0 := funext fun a => by fin_cases a <;> rfl

/-- The body's result: the three loaded blocks viewed as matrices, the head's attention, viewed as a block again. -/
theorem out1_3_eq (x0 x1 x2 : Vec Ideal S1x128x64 .f32) :
    out1_3 (F := Ideal) x0 x1 x2
      = shapeCast S1x128x64 (headR (F := Ideal) (shapeCast S128x64 x0 shapeCasts_S1x128x64_S128x64)
          (shapeCast S128x64 x1 shapeCasts_S1x128x64_S128x64) (shapeCast S128x64 x2 shapeCasts_S1x128x64_S128x64))
          shapeCasts_S128x64_S1x128x64 := by
  unfold out1_3
  rw [View.canon_unit_zero hz3]
  simp only [View.ld_unit_zero (S := S1x128x64) hz3]
  rfl

/-- The index maps, decided over the grid: every window sits at slab t. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ t.val < 192 :=
  (by decide +kernel : ∀ t : Fin grid1.N, _)

/-- A [1, 128, 64] block viewed as a matrix, at (a, k): the block's entry (0, a, k). -/
theorem mat_of_blk (x : Arr3 1 128 64) (h : S1x128x64.ShapeCasts S128x64) (a : Fin 128) (k : Fin 64) :
    shapeCast S128x64 x h (ix2 a k) = x (ix3 ⟨0, Nat.one_pos⟩ a k) :=
  shapeCast_apply x h _ _ (by
    rw [Shape.rowMajor_val_three, Shape.rowMajor_val_two]
    show (0 * 128 + a.val) * 64 + k.val = a.val * 64 + k.val
    omega)

/-- A matrix viewed as a [1, 128, 64] block, at (z, a, k): the matrix's entry (a, k). -/
theorem blk_of_mat (m : Mat 128 64) (h : S128x64.ShapeCasts S1x128x64) (z : Fin 1) (a : Fin 128) (k : Fin 64) :
    shapeCast S1x128x64 m h (ix3 z a k) = m (ix2 a k) :=
  shapeCast_apply m h _ _ (by
    rw [Shape.rowMajor_val_two, Shape.rowMajor_val_three]
    show a.val * 64 + k.val = (z.val * 128 + a.val) * 64 + k.val
    have := z.isLt
    omega)

/-- The query block at point t is slab t of the query array. -/
theorem blk1_0 (c : Dev nD) (t : Fin cfg1.N) (ht : t.val < 192) (z : Fin 1) (a : Fin 128) (x : Fin 64) :
    (iblk1 V c 0 t : Arr3 1 128 64) (ix3 z a x) = aQ V c (ix3 ⟨t.val, ht⟩ a x) := by
  obtain ⟨e0, e1, e2, -⟩ := idx_facts1 t
  have hz := z.isLt
  show V c main_v8 (((cfg1.win 0).blk t).view.emb (ix3 z a x)) = V c main_v8 (ix3 ⟨t.val, ht⟩ a x)
  refine congrArg (V c main_v8) (funext fun i => Fin.ext ?_)
  match i with
  | ⟨0, _⟩ => show win1_0.index t (0 : Fin 3) * 1 + 1 * z.val = t.val; omega
  | ⟨1, _⟩ => show win1_0.index t (1 : Fin 3) * 128 + 1 * a.val = a.val; omega
  | ⟨2, _⟩ => show win1_0.index t (2 : Fin 3) * 64 + 1 * x.val = x.val; omega

/-- The key block at point t is slab t of the key array. -/
theorem blk1_1 (c : Dev nD) (t : Fin cfg1.N) (ht : t.val < 192) (z : Fin 1) (a : Fin 128) (x : Fin 64) :
    (iblk1 V c 1 t : Arr3 1 128 64) (ix3 z a x) = aK V c (ix3 ⟨t.val, ht⟩ a x) := by
  obtain ⟨-, -, -, e0, e1, e2, -⟩ := idx_facts1 t
  have hz := z.isLt
  show V c main_v9 (((cfg1.win 1).blk t).view.emb (ix3 z a x)) = V c main_v9 (ix3 ⟨t.val, ht⟩ a x)
  refine congrArg (V c main_v9) (funext fun i => Fin.ext ?_)
  match i with
  | ⟨0, _⟩ => show win1_1.index t (0 : Fin 3) * 1 + 1 * z.val = t.val; omega
  | ⟨1, _⟩ => show win1_1.index t (1 : Fin 3) * 128 + 1 * a.val = a.val; omega
  | ⟨2, _⟩ => show win1_1.index t (2 : Fin 3) * 64 + 1 * x.val = x.val; omega

/-- The value block at point t is slab t of the value array. -/
theorem blk1_2 (c : Dev nD) (t : Fin cfg1.N) (ht : t.val < 192) (z : Fin 1) (a : Fin 128) (x : Fin 64) :
    (iblk1 V c 2 t : Arr3 1 128 64) (ix3 z a x) = aVl V c (ix3 ⟨t.val, ht⟩ a x) := by
  obtain ⟨-, -, -, -, -, -, e0, e1, e2, -⟩ := idx_facts1 t
  have hz := z.isLt
  show V c main_v10 (((cfg1.win 2).blk t).view.emb (ix3 z a x)) = V c main_v10 (ix3 ⟨t.val, ht⟩ a x)
  refine congrArg (V c main_v10) (funext fun i => Fin.ext ?_)
  match i with
  | ⟨0, _⟩ => show win1_2.index t (0 : Fin 3) * 1 + 1 * z.val = t.val; omega
  | ⟨1, _⟩ => show win1_2.index t (1 : Fin 3) * 128 + 1 * a.val = a.val; omega
  | ⟨2, _⟩ => show win1_2.index t (2 : Fin 3) * 64 + 1 * x.val = x.val; omega

/-- What point t writes back is slab t of the slab-by-slab attention of the three arrays. -/
theorem flushed1 (c : Dev nD) (t : Fin cfg1.N) :
    (dat1 V c).flushed 3 t = ((cfg1.win 3).blk t).view.read (Elt Ideal) (attW3 (aQ V c) (aK V c) (aVl V c)) := by
  show (cfg1.win 3).cut (grid1.coords t) ((dat1 V c).after 3 t) = _
  rw [after1_3, out1_3_eq]
  obtain ⟨-, -, -, -, -, -, -, -, -, e0, e1, e2, ht⟩ := idx_facts1 t
  funext j
  obtain ⟨z, a, d, rfl⟩ : ∃ (z : Fin 1) (a : Fin 128) (d : Fin 64), j = ix3 z a d := ⟨j 0, j 1, j 2, eq_ix3 j⟩
  have hz := z.isLt
  have e : ((cfg1.win 3).blk t).view.emb (ix3 z a d) = ix3 (n0 := 192) (n1 := 128) (n2 := 64) ⟨t.val, ht⟩ a d :=
    funext fun i => Fin.ext (by
      match i with
      | ⟨0, _⟩ => show win1_3.index t (0 : Fin 3) * 1 + 1 * z.val = t.val; omega
      | ⟨1, _⟩ => show win1_3.index t (1 : Fin 3) * 128 + 1 * a.val = a.val; omega
      | ⟨2, _⟩ => show win1_3.index t (2 : Fin 3) * 64 + 1 * d.val = d.val; omega)
  show shapeCast S1x128x64 (headR (F := Ideal) (shapeCast S128x64 (iblk1 V c 0 t) shapeCasts_S1x128x64_S128x64)
        (shapeCast S128x64 (iblk1 V c 1 t) shapeCasts_S1x128x64_S128x64)
        (shapeCast S128x64 (iblk1 V c 2 t) shapeCasts_S1x128x64_S128x64)) shapeCasts_S128x64_S1x128x64 (ix3 z a d)
    = attW3 (aQ V c) (aK V c) (aVl V c) (((cfg1.win 3).blk t).view.emb (ix3 z a d))
  have hq : (fun s x => shapeCast S128x64 (iblk1 V c 0 t) shapeCasts_S1x128x64_S128x64 (ix2 s x))
      = fun s x => aQ V c (ix3 ⟨t.val, ht⟩ s x) :=
    funext fun s => funext fun x => (mat_of_blk _ _ s x).trans (blk1_0 V c t ht _ s x)
  have hk : (fun s x => shapeCast S128x64 (iblk1 V c 1 t) shapeCasts_S1x128x64_S128x64 (ix2 s x))
      = fun s x => aK V c (ix3 ⟨t.val, ht⟩ s x) :=
    funext fun s => funext fun x => (mat_of_blk _ _ s x).trans (blk1_1 V c t ht _ s x)
  have hv : (fun s x => shapeCast S128x64 (iblk1 V c 2 t) shapeCasts_S1x128x64_S128x64 (ix2 s x))
      = fun s x => aVl V c (ix3 ⟨t.val, ht⟩ s x) :=
    funext fun s => funext fun x => (mat_of_blk _ _ s x).trans (blk1_2 V c t ht _ s x)
  rw [e, attW3_at, blk_of_mat, headR_at, hq, hk, hv]

/-- An index of the result array is in point t's block iff each coordinate is in the block's range. -/
theorem mem_blk1 (t : Fin cfg1.N) (i : S192x128x64.Idx) :
    i ∈ ((cfg1.win 3).blk t).view.set ↔ ∀ a : Fin 3, win1_3.index t a * S1x128x64.size a ≤ (i a).val ∧ (i a).val < win1_3.index t a * S1x128x64.size a + S1x128x64.size a := by
  show i ∈ ((View.whole main_v11).slice (win1_3.rect t)).set ↔ _
  rw [View.set_slice_whole, Rect.mem_set_unit]
  exact Iff.rfl

/-- Every index of the result array is in some point's block: slab n is written by point n. -/
theorem cover1 (i : S192x128x64.Idx) : ∃ t : Fin cfg1.N, (cfg1.win 3).flush t = true ∧ i ∈ ((cfg1.win 3).blk t).view.set := by
  have hi0 : (i 0).val < 192 := (i 0).isLt
  have hi1 : (i 1).val < 128 := (i 1).isLt
  have hi2 : (i 2).val < 64 := (i 2).isLt
  obtain ⟨t, htv⟩ : ∃ t : Fin cfg1.N, t.val = (i 0).val := ⟨⟨(i 0).val, hi0⟩, rfl⟩
  obtain ⟨-, -, -, -, -, -, -, -, -, q0, q1, q2, -⟩ := idx_facts1 t
  refine ⟨t, flush1_3 t, ?_⟩
  rw [mem_blk1]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 128 ≤ (i 1).val ∧ (i 1).val < win1_3.index t (1 : Fin 3) * 128 + 128; omega
  | ⟨2, _⟩ => show win1_3.index t (2 : Fin 3) * 64 ≤ (i 2).val ∧ (i 2).val < win1_3.index t (2 : Fin 3) * 64 + 64; omega

/-- The result array after the region: the slab-by-slab attention of the query, key and value arrays. -/
theorem final1 (c : Dev nD) : (dat1 V c).arrAt 3 cfg1.N
    = attW3 (V c main_v8 : Arr3 192 128 64) (V c main_v9 : Arr3 192 128 64) (V c main_v10 : Arr3 192 128 64) :=
  (dat1 V c).arrAt_eq_of_cover 3 _ (fun t _ => flushed1 V c t) cover1

end Cert.ReferenceIdeal.Hand

end
-- ==== Proof.RefHeads.lean ====
/-
  The host's re-layout of the projection into per-head query, key and value arrays.

  The projection QKV is a 2048 x 2304 matrix: row 128·b + a belongs to batch element b, and columns 192·h … 192·h + 191 to head h,
  the first 64 of them the query, the next 64 the key, the last 64 the value. The host regroups the matrix as
  [16, 128, 12, 192], swaps the two middle axes, cuts 64 columns at offset 0, 64 or 128, and regroups the result as
  [192, 128, 64]. Each step is read at an entry by the position it keeps or the coordinates it permutes or shifts, so
  slab n = 12·b + h of each of the three arrays is the query, key or value matrix of batch element b and head h; and the
  slab-by-slab attention of the three arrays is, head by head, the attention of the layer.
-/
import Idealize.ShloMosaic.Lib.ValueIdx
import Idealize.ShloMosaic.Lib.Pipeline.Value
import proofs.«143729_g2000604737890889_pallaspilot1_168_5_alg».proof.ReferenceIdeal
import proofs.«143729_g2000604737890889_pallaspilot1_168_5_alg».proof.Proof.Spec

noncomputable section

open scoped BigOperators

namespace Cert.Hand.RefHeads

open Idealize.ShloMosaic Idealize.ShloMosaic.ValueIdx Cert.Hand.Layers Cert.Hand.Spec Cert.Hand.Attn
open Cert.ReferenceIdeal Cert.ReferenceIdeal.Facts₀ Cert.ReferenceIdeal.Facts

variable [Cert.ReferenceIdeal.Facts]

/-- The 64 columns at offset `off` of every head, regrouped slab by slab. -/
def partAt (off : Nat) (hs : S16x12x128x192.Slices ![0, 0, 0, off] S16x12x128x64) (QKV : Mat 2048 2304) : Arr3 192 128 64 :=
  shapeCast S192x128x64
    (extractStridedSlice S16x12x128x64 ![0, 0, 0, off]
      (transpose S16x12x128x192 [0, 2, 1, 3] (shapeCast S16x128x12x192 QKV shapeCasts_S2048x2304_S16x128x12x192)
        transposes_S16x128x12x192_S16x12x128x192_0_2_1_3) hs)
    shapeCasts_S16x12x128x64_S192x128x64

/-- The query array. -/
def part0 (QKV : Mat 2048 2304) : Arr3 192 128 64 := partAt 0 slices_S16x12x128x192_S16x12x128x64_0_0_0_0 QKV
/-- The key array. -/
def part1 (QKV : Mat 2048 2304) : Arr3 192 128 64 := partAt 64 slices_S16x12x128x192_S16x12x128x64_0_0_0_64 QKV
/-- The value array. -/
def part2 (QKV : Mat 2048 2304) : Arr3 192 128 64 := partAt 128 slices_S16x12x128x192_S16x12x128x64_0_0_0_128 QKV

/-- Entry (n, a, x) of the regrouped cut: row 128·(n / 12) + a, column 192·(n mod 12) + off + x of the projection. -/
theorem partAt_at (off : Nat) (hoff : off + 64 ≤ 192) (hs : S16x12x128x192.Slices ![0, 0, 0, off] S16x12x128x64)
    (QKV : Mat 2048 2304) (n : Fin 192) (a : Fin 128) (x : Fin 64) :
    partAt off hs QKV (ix3 n a x)
      = QKV (ix2 ⟨n.val / 12 * 128 + a.val, by have := n.isLt; have := a.isLt; omega⟩
          ⟨192 * (n.val % 12) + off + x.val, by have := x.isLt; have := Nat.mod_lt n.val (by decide : 0 < 12); omega⟩) := by
  have hn := n.isLt
  have ha := a.isLt
  have hx := x.isLt
  have hm : n.val % 12 < 12 := Nat.mod_lt _ (by decide)
  have hb : n.val / 12 < 16 := by omega
  have hy : off + x.val < 192 := by omega
  unfold partAt
  -- the last regrouping keeps the row-major position
  refine (shapeCast_apply _ shapeCasts_S16x12x128x64_S192x128x64 (ix3 n a x)
    (ix4 (n0 := 16) (n1 := 12) (n2 := 128) (n3 := 64) ⟨n.val / 12, hb⟩ ⟨n.val % 12, hm⟩ a x) (by
      rw [Shape.rowMajor_val_four, Shape.rowMajor_val_three]
      show ((n.val / 12 * 12 + n.val % 12) * 128 + a.val) * 64 + x.val = (n.val * 128 + a.val) * 64 + x.val
      omega)).trans ?_
  -- the cut shifts the last coordinate
  refine (extractStridedSlice_apply ![0, 0, 0, off] _ hs _
    (ix4 (n0 := 16) (n1 := 12) (n2 := 128) (n3 := 192) ⟨n.val / 12, hb⟩ ⟨n.val % 12, hm⟩ a ⟨off + x.val, hy⟩) (fun i => by
      match i with
      | ⟨0, _⟩ => show n.val / 12 = 0 + n.val / 12; omega
      | ⟨1, _⟩ => show n.val % 12 = 0 + n.val % 12; omega
      | ⟨2, _⟩ => show a.val = 0 + a.val; omega
      | ⟨3, _⟩ => rfl)).trans ?_
  -- the swap of the two middle axes
  refine (transpose_apply [0, 2, 1, 3] _ transposes_S16x128x12x192_S16x12x128x192_0_2_1_3 _
    (ix4 (n0 := 16) (n1 := 128) (n2 := 12) (n3 := 192) ⟨n.val / 12, hb⟩ a ⟨n.val % 12, hm⟩ ⟨off + x.val, hy⟩) (fun i => by
      match i with
      | ⟨0, _⟩ => rfl
      | ⟨1, _⟩ => rfl
      | ⟨2, _⟩ => rfl
      | ⟨3, _⟩ => rfl)).trans ?_
  -- the first regrouping keeps the row-major position
  exact shapeCast_apply QKV shapeCasts_S2048x2304_S16x128x12x192 _ _ (by
    rw [Shape.rowMajor_val_two, Shape.rowMajor_val_four]
    show (n.val / 12 * 128 + a.val) * 2304 + (192 * (n.val % 12) + off + x.val)
      = (((n.val / 12) * 128 + a.val) * 12 + n.val % 12) * 192 + (off + x.val)
    omega)

/-- Slab n of the query array is the query matrix of batch element n / 12 and head n mod 12. -/
theorem part0_at (QKV : Mat 2048 2304) (n : Fin 192) (a : Fin 128) (x : Fin 64) :
    part0 QKV (ix3 n a x)
      = headOf QKV ⟨n.val / 12, by have := n.isLt; omega⟩ ⟨n.val % 12, Nat.mod_lt _ (by decide)⟩ 0 a x :=
  (partAt_at 0 (by decide) _ QKV n a x).trans (congrArg (fun c => QKV (ix2 _ c)) (Fin.ext (by
    show 192 * (n.val % 12) + 0 + x.val = 192 * (n.val % 12) + 64 * 0 + x.val
    omega)))

/-- Slab n of the key array is the key matrix of batch element n / 12 and head n mod 12. -/
theorem part1_at (QKV : Mat 2048 2304) (n : Fin 192) (a : Fin 128) (x : Fin 64) :
    part1 QKV (ix3 n a x)
      = headOf QKV ⟨n.val / 12, by have := n.isLt; omega⟩ ⟨n.val % 12, Nat.mod_lt _ (by decide)⟩ 1 a x :=
  (partAt_at 64 (by decide) _ QKV n a x).trans (congrArg (fun c => QKV (ix2 _ c)) (Fin.ext (by
    show 192 * (n.val % 12) + 64 + x.val = 192 * (n.val % 12) + 64 * 1 + x.val
    omega)))

/-- Slab n of the value array is the value matrix of batch element n / 12 and head n mod 12. -/
theorem part2_at (QKV : Mat 2048 2304) (n : Fin 192) (a : Fin 128) (x : Fin 64) :
    part2 QKV (ix3 n a x)
      = headOf QKV ⟨n.val / 12, by have := n.isLt; omega⟩ ⟨n.val % 12, Nat.mod_lt _ (by decide)⟩ 2 a x :=
  (partAt_at 128 (by decide) _ QKV n a x).trans (congrArg (fun c => QKV (ix2 _ c)) (Fin.ext (by
    show 192 * (n.val % 12) + 128 + x.val = 192 * (n.val % 12) + 64 * 2 + x.val
    omega)))

/-- The slab-by-slab attention of the three re-laid-out arrays is the layer's attention, head by head. -/
theorem ref_heads (QKV : Mat 2048 2304) : attW3 (part0 QKV) (part1 QKV) (part2 QKV) = rattW QKV := by
  funext i
  obtain ⟨n, a, d, rfl⟩ : ∃ (n : Fin 192) (a : Fin 128) (d : Fin 64), i = ix3 n a d := ⟨i 0, i 1, i 2, eq_ix3 i⟩
  rw [attW3_at, rattW_at]
  unfold headOut
  have h0 : (fun s x => part0 QKV (ix3 n s x))
      = headOf QKV ⟨n.val / 12, by have := n.isLt; omega⟩ ⟨n.val % 12, Nat.mod_lt _ (by decide)⟩ 0 :=
    funext fun s => funext fun x => part0_at QKV n s x
  have h1 : (fun s x => part1 QKV (ix3 n s x))
      = headOf QKV ⟨n.val / 12, by have := n.isLt; omega⟩ ⟨n.val % 12, Nat.mod_lt _ (by decide)⟩ 1 :=
    funext fun s => funext fun x => part1_at QKV n s x
  have h2 : (fun s x => part2 QKV (ix3 n s x))
      = headOf QKV ⟨n.val / 12, by have := n.isLt; omega⟩ ⟨n.val % 12, Nat.mod_lt _ (by decide)⟩ 2 :=
    funext fun s => funext fun x => part2_at QKV n s x
  rw [h0, h1, h2]

end Cert.Hand.RefHeads

end
-- ==== Proof.RefLin2.lean ====
/-
  The reference's attention output projection, as its region leaves it: the product of the rows of the attention
  result with the projection matrix plus its bias row, computed 1024 rows at a time.  Point t of the grid reads rows
  1024·t … 1024·t + 1023 of the input and writes the same rows of the result; the matrix and the bias row are read whole
  at every point.  So the result array after the region is the dense layer of the whole input array.
-/
import proofs.«143729_g2000604737890889_pallaspilot1_168_5_alg».proof.Proof.Gen.ReferenceIdeal.Frame
import proofs.«143729_g2000604737890889_pallaspilot1_168_5_alg».proof.Proof.Layers

set_option maxRecDepth 16384

noncomputable section

open scoped BigOperators

namespace Cert.ReferenceIdeal.Hand

open Idealize.ShloMosaic Idealize.ShloMosaic.TcCoe Idealize.ShloMosaic.ValueIdx Idealize.ShloMosaic.Pipeline
open Cert.ReferenceIdeal Cert.ReferenceIdeal.Gen Cert.Hand.Layers Cert.Lib.DenseLayer

variable (V : (c : Dev nD) → (b : Ref sig .tc) → Buf (Elt Ideal) ((c : Thread nD τ).loc b))

/-- The region's arrays as the region finds them, as matrices. -/
abbrev aX2 (c : Dev nD) : Mat 2048 768 := V c main_v13
abbrev aW2 (c : Dev nD) : Mat 768 768 := V c main_arg3
abbrev aB2 (c : Dev nD) : Mat 1 768 := V c main_v14

theorem zero2_2 : (![0, 0] : Fin 2 → Nat) = fun _ => 0 := funext fun a => by fin_cases a <;> rfl

/-- The product's record is the plain one. -/
theorem plain2 : Plain dot_S1024x768_S768x768_S1024x768_1_0_0_1_n_n := Plain.of_fields _ rfl rfl rfl rfl rfl rfl

/-- The body's result is the layer's chain of the loaded blocks. -/
theorem out2_3_eq (x0 : Vec Ideal S1024x768 .f32) (x1 : Vec Ideal S768x768 .f32) (x2 : Vec Ideal S1x768 .f32) :
    out2_3 (F := Ideal) x0 x1 x2 = linBlk (F := Ideal) (φ₁ := .f32) (φ₂ := .f32) dot_S1024x768_S768x768_S1024x768_1_0_0_1_n_n broadcasts_S1x768_S1024x768 x0 x1 x2 := by
  unfold out2_3
  rw [View.canon_unit_zero zero2_2]
  simp only [View.ld_unit_zero (S := S1024x768) zero2_2, View.ld_unit_zero (S := S768x768) zero2_2, View.ld_unit_zero (S := S1x768) zero2_2]
  unfold k2_pay1
  simp only [shapeCast_self]
  rfl

/-- The index maps, decided over the grid: the row-tiled windows sit at block row t, the others at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 2 :=
  (by decide +kernel : ∀ t : Fin grid2.N, _)

/-- The input block at point t is the block of rows of the input array from row 1024·t. -/
theorem blk2_0 (c : Dev nD) (t : Fin cfg2.N) : RowBlk (t.val * 1024) (iblk2 V c 0 t : Mat 1024 768) (aX2 V c) := fun r hr k => by
  obtain ⟨e0, e1, -⟩ := idx_facts2 t
  show V c main_v13 (((cfg2.win 0).blk t).view.emb (ix2 r k)) = V c main_v13 (ix2 ⟨t.val * 1024 + r.val, hr⟩ k)
  refine congrArg (V c main_v13) (funext fun a => Fin.ext ?_)
  match a with
  | ⟨0, _⟩ => show win2_0.index t (0 : Fin 2) * 1024 + 1 * r.val = t.val * 1024 + r.val; omega
  | ⟨1, _⟩ => show win2_0.index t (1 : Fin 2) * 768 + 1 * k.val = k.val; omega

/-- The weight matrix is read whole at every point. -/
theorem blk2_1 (c : Dev nD) (t : Fin cfg2.N) : (iblk2 V c 1 t : Mat 768 768) = aW2 V c := by
  obtain ⟨-, -, e0, e1, -⟩ := idx_facts2 t
  funext y
  show V c main_arg3 (((cfg2.win 1).blk t).view.emb y) = V c main_arg3 y
  refine congrArg (V c main_arg3) (funext fun a => Fin.ext ?_)
  match a with
  | ⟨0, _⟩ => show win2_1.index t (0 : Fin 2) * 768 + 1 * (y 0).val = (y 0).val; omega
  | ⟨1, _⟩ => show win2_1.index t (1 : Fin 2) * 768 + 1 * (y 1).val = (y 1).val; omega

/-- The bias row is read whole at every point. -/
theorem blk2_2 (c : Dev nD) (t : Fin cfg2.N) : (iblk2 V c 2 t : Mat 1 768) = aB2 V c := by
  obtain ⟨-, -, -, -, e0, e1, -⟩ := idx_facts2 t
  funext y
  show V c main_v14 (((cfg2.win 2).blk t).view.emb y) = V c main_v14 y
  refine congrArg (V c main_v14) (funext fun a => Fin.ext ?_)
  match a with
  | ⟨0, _⟩ => show win2_2.index t (0 : Fin 2) * 1 + 1 * (y 0).val = (y 0).val; omega
  | ⟨1, _⟩ => show win2_2.index t (1 : Fin 2) * 768 + 1 * (y 1).val = (y 1).val; omega

/-- What point t writes back is block t of the layer of the whole input array. -/
theorem flushed2 (c : Dev nD) (t : Fin cfg2.N) :
    (dat2 V c).flushed 3 t = ((cfg2.win 3).blk t).view.read (Elt Ideal) (linW (aX2 V c) (aW2 V c) (aB2 V c)) := by
  show (cfg2.win 3).cut (grid2.coords t) ((dat2 V c).after 3 t) = _
  rw [after2_3, out2_3_eq, blk2_1, blk2_2]
  obtain ⟨-, -, -, -, -, -, e0, e1, ht⟩ := idx_facts2 t
  funext j
  obtain ⟨p, q, rfl⟩ : ∃ (p : Fin 1024) (q : Fin 768), j = ix2 p q := ⟨j 0, j 1, eq_ix2 j⟩
  have hr : t.val * 1024 + p.val < 2048 := by have := p.isLt; omega
  have e : ((cfg2.win 3).blk t).view.emb (ix2 p q) = ix2 (n0 := 2048) (n1 := 768) ⟨t.val * 1024 + p.val, hr⟩ q :=
    funext fun a => Fin.ext (by
      match a with
      | ⟨0, _⟩ => show win2_3.index t (0 : Fin 2) * 1024 + 1 * p.val = t.val * 1024 + p.val; omega
      | ⟨1, _⟩ => show win2_3.index t (1 : Fin 2) * 768 + 1 * q.val = q.val; omega)
  show linBlk (F := Ideal) (φ₁ := .f32) (φ₂ := .f32) dot_S1024x768_S768x768_S1024x768_1_0_0_1_n_n broadcasts_S1x768_S1024x768 (iblk2 V c 0 t) (aW2 V c) (aB2 V c) (ix2 p q)
    = (linW (aX2 V c) (aW2 V c) (aB2 V c)) (((cfg2.win 3).blk t).view.emb (ix2 p q))
  rw [e]
  exact RowBlk.lin plain2 broadcasts_S1x768_S1024x768 (blk2_0 V c t) (aW2 V c) (aB2 V c) p hr q

/-- An index of the result array is in point t's block iff each coordinate is in the block's range. -/
theorem mem_blk2 (t : Fin cfg2.N) (i : S2048x768.Idx) :
    i ∈ ((cfg2.win 3).blk t).view.set ↔ ∀ a : Fin 2, win2_3.index t a * S1024x768.size a ≤ (i a).val ∧ (i a).val < win2_3.index t a * S1024x768.size a + S1024x768.size a := by
  show i ∈ ((View.whole main_v15).slice (win2_3.rect t)).set ↔ _
  rw [View.set_slice_whole, Rect.mem_set_unit]
  exact Iff.rfl

theorem idx_onto2 : ∀ q0 : Fin 2, ∃ t : Fin cfg2.N, win2_3.index t = ![q0.val, 0] :=
  (by decide +kernel : ∀ q0 : Fin 2, ∃ t : Fin grid2.N, win2_3.index t = ![q0.val, 0])

/-- Every index of the result array is in some point's block. -/
theorem cover2 (i : S2048x768.Idx) : ∃ t : Fin cfg2.N, (cfg2.win 3).flush t = true ∧ i ∈ ((cfg2.win 3).blk t).view.set := by
  have hi0 : (i 0).val < 2048 := (i 0).isLt
  have hi1 : (i 1).val < 768 := (i 1).isLt
  obtain ⟨t, ht⟩ := idx_onto2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 768 ≤ (i 1).val ∧ (i 1).val < win2_3.index t (1 : Fin 2) * 768 + 768; omega

/-- The result array after the region: the layer of the whole input array. -/
theorem final2 (c : Dev nD) : (dat2 V c).arrAt 3 cfg2.N = linW (aX2 V c) (aW2 V c) (aB2 V c) :=
  (dat2 V c).arrAt_eq_of_cover 3 _ (fun t _ => flushed2 V c t) cover2

end Cert.ReferenceIdeal.Hand

end
-- ==== Proof.RefLn3.lean ====
/-
  The reference's first residual sum and layer normalisation, as its region leaves it: every row of the sum of the two
  input arrays normalised by its own mean and variance, scaled and shifted column by column, computed 1024 rows at a time.
  Point t of the grid reads rows 1024·t … 1024·t + 1023 of both inputs and writes the same rows of the result; the scale
  and shift rows are read whole at every point.  So the result array after the region is the normalisation of the sum of
  the two whole input arrays.
-/
import proofs.«143729_g2000604737890889_pallaspilot1_168_5_alg».proof.Proof.Gen.ReferenceIdeal.Frame
import proofs.«143729_g2000604737890889_pallaspilot1_168_5_alg».proof.Proof.Layers

set_option maxRecDepth 16384

noncomputable section

open scoped BigOperators

namespace Cert.ReferenceIdeal.Hand

open Idealize.ShloMosaic Idealize.ShloMosaic.TcCoe Idealize.ShloMosaic.ValueIdx Idealize.ShloMosaic.Pipeline
open Cert.ReferenceIdeal Cert.ReferenceIdeal.Gen Cert.Hand.Layers Cert.Lib.DenseLayer

variable (V : (c : Dev nD) → (b : Ref sig .tc) → Buf (Elt Ideal) ((c : Thread nD τ).loc b))

/-- The region's arrays as the region finds them, as matrices. -/
abbrev aX3 (c : Dev nD) : Mat 2048 768 := V c main_v15
abbrev aR3 (c : Dev nD) : Mat 2048 768 := V c main_v0
abbrev aG3 (c : Dev nD) : Mat 1 768 := V c main_v16
abbrev aBt3 (c : Dev nD) : Mat 1 768 := V c main_v17

theorem zero2_3 : (![0, 0] : Fin 2 → Nat) = fun _ => 0 := funext fun a => by fin_cases a <;> rfl

/-- The body's result is the normalisation's chain of the sum of the two loaded blocks of rows. -/
theorem out3_4_eq (x0 x1 : Vec Ideal S1024x768 .f32) (x2 x3 : Vec Ideal S1x768 .f32) :
    out3_4 (F := Ideal) x0 x1 x2 x3 = lnBlk (F := Ideal) reduces_S1024x768_S1024 shapeCasts_S1024_S1024x1 broadcasts_S1024x1_S1024x768 broadcasts_S1x768_S1024x768 (addf x0 x1) x2 x3 := by
  unfold out3_4
  rw [View.canon_unit_zero zero2_3]
  simp only [View.ld_unit_zero (S := S1024x768) zero2_3, View.ld_unit_zero (S := S1x768) zero2_3]
  unfold k3_pay1
  simp only [shapeCast_self]
  rfl

/-- The index maps, decided over the grid: the row-tiled windows sit at block row t, the others at block (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 2 :=
  (by decide +kernel : ∀ t : Fin grid3.N, _)

/-- The input block at point t is the block of rows of its array from row 1024·t. -/
theorem blk3_0 (c : Dev nD) (t : Fin cfg3.N) : RowBlk (t.val * 1024) (iblk3 V c 0 t : Mat 1024 768) (aX3 V c) := fun r hr k => by
  obtain ⟨e0, e1, e2, e3, -⟩ := idx_facts3 t
  show V c main_v15 (((cfg3.win 0).blk t).view.emb (ix2 r k)) = V c main_v15 (ix2 ⟨t.val * 1024 + r.val, hr⟩ k)
  refine congrArg (V c main_v15) (funext fun a => Fin.ext ?_)
  match a with
  | ⟨0, _⟩ => show win3_0.index t (0 : Fin 2) * 1024 + 1 * r.val = t.val * 1024 + r.val; omega
  | ⟨1, _⟩ => show win3_0.index t (1 : Fin 2) * 768 + 1 * k.val = k.val; omega

/-- The residual block at point t is the block of rows of its array from row 1024·t. -/
theorem blk3_1 (c : Dev nD) (t : Fin cfg3.N) : RowBlk (t.val * 1024) (iblk3 V c 1 t : Mat 1024 768) (aR3 V c) := fun r hr k => by
  obtain ⟨e0, e1, e2, e3, -⟩ := idx_facts3 t
  show V c main_v0 (((cfg3.win 1).blk t).view.emb (ix2 r k)) = V c main_v0 (ix2 ⟨t.val * 1024 + r.val, hr⟩ k)
  refine congrArg (V c main_v0) (funext fun a => Fin.ext ?_)
  match a with
  | ⟨0, _⟩ => show win3_1.index t (0 : Fin 2) * 1024 + 1 * r.val = t.val * 1024 + r.val; omega
  | ⟨1, _⟩ => show win3_1.index t (1 : Fin 2) * 768 + 1 * k.val = k.val; omega

/-- The scale row is read whole at every point. -/
theorem blk3_2 (c : Dev nD) (t : Fin cfg3.N) : (iblk3 V c 2 t : Mat 1 768) = aG3 V c := by
  obtain ⟨-, -, -, -, e0, e1, e2, e3, -⟩ := idx_facts3 t
  funext y
  show V c main_v16 (((cfg3.win 2).blk t).view.emb y) = V c main_v16 y
  refine congrArg (V c main_v16) (funext fun a => Fin.ext ?_)
  match a with
  | ⟨0, _⟩ => show win3_2.index t (0 : Fin 2) * 1 + 1 * (y 0).val = (y 0).val; omega
  | ⟨1, _⟩ => show win3_2.index t (1 : Fin 2) * 768 + 1 * (y 1).val = (y 1).val; omega

/-- The shift row is read whole at every point. -/
theorem blk3_3 (c : Dev nD) (t : Fin cfg3.N) : (iblk3 V c 3 t : Mat 1 768) = aBt3 V c := by
  obtain ⟨-, -, -, -, e0, e1, e2, e3, -⟩ := idx_facts3 t
  funext y
  show V c main_v17 (((cfg3.win 3).blk t).view.emb y) = V c main_v17 y
  refine congrArg (V c main_v17) (funext fun a => Fin.ext ?_)
  match a with
  | ⟨0, _⟩ => show win3_3.index t (0 : Fin 2) * 1 + 1 * (y 0).val = (y 0).val; omega
  | ⟨1, _⟩ => show win3_3.index t (1 : Fin 2) * 768 + 1 * (y 1).val = (y 1).val; omega

/-- What point t writes back is block t of the normalisation of the sum of the two whole arrays. -/
theorem flushed3 (c : Dev nD) (t : Fin cfg3.N) :
    (dat3 V c).flushed 4 t = ((cfg3.win 4).blk t).view.read (Elt Ideal) (lnW (addW (aX3 V c) (aR3 V c)) (aG3 V c) (aBt3 V c)) := by
  show (cfg3.win 4).cut (grid3.coords t) ((dat3 V c).after 4 t) = _
  rw [after3_4, out3_4_eq, blk3_2, blk3_3]
  obtain ⟨-, -, -, -, -, -, -, -, e0, e1, ht⟩ := idx_facts3 t
  funext j
  obtain ⟨p, q, rfl⟩ : ∃ (p : Fin 1024) (q : Fin 768), j = ix2 p q := ⟨j 0, j 1, eq_ix2 j⟩
  have hr : t.val * 1024 + p.val < 2048 := by have := p.isLt; omega
  have e : ((cfg3.win 4).blk t).view.emb (ix2 p q) = ix2 (n0 := 2048) (n1 := 768) ⟨t.val * 1024 + p.val, hr⟩ q :=
    funext fun a => Fin.ext (by
      match a with
      | ⟨0, _⟩ => show win3_4.index t (0 : Fin 2) * 1024 + 1 * p.val = t.val * 1024 + p.val; omega
      | ⟨1, _⟩ => show win3_4.index t (1 : Fin 2) * 768 + 1 * q.val = q.val; omega)
  show lnBlk (F := Ideal) reduces_S1024x768_S1024 shapeCasts_S1024_S1024x1 broadcasts_S1024x1_S1024x768 broadcasts_S1x768_S1024x768 (addf (iblk3 V c 0 t) (iblk3 V c 1 t)) (aG3 V c) (aBt3 V c) (ix2 p q)
    = (lnW (addW (aX3 V c) (aR3 V c)) (aG3 V c) (aBt3 V c)) (((cfg3.win 4).blk t).view.emb (ix2 p q))
  rw [e]
  exact RowBlk.ln reduces_S1024x768_S1024 shapeCasts_S1024_S1024x1 broadcasts_S1024x1_S1024x768 broadcasts_S1x768_S1024x768 (RowBlk.addW (blk3_0 V c t) (blk3_1 V c t)) (aG3 V c) (aBt3 V c) p hr q

/-- An index of the result array is in point t's block iff each coordinate is in the block's range. -/
theorem mem_blk3 (t : Fin cfg3.N) (i : S2048x768.Idx) :
    i ∈ ((cfg3.win 4).blk t).view.set ↔ ∀ a : Fin 2, win3_4.index t a * S1024x768.size a ≤ (i a).val ∧ (i a).val < win3_4.index t a * S1024x768.size a + S1024x768.size a := by
  show i ∈ ((View.whole main_v18).slice (win3_4.rect t)).set ↔ _
  rw [View.set_slice_whole, Rect.mem_set_unit]
  exact Iff.rfl

theorem idx_onto3 : ∀ q0 : Fin 2, ∃ t : Fin cfg3.N, win3_4.index t = ![q0.val, 0] :=
  (by decide +kernel : ∀ q0 : Fin 2, ∃ t : Fin grid3.N, win3_4.index t = ![q0.val, 0])

/-- Every index of the result array is in some point's block. -/
theorem cover3 (i : S2048x768.Idx) : ∃ t : Fin cfg3.N, (cfg3.win 4).flush t = true ∧ i ∈ ((cfg3.win 4).blk t).view.set := by
  have hi0 : (i 0).val < 2048 := (i 0).isLt
  have hi1 : (i 1).val < 768 := (i 1).isLt
  obtain ⟨t, ht⟩ := idx_onto3 ⟨(i 0).val / 1024, by omega⟩
  have q0 : win3_4.index t (0 : Fin 2) = (i 0).val / 1024 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 1024 ≤ (i 0).val ∧ (i 0).val < win3_4.index t (0 : Fin 2) * 1024 + 1024; omega
  | ⟨1, _⟩ => show win3_4.index t (1 : Fin 2) * 768 ≤ (i 1).val ∧ (i 1).val < win3_4.index t (1 : Fin 2) * 768 + 768; omega

/-- The result array after the region: the normalisation of the sum of the two whole arrays. -/
theorem final3 (c : Dev nD) : (dat3 V c).arrAt 4 cfg3.N = lnW (addW (aX3 V c) (aR3 V c)) (aG3 V c) (aBt3 V c) :=
  (dat3 V c).arrAt_eq_of_cover 4 _ (fun t _ => flushed3 V c t) cover3

end Cert.ReferenceIdeal.Hand

end
-- ==== Proof.RefLin4.lean ====
/-
  The reference's first feed-forward layer, as its region leaves it: the rectifier of the product of the input rows with
  the weight matrix plus its bias row, computed 256 rows at a time.  Point t of the grid reads rows 256·t … 256·t + 255 of
  the input and writes the same rows of the result; the weight matrix and the bias row are read whole at every point.  So
  the result array after the region is the rectified dense layer of the whole input array.
-/
import proofs.«143729_g2000604737890889_pallaspilot1_168_5_alg».proof.Proof.Gen.ReferenceIdeal.Frame
import proofs.«143729_g2000604737890889_pallaspilot1_168_5_alg».proof.Proof.Layers

set_option maxRecDepth 16384

noncomputable section

open scoped BigOperators

namespace Cert.ReferenceIdeal.Hand

open Idealize.ShloMosaic Idealize.ShloMosaic.TcCoe Idealize.ShloMosaic.ValueIdx Idealize.ShloMosaic.Pipeline
open Cert.ReferenceIdeal Cert.ReferenceIdeal.Gen Cert.Hand.Layers Cert.Lib.DenseLayer

variable (V : (c : Dev nD) → (b : Ref sig .tc) → Buf (Elt Ideal) ((c : Thread nD τ).loc b))

/-- The region's arrays as the region finds them, as matrices. -/
abbrev aX4 (c : Dev nD) : Mat 2048 768 := V c main_v18
abbrev aW4 (c : Dev nD) : Mat 768 3072 := V c main_arg5
abbrev aB4 (c : Dev nD) : Mat 1 3072 := V c main_v19

theorem zero2_4 : (![0, 0] : Fin 2 → Nat) = fun _ => 0 := funext fun a => by fin_cases a <;> rfl

/-- The product's record is the plain one. -/
theorem plain4 : Plain dot_S256x768_S768x3072_S256x3072_1_0_0_1_n_n := Plain.of_fields _ rfl rfl rfl rfl rfl rfl

/-- The body's result is the layer's chain of the loaded blocks. -/
theorem out4_3_eq (x0 : Vec Ideal S256x768 .f32) (x1 : Vec Ideal S768x3072 .f32) (x2 : Vec Ideal S1x3072 .f32) :
    out4_3 (F := Ideal) x0 x1 x2 = reluBlk (F := Ideal) (linBlk (F := Ideal) (φ₁ := .f32) (φ₂ := .f32) dot_S256x768_S768x3072_S256x3072_1_0_0_1_n_n broadcasts_S1x3072_S256x3072 x0 x1 x2) := by
  unfold out4_3
  rw [View.canon_unit_zero zero2_4]
  simp only [View.ld_unit_zero (S := S256x768) zero2_4, View.ld_unit_zero (S := S768x3072) zero2_4, View.ld_unit_zero (S := S1x3072) zero2_4]
  unfold k4_pay1
  simp only [shapeCast_self]
  rfl

/-- The index maps, decided over the grid: the row-tiled windows sit at block row t, the others at block (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 8 :=
  (by decide +kernel : ∀ t : Fin grid4.N, _)

/-- The input block at point t is the block of rows of the input array from row 256·t. -/
theorem blk4_0 (c : Dev nD) (t : Fin cfg4.N) : RowBlk (t.val * 256) (iblk4 V c 0 t : Mat 256 768) (aX4 V c) := fun r hr k => by
  obtain ⟨e0, e1, -⟩ := idx_facts4 t
  show V c main_v18 (((cfg4.win 0).blk t).view.emb (ix2 r k)) = V c main_v18 (ix2 ⟨t.val * 256 + r.val, hr⟩ k)
  refine congrArg (V c main_v18) (funext fun a => Fin.ext ?_)
  match a with
  | ⟨0, _⟩ => show win4_0.index t (0 : Fin 2) * 256 + 1 * r.val = t.val * 256 + r.val; omega
  | ⟨1, _⟩ => show win4_0.index t (1 : Fin 2) * 768 + 1 * k.val = k.val; omega

/-- The weight matrix is read whole at every point. -/
theorem blk4_1 (c : Dev nD) (t : Fin cfg4.N) : (iblk4 V c 1 t : Mat 768 3072) = aW4 V c := by
  obtain ⟨-, -, e0, e1, -⟩ := idx_facts4 t
  funext y
  show V c main_arg5 (((cfg4.win 1).blk t).view.emb y) = V c main_arg5 y
  refine congrArg (V c main_arg5) (funext fun a => Fin.ext ?_)
  match a with
  | ⟨0, _⟩ => show win4_1.index t (0 : Fin 2) * 768 + 1 * (y 0).val = (y 0).val; omega
  | ⟨1, _⟩ => show win4_1.index t (1 : Fin 2) * 3072 + 1 * (y 1).val = (y 1).val; omega

/-- The bias row is read whole at every point. -/
theorem blk4_2 (c : Dev nD) (t : Fin cfg4.N) : (iblk4 V c 2 t : Mat 1 3072) = aB4 V c := by
  obtain ⟨-, -, -, -, e0, e1, -⟩ := idx_facts4 t
  funext y
  show V c main_v19 (((cfg4.win 2).blk t).view.emb y) = V c main_v19 y
  refine congrArg (V c main_v19) (funext fun a => Fin.ext ?_)
  match a with
  | ⟨0, _⟩ => show win4_2.index t (0 : Fin 2) * 1 + 1 * (y 0).val = (y 0).val; omega
  | ⟨1, _⟩ => show win4_2.index t (1 : Fin 2) * 3072 + 1 * (y 1).val = (y 1).val; omega

/-- What point t writes back is block t of the layer of the whole input array. -/
theorem flushed4 (c : Dev nD) (t : Fin cfg4.N) :
    (dat4 V c).flushed 3 t = ((cfg4.win 3).blk t).view.read (Elt Ideal) (reluW (linW (aX4 V c) (aW4 V c) (aB4 V c))) := by
  show (cfg4.win 3).cut (grid4.coords t) ((dat4 V c).after 3 t) = _
  rw [after4_3, out4_3_eq, blk4_1, blk4_2]
  obtain ⟨-, -, -, -, -, -, e0, e1, ht⟩ := idx_facts4 t
  funext j
  obtain ⟨p, q, rfl⟩ : ∃ (p : Fin 256) (q : Fin 3072), j = ix2 p q := ⟨j 0, j 1, eq_ix2 j⟩
  have hr : t.val * 256 + p.val < 2048 := by have := p.isLt; omega
  have e : ((cfg4.win 3).blk t).view.emb (ix2 p q) = ix2 (n0 := 2048) (n1 := 3072) ⟨t.val * 256 + p.val, hr⟩ q :=
    funext fun a => Fin.ext (by
      match a with
      | ⟨0, _⟩ => show win4_3.index t (0 : Fin 2) * 256 + 1 * p.val = t.val * 256 + p.val; omega
      | ⟨1, _⟩ => show win4_3.index t (1 : Fin 2) * 3072 + 1 * q.val = q.val; omega)
  show reluBlk (F := Ideal) (linBlk (F := Ideal) (φ₁ := .f32) (φ₂ := .f32) dot_S256x768_S768x3072_S256x3072_1_0_0_1_n_n broadcasts_S1x3072_S256x3072 (iblk4 V c 0 t) (aW4 V c) (aB4 V c)) (ix2 p q)
    = (reluW (linW (aX4 V c) (aW4 V c) (aB4 V c))) (((cfg4.win 3).blk t).view.emb (ix2 p q))
  rw [e]
  exact RowBlk.relu (RowBlk.lin plain4 broadcasts_S1x3072_S256x3072 (blk4_0 V c t) (aW4 V c) (aB4 V c)) p hr q

/-- An index of the result array is in point t's block iff each coordinate is in the block's range. -/
theorem mem_blk4 (t : Fin cfg4.N) (i : S2048x3072.Idx) :
    i ∈ ((cfg4.win 3).blk t).view.set ↔ ∀ a : Fin 2, win4_3.index t a * S256x3072.size a ≤ (i a).val ∧ (i a).val < win4_3.index t a * S256x3072.size a + S256x3072.size a := by
  show i ∈ ((View.whole main_v20).slice (win4_3.rect t)).set ↔ _
  rw [View.set_slice_whole, Rect.mem_set_unit]
  exact Iff.rfl

theorem idx_onto4 : ∀ q0 : Fin 8, ∃ t : Fin cfg4.N, win4_3.index t = ![q0.val, 0] :=
  (by decide +kernel : ∀ q0 : Fin 8, ∃ t : Fin grid4.N, win4_3.index t = ![q0.val, 0])

/-- Every index of the result array is in some point's block. -/
theorem cover4 (i : S2048x3072.Idx) : ∃ t : Fin cfg4.N, (cfg4.win 3).flush t = true ∧ i ∈ ((cfg4.win 3).blk t).view.set := by
  have hi0 : (i 0).val < 2048 := (i 0).isLt
  have hi1 : (i 1).val < 3072 := (i 1).isLt
  obtain ⟨t, ht⟩ := idx_onto4 ⟨(i 0).val / 256, by omega⟩
  have q0 : win4_3.index t (0 : Fin 2) = (i 0).val / 256 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 256 ≤ (i 0).val ∧ (i 0).val < win4_3.index t (0 : Fin 2) * 256 + 256; omega
  | ⟨1, _⟩ => show win4_3.index t (1 : Fin 2) * 3072 ≤ (i 1).val ∧ (i 1).val < win4_3.index t (1 : Fin 2) * 3072 + 3072; omega

/-- The result array after the region: the layer of the whole input array. -/
theorem final4 (c : Dev nD) : (dat4 V c).arrAt 3 cfg4.N = reluW (linW (aX4 V c) (aW4 V c) (aB4 V c)) :=
  (dat4 V c).arrAt_eq_of_cover 3 _ (fun t _ => flushed4 V c t) cover4

end Cert.ReferenceIdeal.Hand

end
-- ==== Proof.RefLin5.lean ====
/-
  The reference's second feed-forward layer, as its region leaves it: the product of the input rows with the weight
  matrix plus its bias row, computed 256 rows at a time.  Point t of the grid reads rows 256·t … 256·t + 255 of the input
  and writes the same rows of the result; the weight matrix and the bias row are read whole at every point.  So the result
  array after the region is the dense layer of the whole input array.
-/
import proofs.«143729_g2000604737890889_pallaspilot1_168_5_alg».proof.Proof.Gen.ReferenceIdeal.Frame
import proofs.«143729_g2000604737890889_pallaspilot1_168_5_alg».proof.Proof.Layers

set_option maxRecDepth 16384

noncomputable section

open scoped BigOperators

namespace Cert.ReferenceIdeal.Hand

open Idealize.ShloMosaic Idealize.ShloMosaic.TcCoe Idealize.ShloMosaic.ValueIdx Idealize.ShloMosaic.Pipeline
open Cert.ReferenceIdeal Cert.ReferenceIdeal.Gen Cert.Hand.Layers Cert.Lib.DenseLayer

variable (V : (c : Dev nD) → (b : Ref sig .tc) → Buf (Elt Ideal) ((c : Thread nD τ).loc b))

/-- The region's arrays as the region finds them, as matrices. -/
abbrev aX5 (c : Dev nD) : Mat 2048 3072 := V c main_v20
abbrev aW5 (c : Dev nD) : Mat 3072 768 := V c main_arg7
abbrev aB5 (c : Dev nD) : Mat 1 768 := V c main_v21

theorem zero2_5 : (![0, 0] : Fin 2 → Nat) = fun _ => 0 := funext fun a => by fin_cases a <;> rfl

/-- The product's record is the plain one. -/
theorem plain5 : Plain dot_S256x3072_S3072x768_S256x768_1_0_0_1_n_n := Plain.of_fields _ rfl rfl rfl rfl rfl rfl

/-- The body's result is the layer's chain of the loaded blocks. -/
theorem out5_3_eq (x0 : Vec Ideal S256x3072 .f32) (x1 : Vec Ideal S3072x768 .f32) (x2 : Vec Ideal S1x768 .f32) :
    out5_3 (F := Ideal) x0 x1 x2 = linBlk (F := Ideal) (φ₁ := .f32) (φ₂ := .f32) dot_S256x3072_S3072x768_S256x768_1_0_0_1_n_n broadcasts_S1x768_S256x768 x0 x1 x2 := by
  unfold out5_3
  rw [View.canon_unit_zero zero2_5]
  simp only [View.ld_unit_zero (S := S256x3072) zero2_5, View.ld_unit_zero (S := S3072x768) zero2_5, View.ld_unit_zero (S := S1x768) zero2_5]
  unfold k5_pay1
  simp only [shapeCast_self]
  rfl

/-- The index maps, decided over the grid: the row-tiled windows sit at block row t, the others at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 ∧ t.val < 8 :=
  (by decide +kernel : ∀ t : Fin grid5.N, _)

/-- The input block at point t is the block of rows of the input array from row 256·t. -/
theorem blk5_0 (c : Dev nD) (t : Fin cfg5.N) : RowBlk (t.val * 256) (iblk5 V c 0 t : Mat 256 3072) (aX5 V c) := fun r hr k => by
  obtain ⟨e0, e1, -⟩ := idx_facts5 t
  show V c main_v20 (((cfg5.win 0).blk t).view.emb (ix2 r k)) = V c main_v20 (ix2 ⟨t.val * 256 + r.val, hr⟩ k)
  refine congrArg (V c main_v20) (funext fun a => Fin.ext ?_)
  match a with
  | ⟨0, _⟩ => show win5_0.index t (0 : Fin 2) * 256 + 1 * r.val = t.val * 256 + r.val; omega
  | ⟨1, _⟩ => show win5_0.index t (1 : Fin 2) * 3072 + 1 * k.val = k.val; omega

/-- The weight matrix is read whole at every point. -/
theorem blk5_1 (c : Dev nD) (t : Fin cfg5.N) : (iblk5 V c 1 t : Mat 3072 768) = aW5 V c := by
  obtain ⟨-, -, e0, e1, -⟩ := idx_facts5 t
  funext y
  show V c main_arg7 (((cfg5.win 1).blk t).view.emb y) = V c main_arg7 y
  refine congrArg (V c main_arg7) (funext fun a => Fin.ext ?_)
  match a with
  | ⟨0, _⟩ => show win5_1.index t (0 : Fin 2) * 3072 + 1 * (y 0).val = (y 0).val; omega
  | ⟨1, _⟩ => show win5_1.index t (1 : Fin 2) * 768 + 1 * (y 1).val = (y 1).val; omega

/-- The bias row is read whole at every point. -/
theorem blk5_2 (c : Dev nD) (t : Fin cfg5.N) : (iblk5 V c 2 t : Mat 1 768) = aB5 V c := by
  obtain ⟨-, -, -, -, e0, e1, -⟩ := idx_facts5 t
  funext y
  show V c main_v21 (((cfg5.win 2).blk t).view.emb y) = V c main_v21 y
  refine congrArg (V c main_v21) (funext fun a => Fin.ext ?_)
  match a with
  | ⟨0, _⟩ => show win5_2.index t (0 : Fin 2) * 1 + 1 * (y 0).val = (y 0).val; omega
  | ⟨1, _⟩ => show win5_2.index t (1 : Fin 2) * 768 + 1 * (y 1).val = (y 1).val; omega

/-- What point t writes back is block t of the layer of the whole input array. -/
theorem flushed5 (c : Dev nD) (t : Fin cfg5.N) :
    (dat5 V c).flushed 3 t = ((cfg5.win 3).blk t).view.read (Elt Ideal) (linW (aX5 V c) (aW5 V c) (aB5 V c)) := by
  show (cfg5.win 3).cut (grid5.coords t) ((dat5 V c).after 3 t) = _
  rw [after5_3, out5_3_eq, blk5_1, blk5_2]
  obtain ⟨-, -, -, -, -, -, e0, e1, ht⟩ := idx_facts5 t
  funext j
  obtain ⟨p, q, rfl⟩ : ∃ (p : Fin 256) (q : Fin 768), j = ix2 p q := ⟨j 0, j 1, eq_ix2 j⟩
  have hr : t.val * 256 + p.val < 2048 := by have := p.isLt; omega
  have e : ((cfg5.win 3).blk t).view.emb (ix2 p q) = ix2 (n0 := 2048) (n1 := 768) ⟨t.val * 256 + p.val, hr⟩ q :=
    funext fun a => Fin.ext (by
      match a with
      | ⟨0, _⟩ => show win5_3.index t (0 : Fin 2) * 256 + 1 * p.val = t.val * 256 + p.val; omega
      | ⟨1, _⟩ => show win5_3.index t (1 : Fin 2) * 768 + 1 * q.val = q.val; omega)
  show linBlk (F := Ideal) (φ₁ := .f32) (φ₂ := .f32) dot_S256x3072_S3072x768_S256x768_1_0_0_1_n_n broadcasts_S1x768_S256x768 (iblk5 V c 0 t) (aW5 V c) (aB5 V c) (ix2 p q)
    = (linW (aX5 V c) (aW5 V c) (aB5 V c)) (((cfg5.win 3).blk t).view.emb (ix2 p q))
  rw [e]
  exact RowBlk.lin plain5 broadcasts_S1x768_S256x768 (blk5_0 V c t) (aW5 V c) (aB5 V c) p hr q

/-- An index of the result array is in point t's block iff each coordinate is in the block's range. -/
theorem mem_blk5 (t : Fin cfg5.N) (i : S2048x768.Idx) :
    i ∈ ((cfg5.win 3).blk t).view.set ↔ ∀ a : Fin 2, win5_3.index t a * S256x768.size a ≤ (i a).val ∧ (i a).val < win5_3.index t a * S256x768.size a + S256x768.size a := by
  show i ∈ ((View.whole main_v22).slice (win5_3.rect t)).set ↔ _
  rw [View.set_slice_whole, Rect.mem_set_unit]
  exact Iff.rfl

theorem idx_onto5 : ∀ q0 : Fin 8, ∃ t : Fin cfg5.N, win5_3.index t = ![q0.val, 0] :=
  (by decide +kernel : ∀ q0 : Fin 8, ∃ t : Fin grid5.N, win5_3.index t = ![q0.val, 0])

/-- Every index of the result array is in some point's block. -/
theorem cover5 (i : S2048x768.Idx) : ∃ t : Fin cfg5.N, (cfg5.win 3).flush t = true ∧ i ∈ ((cfg5.win 3).blk t).view.set := by
  have hi0 : (i 0).val < 2048 := (i 0).isLt
  have hi1 : (i 1).val < 768 := (i 1).isLt
  obtain ⟨t, ht⟩ := idx_onto5 ⟨(i 0).val / 256, by omega⟩
  have q0 : win5_3.index t (0 : Fin 2) = (i 0).val / 256 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 256 ≤ (i 0).val ∧ (i 0).val < win5_3.index t (0 : Fin 2) * 256 + 256; omega
  | ⟨1, _⟩ => show win5_3.index t (1 : Fin 2) * 768 ≤ (i 1).val ∧ (i 1).val < win5_3.index t (1 : Fin 2) * 768 + 768; omega

/-- The result array after the region: the layer of the whole input array. -/
theorem final5 (c : Dev nD) : (dat5 V c).arrAt 3 cfg5.N = linW (aX5 V c) (aW5 V c) (aB5 V c) :=
  (dat5 V c).arrAt_eq_of_cover 3 _ (fun t _ => flushed5 V c t) cover5

end Cert.ReferenceIdeal.Hand

end
-- ==== Proof.RefLn6.lean ====
/-
  The reference's second residual sum and layer normalisation, as its region leaves it: every row of the sum of the two
  input arrays normalised by its own mean and variance, scaled and shifted column by column, computed 1024 rows at a time.
  Point t of the grid reads rows 1024·t … 1024·t + 1023 of both inputs and writes the same rows of the result; the scale
  and shift rows are read whole at every point.  So the result array after the region is the normalisation of the sum of
  the two whole input arrays.
-/
import proofs.«143729_g2000604737890889_pallaspilot1_168_5_alg».proof.Proof.Gen.ReferenceIdeal.Frame
import proofs.«143729_g2000604737890889_pallaspilot1_168_5_alg».proof.Proof.Layers

set_option maxRecDepth 16384

noncomputable section

open scoped BigOperators

namespace Cert.ReferenceIdeal.Hand

open Idealize.ShloMosaic Idealize.ShloMosaic.TcCoe Idealize.ShloMosaic.ValueIdx Idealize.ShloMosaic.Pipeline
open Cert.ReferenceIdeal Cert.ReferenceIdeal.Gen Cert.Hand.Layers Cert.Lib.DenseLayer

variable (V : (c : Dev nD) → (b : Ref sig .tc) → Buf (Elt Ideal) ((c : Thread nD τ).loc b))

/-- The region's arrays as the region finds them, as matrices. -/
abbrev aX6 (c : Dev nD) : Mat 2048 768 := V c main_v22
abbrev aR6 (c : Dev nD) : Mat 2048 768 := V c main_v18
abbrev aG6 (c : Dev nD) : Mat 1 768 := V c main_v23
abbrev aBt6 (c : Dev nD) : Mat 1 768 := V c main_v24

theorem zero2_6 : (![0, 0] : Fin 2 → Nat) = fun _ => 0 := funext fun a => by fin_cases a <;> rfl

/-- The body's result is the normalisation's chain of the sum of the two loaded blocks of rows. -/
theorem out6_4_eq (x0 x1 : Vec Ideal S1024x768 .f32) (x2 x3 : Vec Ideal S1x768 .f32) :
    out6_4 (F := Ideal) x0 x1 x2 x3 = lnBlk (F := Ideal) reduces_S1024x768_S1024 shapeCasts_S1024_S1024x1 broadcasts_S1024x1_S1024x768 broadcasts_S1x768_S1024x768 (addf x0 x1) x2 x3 := by
  unfold out6_4
  rw [View.canon_unit_zero zero2_6]
  simp only [View.ld_unit_zero (S := S1024x768) zero2_6, View.ld_unit_zero (S := S1x768) zero2_6]
  unfold k6_pay1
  simp only [shapeCast_self]
  rfl

/-- The index maps, decided over the grid: the row-tiled windows sit at block row t, the others at block (0, 0). -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 ∧ t.val < 2 :=
  (by decide +kernel : ∀ t : Fin grid6.N, _)

/-- The input block at point t is the block of rows of its array from row 1024·t. -/
theorem blk6_0 (c : Dev nD) (t : Fin cfg6.N) : RowBlk (t.val * 1024) (iblk6 V c 0 t : Mat 1024 768) (aX6 V c) := fun r hr k => by
  obtain ⟨e0, e1, e2, e3, -⟩ := idx_facts6 t
  show V c main_v22 (((cfg6.win 0).blk t).view.emb (ix2 r k)) = V c main_v22 (ix2 ⟨t.val * 1024 + r.val, hr⟩ k)
  refine congrArg (V c main_v22) (funext fun a => Fin.ext ?_)
  match a with
  | ⟨0, _⟩ => show win6_0.index t (0 : Fin 2) * 1024 + 1 * r.val = t.val * 1024 + r.val; omega
  | ⟨1, _⟩ => show win6_0.index t (1 : Fin 2) * 768 + 1 * k.val = k.val; omega

/-- The residual block at point t is the block of rows of its array from row 1024·t. -/
theorem blk6_1 (c : Dev nD) (t : Fin cfg6.N) : RowBlk (t.val * 1024) (iblk6 V c 1 t : Mat 1024 768) (aR6 V c) := fun r hr k => by
  obtain ⟨e0, e1, e2, e3, -⟩ := idx_facts6 t
  show V c main_v18 (((cfg6.win 1).blk t).view.emb (ix2 r k)) = V c main_v18 (ix2 ⟨t.val * 1024 + r.val, hr⟩ k)
  refine congrArg (V c main_v18) (funext fun a => Fin.ext ?_)
  match a with
  | ⟨0, _⟩ => show win6_1.index t (0 : Fin 2) * 1024 + 1 * r.val = t.val * 1024 + r.val; omega
  | ⟨1, _⟩ => show win6_1.index t (1 : Fin 2) * 768 + 1 * k.val = k.val; omega

/-- The scale row is read whole at every point. -/
theorem blk6_2 (c : Dev nD) (t : Fin cfg6.N) : (iblk6 V c 2 t : Mat 1 768) = aG6 V c := by
  obtain ⟨-, -, -, -, e0, e1, e2, e3, -⟩ := idx_facts6 t
  funext y
  show V c main_v23 (((cfg6.win 2).blk t).view.emb y) = V c main_v23 y
  refine congrArg (V c main_v23) (funext fun a => Fin.ext ?_)
  match a with
  | ⟨0, _⟩ => show win6_2.index t (0 : Fin 2) * 1 + 1 * (y 0).val = (y 0).val; omega
  | ⟨1, _⟩ => show win6_2.index t (1 : Fin 2) * 768 + 1 * (y 1).val = (y 1).val; omega

/-- The shift row is read whole at every point. -/
theorem blk6_3 (c : Dev nD) (t : Fin cfg6.N) : (iblk6 V c 3 t : Mat 1 768) = aBt6 V c := by
  obtain ⟨-, -, -, -, e0, e1, e2, e3, -⟩ := idx_facts6 t
  funext y
  show V c main_v24 (((cfg6.win 3).blk t).view.emb y) = V c main_v24 y
  refine congrArg (V c main_v24) (funext fun a => Fin.ext ?_)
  match a with
  | ⟨0, _⟩ => show win6_3.index t (0 : Fin 2) * 1 + 1 * (y 0).val = (y 0).val; omega
  | ⟨1, _⟩ => show win6_3.index t (1 : Fin 2) * 768 + 1 * (y 1).val = (y 1).val; omega

/-- What point t writes back is block t of the normalisation of the sum of the two whole arrays. -/
theorem flushed6 (c : Dev nD) (t : Fin cfg6.N) :
    (dat6 V c).flushed 4 t = ((cfg6.win 4).blk t).view.read (Elt Ideal) (lnW (addW (aX6 V c) (aR6 V c)) (aG6 V c) (aBt6 V c)) := by
  show (cfg6.win 4).cut (grid6.coords t) ((dat6 V c).after 4 t) = _
  rw [after6_4, out6_4_eq, blk6_2, blk6_3]
  obtain ⟨-, -, -, -, -, -, -, -, e0, e1, ht⟩ := idx_facts6 t
  funext j
  obtain ⟨p, q, rfl⟩ : ∃ (p : Fin 1024) (q : Fin 768), j = ix2 p q := ⟨j 0, j 1, eq_ix2 j⟩
  have hr : t.val * 1024 + p.val < 2048 := by have := p.isLt; omega
  have e : ((cfg6.win 4).blk t).view.emb (ix2 p q) = ix2 (n0 := 2048) (n1 := 768) ⟨t.val * 1024 + p.val, hr⟩ q :=
    funext fun a => Fin.ext (by
      match a with
      | ⟨0, _⟩ => show win6_4.index t (0 : Fin 2) * 1024 + 1 * p.val = t.val * 1024 + p.val; omega
      | ⟨1, _⟩ => show win6_4.index t (1 : Fin 2) * 768 + 1 * q.val = q.val; omega)
  show lnBlk (F := Ideal) reduces_S1024x768_S1024 shapeCasts_S1024_S1024x1 broadcasts_S1024x1_S1024x768 broadcasts_S1x768_S1024x768 (addf (iblk6 V c 0 t) (iblk6 V c 1 t)) (aG6 V c) (aBt6 V c) (ix2 p q)
    = (lnW (addW (aX6 V c) (aR6 V c)) (aG6 V c) (aBt6 V c)) (((cfg6.win 4).blk t).view.emb (ix2 p q))
  rw [e]
  exact RowBlk.ln reduces_S1024x768_S1024 shapeCasts_S1024_S1024x1 broadcasts_S1024x1_S1024x768 broadcasts_S1x768_S1024x768 (RowBlk.addW (blk6_0 V c t) (blk6_1 V c t)) (aG6 V c) (aBt6 V c) p hr q

/-- An index of the result array is in point t's block iff each coordinate is in the block's range. -/
theorem mem_blk6 (t : Fin cfg6.N) (i : S2048x768.Idx) :
    i ∈ ((cfg6.win 4).blk t).view.set ↔ ∀ a : Fin 2, win6_4.index t a * S1024x768.size a ≤ (i a).val ∧ (i a).val < win6_4.index t a * S1024x768.size a + S1024x768.size a := by
  show i ∈ ((View.whole main_v25).slice (win6_4.rect t)).set ↔ _
  rw [View.set_slice_whole, Rect.mem_set_unit]
  exact Iff.rfl

theorem idx_onto6 : ∀ q0 : Fin 2, ∃ t : Fin cfg6.N, win6_4.index t = ![q0.val, 0] :=
  (by decide +kernel : ∀ q0 : Fin 2, ∃ t : Fin grid6.N, win6_4.index t = ![q0.val, 0])

/-- Every index of the result array is in some point's block. -/
theorem cover6 (i : S2048x768.Idx) : ∃ t : Fin cfg6.N, (cfg6.win 4).flush t = true ∧ i ∈ ((cfg6.win 4).blk t).view.set := by
  have hi0 : (i 0).val < 2048 := (i 0).isLt
  have hi1 : (i 1).val < 768 := (i 1).isLt
  obtain ⟨t, ht⟩ := idx_onto6 ⟨(i 0).val / 1024, by omega⟩
  have q0 : win6_4.index t (0 : Fin 2) = (i 0).val / 1024 := congrFun ht 0
  have q1 : win6_4.index t (1 : Fin 2) = 0 := congrFun ht 1
  refine ⟨t, flush6_4 t, ?_⟩
  rw [mem_blk6]
  intro a
  match a with
  | ⟨0, _⟩ => show win6_4.index t (0 : Fin 2) * 1024 ≤ (i 0).val ∧ (i 0).val < win6_4.index t (0 : Fin 2) * 1024 + 1024; omega
  | ⟨1, _⟩ => show win6_4.index t (1 : Fin 2) * 768 ≤ (i 1).val ∧ (i 1).val < win6_4.index t (1 : Fin 2) * 768 + 768; omega

/-- The result array after the region: the normalisation of the sum of the two whole arrays. -/
theorem final6 (c : Dev nD) : (dat6 V c).arrAt 4 cfg6.N = lnW (addW (aX6 V c) (aR6 V c)) (aG6 V c) (aBt6 V c) :=
  (dat6 V c).arrAt_eq_of_cover 4 _ (fun t _ => flushed6 V c t) cover6

end Cert.ReferenceIdeal.Hand

end
-- ==== Proof.FoldR.lean ====
/-
  The reference program's result array as one function of its argument arrays: the host stretches' reads composed with
  the seven regions' values.  The projection is cut into heads by a reshape, a transposition and three slices; the
  attention values come back head by head and are regrouped as a 2048 x 768 matrix, which is the same matrix the other
  layout of the heads regroups to.
-/
import proofs.«143729_g2000604737890889_pallaspilot1_168_5_alg».proof.Proof.FoldRHost
import proofs.«143729_g2000604737890889_pallaspilot1_168_5_alg».proof.Proof.RefLin0
import proofs.«143729_g2000604737890889_pallaspilot1_168_5_alg».proof.Proof.RefAtt
import proofs.«143729_g2000604737890889_pallaspilot1_168_5_alg».proof.Proof.RefHeads
import proofs.«143729_g2000604737890889_pallaspilot1_168_5_alg».proof.Proof.RefLin2
import proofs.«143729_g2000604737890889_pallaspilot1_168_5_alg».proof.Proof.RefLn3
import proofs.«143729_g2000604737890889_pallaspilot1_168_5_alg».proof.Proof.RefLin4
import proofs.«143729_g2000604737890889_pallaspilot1_168_5_alg».proof.Proof.RefLin5
import proofs.«143729_g2000604737890889_pallaspilot1_168_5_alg».proof.Proof.RefLn6
import proofs.«143729_g2000604737890889_pallaspilot1_168_5_alg».proof.Proof.Bridge

set_option maxRecDepth 16384

noncomputable section

open scoped BigOperators

namespace Cert.ReferenceIdeal.Hand

open Idealize.ShloMosaic Idealize.ShloMosaic.TcCoe Idealize.ShloMosaic.ValueIdx Idealize.ShloMosaic.Pipeline Idealize.ShloMosaic.StableHlo
open Cert.ReferenceIdeal Cert.ReferenceIdeal.Gen Cert.Hand.Layers Cert.Hand.Spec Cert.Hand.RefHeads

variable (m : (ℓ : Loc nD τ sig) → Buf (Elt Ideal) ℓ) (ρ : Dev nD → PrngReg) (c : Dev nD)

/-- The input rows, the projection, the regrouped attention values, and the first normalisation's result, as functions of
    the argument arrays. -/
def gX : Mat 2048 768 := (shapeCast S2048x768 (m ((c : Thread nD τ).loc main_arg0)) shapeCasts_S16x128x768_S2048x768)
def gQKV : Mat 2048 2304 := linW (gX m c) (m ((c : Thread nD τ).loc main_arg1)) (shapeCast S1x2304 (m ((c : Thread nD τ).loc main_arg2)) shapeCasts_S2304_S1x2304)
def gVals : Mat 2048 768 := shapeCast S2048x768 (kattW (gQKV m c)) sc_katt
def gH1 : Mat 2048 768 := lnW (addW (linW (gVals m c) (m ((c : Thread nD τ).loc main_arg3)) (shapeCast S1x768 (m ((c : Thread nD τ).loc main_arg4)) shapeCasts_S768_S1x768)) (gX m c)) (shapeCast S1x768 (m ((c : Thread nD τ).loc main_arg9)) shapeCasts_S768_S1x768) (shapeCast S1x768 (m ((c : Thread nD τ).loc main_arg10)) shapeCasts_S768_S1x768)
def gFF : Mat 2048 3072 := reluW (linW (gH1 m c) (m ((c : Thread nD τ).loc main_arg5)) (shapeCast S1x3072 (m ((c : Thread nD τ).loc main_arg6)) shapeCasts_S3072_S1x3072))
def gFF2 : Mat 2048 768 := linW (gFF m c) (m ((c : Thread nD τ).loc main_arg7)) (shapeCast S1x768 (m ((c : Thread nD τ).loc main_arg8)) shapeCasts_S768_S1x768)

/-- The projection, after region 0. -/
theorem R_v2 : (W2 m ρ c (Proc.devRef .tc main_v2) : Mat 2048 2304) = gQKV m c := by
  rw [W2_v2 m ρ c, final0 (V1 m ρ) c]
  show linW (W1 m ρ c (Proc.devRef .tc main_v0)) (W1 m ρ c (Proc.devRef .tc main_arg1)) (W1 m ρ c (Proc.devRef .tc main_v1)) = _
  rw [W1_v0 m ρ c, W1_arg1 m ρ c, W1_v1 m ρ c]
  rfl

theorem R_v8 : (W3 m ρ c (Proc.devRef .tc main_v8) : Arr3 192 128 64) = part0 (gQKV m c) :=
  (W3_v8 m ρ c).trans (by rw [R_v2 m ρ c]; rfl)
theorem R_v9 : (W3 m ρ c (Proc.devRef .tc main_v9) : Arr3 192 128 64) = part1 (gQKV m c) :=
  (W3_v9 m ρ c).trans (by rw [R_v2 m ρ c]; rfl)
theorem R_v10 : (W3 m ρ c (Proc.devRef .tc main_v10) : Arr3 192 128 64) = part2 (gQKV m c) :=
  (W3_v10 m ρ c).trans (by rw [R_v2 m ρ c]; rfl)

/-- The attention values head by head, after region 1. -/
theorem R_v11 : (W4 m ρ c (Proc.devRef .tc main_v11) : Arr3 192 128 64) = rattW (gQKV m c) := by
  rw [W4_v11 m ρ c, final1 (V3 m ρ) c]
  show attW3 (W3 m ρ c (Proc.devRef .tc main_v8)) (W3 m ρ c (Proc.devRef .tc main_v9)) (W3 m ρ c (Proc.devRef .tc main_v10)) = _
  rw [R_v8 m ρ c, R_v9 m ρ c, R_v10 m ρ c]
  exact ref_heads (gQKV m c)

/-- The attention values regrouped, as region 2 finds them. -/
theorem R_v13 : (W5 m ρ c (Proc.devRef .tc main_v13) : Mat 2048 768) = gVals m c := by
  rw [W5_v13 m ρ c, R_v11 m ρ c]
  exact vals_agree (gQKV m c) sc_katt shapeCasts_S192x128x64_S16x128x768 shapeCasts_S16x128x768_S2048x768

/-- The out-projection, after region 2. -/
theorem R_v15 : (W6 m ρ c (Proc.devRef .tc main_v15) : Mat 2048 768) = linW (gVals m c) (m ((c : Thread nD τ).loc main_arg3)) (shapeCast S1x768 (m ((c : Thread nD τ).loc main_arg4)) shapeCasts_S768_S1x768) := by
  rw [W6_v15 m ρ c, final2 (V5 m ρ) c]
  show linW (W5 m ρ c (Proc.devRef .tc main_v13)) (W5 m ρ c (Proc.devRef .tc main_arg3)) (W5 m ρ c (Proc.devRef .tc main_v14)) = _
  rw [R_v13 m ρ c, W5_arg3 m ρ c, W5_v14 m ρ c]

/-- The first residual normalisation, after region 3. -/
theorem R_v18 : (W8 m ρ c (Proc.devRef .tc main_v18) : Mat 2048 768) = gH1 m c := by
  rw [W8_v18 m ρ c, final3 (V7 m ρ) c]
  show lnW (addW (W7 m ρ c (Proc.devRef .tc main_v15)) (W7 m ρ c (Proc.devRef .tc main_v0))) (W7 m ρ c (Proc.devRef .tc main_v16)) (W7 m ρ c (Proc.devRef .tc main_v17)) = _
  rw [W7_v15 m ρ c, W7_v0 m ρ c, W7_v16 m ρ c, W7_v17 m ρ c, R_v15 m ρ c]
  rfl

/-- The rectified first feed-forward product, after region 4. -/
theorem R_v20 : (W10 m ρ c (Proc.devRef .tc main_v20) : Mat 2048 3072) = gFF m c := by
  rw [W10_v20 m ρ c, final4 (V9 m ρ) c]
  show reluW (linW (W9 m ρ c (Proc.devRef .tc main_v18)) (W9 m ρ c (Proc.devRef .tc main_arg5)) (W9 m ρ c (Proc.devRef .tc main_v19))) = _
  rw [W9_v18 m ρ c, W9_arg5 m ρ c, W9_v19 m ρ c, R_v18 m ρ c]
  rfl

/-- The second feed-forward product, after region 5. -/
theorem R_v22 : (W12 m ρ c (Proc.devRef .tc main_v22) : Mat 2048 768) = gFF2 m c := by
  rw [W12_v22 m ρ c, final5 (V11 m ρ) c]
  show linW (W11 m ρ c (Proc.devRef .tc main_v20)) (W11 m ρ c (Proc.devRef .tc main_arg7)) (W11 m ρ c (Proc.devRef .tc main_v21)) = _
  rw [W11_v20 m ρ c, W11_arg7 m ρ c, W11_v21 m ρ c, R_v20 m ρ c]
  rfl

/-- The result array after every weakly fair execution's last boundary: the layer of the argument arrays. -/
theorem reference_value : W15 m ρ c (Proc.devRef .tc main_v26)
    = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W15_v26 m ρ c, W14_v25 m ρ c, final6 (V13 m ρ) c]
  show shapeCast S16x128x768 (lnW (addW (W13 m ρ c (Proc.devRef .tc main_v22)) (W13 m ρ c (Proc.devRef .tc main_v18))) (W13 m ρ c (Proc.devRef .tc main_v23)) (W13 m ρ c (Proc.devRef .tc main_v24))) shapeCasts_S2048x768_S16x128x768 = _
  rw [W13_v22 m ρ c, W13_v18 m ρ c, W13_v23 m ρ c, W13_v24 m ρ c, R_v22 m ρ c, R_v18 m ρ c]
  rfl

end Cert.ReferenceIdeal.Hand

end
-- ==== Proof.lean ====
/-
  The certificate of one transformer encoder layer computed two ways.

  Both programs compute, at the extended reals, ONE function of the thirteen argument arrays: the input rows are
  projected to queries, keys and values; each of the 16 x 12 heads takes the softmax of its scaled scores against its
  values; the heads' values, listed in row-major order, are regrouped as a 2048 x 768 matrix; then an out-projection, a
  residual layer normalisation in its one-pass form, a feed-forward pair of dense layers with a rectifier between them,
  and a second residual normalisation follow, every one of them acting on each row by itself.  One program does this in
  two fused regions (all heads of one batch element per grid point; then the rest of the layer on 256-row tiles), the
  other in seven regions (each dense layer, the attention per head, each normalisation) with a reshape, a transposition
  and three slices cutting the projection into heads.  No algebraic law is needed beyond reading each product, row sum
  and row maximum entry by entry and seeing that a block of rows of each row-local function is that function of the
  block of rows; the two layouts of the heads' values are the same list of numbers.  The three frames are the generated
  ones; the idealisation rewrote nothing, so its claim is trivial.
-/
import proofs.«143729_g2000604737890889_pallaspilot1_168_5_alg».proof.Defs
import proofs.«143729_g2000604737890889_pallaspilot1_168_5_alg».proof.Proof.Gen.Kernel
import proofs.«143729_g2000604737890889_pallaspilot1_168_5_alg».proof.Proof.Gen.Kernel.Skeleton
import proofs.«143729_g2000604737890889_pallaspilot1_168_5_alg».proof.Proof.Gen.Kernel.Launch
import proofs.«143729_g2000604737890889_pallaspilot1_168_5_alg».proof.Proof.Gen.Kernel.Points
import proofs.«143729_g2000604737890889_pallaspilot1_168_5_alg».proof.Proof.Gen.Kernel.Frame
import proofs.«143729_g2000604737890889_pallaspilot1_168_5_alg».proof.Proof.Gen.KernelIdeal
import proofs.«143729_g2000604737890889_pallaspilot1_168_5_alg».proof.Proof.Gen.KernelIdeal.Skeleton
import proofs.«143729_g2000604737890889_pallaspilot1_168_5_alg».proof.Proof.Gen.KernelIdeal.Launch
import proofs.«143729_g2000604737890889_pallaspilot1_168_5_alg».proof.Proof.Gen.KernelIdeal.Points
import proofs.«143729_g2000604737890889_pallaspilot1_168_5_alg».proof.Proof.Gen.KernelIdeal.Frame
import proofs.«143729_g2000604737890889_pallaspilot1_168_5_alg».proof.Proof.Gen.ReferenceIdeal
import proofs.«143729_g2000604737890889_pallaspilot1_168_5_alg».proof.Proof.Gen.ReferenceIdeal.Skeleton
import proofs.«143729_g2000604737890889_pallaspilot1_168_5_alg».proof.Proof.Gen.ReferenceIdeal.Launch
import proofs.«143729_g2000604737890889_pallaspilot1_168_5_alg».proof.Proof.Gen.ReferenceIdeal.Points
import proofs.«143729_g2000604737890889_pallaspilot1_168_5_alg».proof.Proof.Gen.ReferenceIdeal.Frame
import proofs.«143729_g2000604737890889_pallaspilot1_168_5_alg».proof.Proof.Gen.Pre_finite_inputs
import Idealize.ShloMosaic.Adequacy
import Idealize.ShloMosaic.Init
import proofs.«143729_g2000604737890889_pallaspilot1_168_5_alg».proof.Proof.RunK
import proofs.«143729_g2000604737890889_pallaspilot1_168_5_alg».proof.Proof.RunR
import proofs.«143729_g2000604737890889_pallaspilot1_168_5_alg».proof.Proof.FoldK
import proofs.«143729_g2000604737890889_pallaspilot1_168_5_alg».proof.Proof.FoldR

noncomputable section

namespace Cert.Proof

open Idealize.ShloMosaic Idealize.SL.Sem

/-- From memories agreeing on the arguments both idealized programs end with the layer of the argument arrays in their
    result arrays: each program's run with its result array named, that array read back through the program's host
    stretches and regions, and the arguments' agreement. -/
theorem algebraic : Cert.algebraic_KernelIdeal_ReferenceIdeal := by
  intro m ρ m' ρ' _ hagree
  refine ⟨fun c => Cert.Hand.Spec.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run (Cert.KernelIdeal.defs (F := Ideal)) _ _).mono
      (fun r h c => ⟨(h c).1.trans (Cert.KernelIdeal.Hand.kernel_value m ρ c), (h c).2⟩)
      (Cert.KernelIdeal.Hand.run_result (F := Ideal) m ρ)
  · refine (θ_run (Cert.ReferenceIdeal.defs (F := Ideal)) _ _).mono (fun r h c => ⟨(h c).1.trans ?_, (h c).2⟩)
      (Cert.ReferenceIdeal.Hand.run_result (F := Ideal) m' ρ')
    obtain ⟨h0, h1, h2, h3, h4, h5, h6, h7, h8, h9, h10, h11, h12⟩ := hagree c
    rw [Cert.ReferenceIdeal.Hand.reference_value m' ρ' c, h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
